-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel

variable [Facts]

def fn {F : FTy → Type} [FloatOps F] (main_arg0 : FVec F S8x2048x768 .f32) (main_arg1 : FVec F S8x2048x768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S8x2048x768 .f32 := Host.absf main_arg1
  let main_cst_0 : FVec F S_ .f32 := constant S_ .f32 0x7F800000#32
  let main_v5 : FVec F S8x2048x768 .f32 := broadcastInDim S8x2048x768 ![] bcast_S_S8x2048x768 main_cst_0
  let main_v6 : IVec S8x2048x768 1 := cmpf .olt main_v4 main_v5
  let main_c_1 : IVec S_ 1 := constantI S_ 1 1#1
  let main_v7 : IVec S_ 1 := (fun x v => Host.reduce IntOp.andi x v reducesTo_S8x2048x768_S_d0_1_2 h_S_) main_v6 main_c_1
  let main_v8 : IVec S_ 1 := andi main_v3 main_v7
  main_v8
-- ==== Kernel.lean ====
abbrev S8x2048x768 : Shape := ⟨3, ![8, 2048, 768]⟩
abbrev S1x1024x768 : Shape := ⟨3, ![1, 1024, 768]⟩
abbrev S1x256x768 : Shape := ⟨3, ![1, 256, 768]⟩
abbrev S1024x1 : Shape := ⟨2, ![1024, 1]⟩
abbrev S1024x768 : Shape := ⟨2, ![1024, 768]⟩
abbrev S1024 : Shape := ⟨1, ![1024]⟩
abbrev S256x768 : Shape := ⟨2, ![256, 768]⟩
abbrev S256 : Shape := ⟨1, ![256]⟩
abbrev S256x1 : Shape := ⟨2, ![256, 1]⟩
abbrev S1024x256 : Shape := ⟨2, ![1024, 256]⟩

abbrev nBuf : Space → Nat
  | .hbm => 3
  | .vmem => 14
  | .smem => 0
  | _ => 0

abbrev bufTy : (tb : Table) → Fin (tcTables nBuf tb) → BufTy
  | .hbm, ⟨0, _⟩ => ⟨S8x2048x768, .f32⟩
  | .hbm, ⟨1, _⟩ => ⟨S8x2048x768, .f32⟩
  | .hbm, ⟨2, _⟩ => ⟨S8x2048x768, .f32⟩
  | .local _ .vmem, ⟨0, _⟩ => ⟨S1x1024x768, .f32⟩
  | .local _ .vmem, ⟨1, _⟩ => ⟨S1x1024x768, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x1024x768, .f32⟩
  | .local _ .vmem, ⟨7, _⟩ => ⟨S1x1024x768, .f32⟩
  | .local _ .vmem, ⟨8, _⟩ => ⟨S1x1024x768, .f32⟩
  | .local _ .vmem, ⟨9, _⟩ => ⟨S1x1024x768, .f32⟩
  | .local _ .vmem, ⟨10, _⟩ => ⟨S1024x1, .f32⟩
  | .local _ .vmem, ⟨11, _⟩ => ⟨S1024x1, .f32⟩
  | .local _ .vmem, ⟨12, _⟩ => ⟨S1024x768, .f32⟩
  | .local _ .vmem, ⟨13, _⟩ => ⟨S1024x768, .bf16⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v60 : BitVec 1 := Scalar.cmpi .eq arg2 c7_i32
  let v61 : BitVec 32 := Scalar.extui v60
  let c0_i32_28 : BitVec 32 := 0#32
  let v62 : BitVec 1 := Scalar.cmpi .ne v61 c0_i32_28
  v62

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  reduces_S1024x768_S1024 : S1024x768.Reduces [1] S1024
  shapeCasts_S1024_S1024x1 : S1024.ShapeCasts S1024x1
  broadcasts_S1024x1_S1024x768 : S1024x1.Broadcasts S1024x768
  bitsLt_bf16_f32 : FTy.bits .bf16 < FTy.bits .f32
  packedbf16_S1024x768_S1024x768_0_0 : (Rect.unit (s := S1024x768) ![0, 0] S1024x768.size inb_S1024x768_S1024x768_0_0).PackedRows (EltTy.packing .bf16)
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  reduces_S256x768_S256 : S256x768.Reduces [1] S256
  shapeCasts_S256_S256x1 : S256.ShapeCasts S256x1
  broadcasts_S256x1_S256x768 : S256x1.Broadcasts S256x768
  iota_S1024x256_d0_w32 : S1024x256.Iotas .tc 32 [0]
  iota_S1024x256_d1_w32 : S1024x256.Iotas .tc 32 [1]
  reduces_S1024x256_S1024 : S1024x256.Reduces [1] S1024
  broadcasts_S1024x1_S1024x256 : S1024x1.Broadcasts S1024x256
  shapeCasts_S1024x768_S1x1024x768 : S1024x768.ShapeCasts S1x1024x768
  dot_S1024x768_S256x768_S1024x256_1_1_0_0_n_n_wf : DotDims.WF S1024x768 S256x768 S1024x256 [1] [1] [0] [0] [] []
  dot_S1024x256_S256x768_S1024x768_1_0_0_1_n_n_wf : DotDims.WF S1024x256 S256x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S8x2048x768.size a
  hwx0_0 : ∀ i : grid0.Coords, EltTy.bits .f32 = 32 ∨ (Rect.block (s := S8x2048x768) S1x1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x768.size a ≤ S8x2048x768.size a
  hwx0_1 : ∀ i : grid0.Coords, EltTy.bits .f32 = 32 ∨ (Rect.block (s := S8x2048x768) S1x256x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x768.size a ≤ S8x2048x768.size a
  hwx0_2 : ∀ i : grid0.Coords, EltTy.bits .f32 = 32 ∨ (Rect.block (s := S8x2048x768) S1x256x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x768.size a ≤ S8x2048x768.size a
  hwx0_3 : ∀ i : grid0.Coords, EltTy.bits .f32 = 32 ∨ (Rect.block (s := S8x2048x768) S1x1024x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x768.size a ≤ S8x2048x768.size a
  hwx0_4 : ∀ i : grid0.Coords, EltTy.bits .f32 = 32 ∨ (Rect.block (s := S8x2048x768) S1x1024x768.size (cc0_transform_4 i) (hinb0_4 i)).WholeWords (EltTy.packing .f32)

variable [Facts₀]

def dot_S1024x768_S256x768_S1024x256_1_1_0_0_n_n : DotDims S1024x768 S256x768 S1024x256 where
  lhsContracting := [1]
  rhsContracting := [1]
  lhsNonContracting := [0]
  rhsNonContracting := [0]
  lhsBatch := []
  rhsBatch := []
  wf := dot_S1024x768_S256x768_S1024x256_1_1_0_0_n_n_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf

abbrev win0_0 : Pipeline.Window sig grid0 :=
  Pipeline.Window.ofSpec (Memref.whole main_arg1) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x256x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x1024x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x2048x768 : Shape := ⟨3, ![8, 2048, 768]⟩
abbrev S_ : Shape := ⟨0, ![]⟩
abbrev S8x2048 : Shape := ⟨2, ![8, 2048]⟩
abbrev S8x2048x1 : Shape := ⟨3, ![8, 2048, 1]⟩
abbrev S8x2048x2048 : Shape := ⟨3, ![8, 2048, 2048]⟩
abbrev S2048x2048 : Shape := ⟨2, ![2048, 2048]⟩
abbrev S1x2048x2048 : Shape := ⟨3, ![1, 2048, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S8x2048x768, .f32⟩
  | .hbm, ⟨2, _⟩ => ⟨S8x2048x768, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S8x2048x768, .f32⟩
  | .hbm, ⟨11, _⟩ => ⟨S8x2048x768, .f32⟩
  | .hbm, ⟨12, _⟩ => ⟨S8x2048x2048, .f32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S1x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048, .f32⟩
  | .hbm, ⟨28, _⟩ => ⟨S_, .f32⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048, .f32⟩
  | .hbm, ⟨33, _⟩ => ⟨S_, .f32⟩
  | .hbm, ⟨34, _⟩ => ⟨S8x2048, .f32⟩
  | .hbm, ⟨35, _⟩ => ⟨S8x2048, .f32⟩
  | .hbm, ⟨36, _⟩ => ⟨S8x2048x1, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S8x2048x1, .f32⟩
  | .hbm, ⟨43, _⟩ => ⟨S8x2048x2048, .f32⟩
  | .hbm, ⟨44, _⟩ => ⟨S8x2048x2048, .f32⟩
  | .hbm, ⟨45, _⟩ => ⟨S8x2048x768, .f32⟩
  | .hbm, ⟨46, _⟩ => ⟨S8x2048x1, .f32⟩
  | .hbm, ⟨47, _⟩ => ⟨S8x2048x768, .f32⟩
  | .hbm, ⟨48, _⟩ => ⟨S8x2048x768, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S8x2048x768, .f32⟩
  | .hbm, ⟨53, _⟩ => ⟨S8x2048x768, .f32⟩
  | .hbm, ⟨54, _⟩ => ⟨S8x2048x768, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  reducesTo_S8x2048x768_S8x2048_d2 : S8x2048x768.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x768_0_1_2 : S8x2048x1.BroadcastsInDim S8x2048x768 (![0, 1, 2] : Fin 3 → Fin S8x2048x768.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d2 : S8x2048x2048.ReducesTo [2] S8x2048
  bcast_S_S8x2048x2048 : S_.BroadcastsInDim S8x2048x2048 (![] : Fin 0 → Fin S8x2048x2048.rank)
  bcast_S_S8x2048 : S_.BroadcastsInDim S8x2048 (![] : Fin 0 → Fin S8x2048.rank)
  bcast_S8x2048x1_S8x2048x2048_0_1_2 : S8x2048x1.BroadcastsInDim S8x2048x2048 (![0, 1, 2] : Fin 3 → Fin S8x2048x2048.rank)
  dot_S8x2048x768_S8x2048x768_S8x2048x2048_2_2_1_1_0_0_wf : DotDims.WF S8x2048x768 S8x2048x768 S8x2048x2048 [2] [2] [1] [1] [0] [0]
  dot_S8x2048x2048_S8x2048x768_S8x2048x768_2_1_1_2_0_0_wf : DotDims.WF S8x2048x2048 S8x2048x768 S8x2048x768 [2] [1] [1] [2] [0] [0]

variable [Facts₀]

def dot_S8x2048x768_S8x2048x768_S8x2048x2048_2_2_1_1_0_0 : DotDims S8x2048x768 S8x2048x768 S8x2048x2048 where
  lhsContracting := [2]
  rhsContracting := [2]
  lhsNonContracting := [1]
  rhsNonContracting := [1]
  lhsBatch := [0]
  rhsBatch := [0]
  wf := dot_S8x2048x768_S8x2048x768_S8x2048x2048_2_2_1_1_0_0_wf
def dot_S8x2048x2048_S8x2048x768_S8x2048x768_2_1_1_2_0_0 : DotDims S8x2048x2048 S8x2048x768 S8x2048x768 where
  lhsContracting := [2]
  rhsContracting := [1]
  lhsNonContracting := [1]
  rhsNonContracting := [2]
  lhsBatch := [0]
  rhsBatch := [0]
  wf := dot_S8x2048x2048_S8x2048x768_S8x2048x768_2_1_1_2_0_0_wf

class Facts : Prop extends Facts₀ where

variable [Facts]
-- ==== Proof.BodyK.lean ====
/-
  The kernel's body, run once in each of its three situations.

  The grid walks batches, query blocks of 1024 rows and, innermost, key tiles of 256 rows. A grid point's body sees
  the query block of the normalised-feature input, the key tile of the same input, the value tile and the query's own
  value block of the other input, the output block, and four buffers it carries from tile to tile. Which of its two
  conditionals it takes depends only on the key tile's number: the first tile resets the carried buffers, the last
  one writes the output block, the six in between do neither. Each situation is one run of the body's text; what the
  carried buffers and the output block hold afterwards is named by the pure functions 'reset', 'step' and 'emit',
  which are the body's arithmetic and nothing else.
-/
import proofs.«129787_j68813966016741_2_alg».proof.Proof.Gen.Kernel.Launch
import proofs.«129787_j68813966016741_2_alg».proof.Proof.Gen.Kernel.Skeleton
import proofs.«129787_j68813966016741_2_alg».proof.Proof.Gen.Kernel.Points
import Idealize.ShloMosaic.Lib.Pipeline.FrameBody
import Idealize.ShloMosaic.Lib.Pipeline.FrameSuffix
import Idealize.ShloMosaic.Lib.Tactic
import Idealize.ShloMosaic.Lib.Pipeline.Value

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a grid point does to the carried buffers

Four buffers live across the eight key tiles of one query block: the running maximum 'm' and the running sum 'l'
(one number per query row), the running weighted sum 'a' and the normalised query rows 'q' (one row of 768 per query
row). At the first key tile they are reset — the maximum to -infinity, the sums to zero, 'q' to the query block
normalised row by row —; at every tile they are then advanced by that tile's keys 'xk' and values 'xv'; at the last
tile the advanced buffers and the query's own value block 'xf' give the output block. -/

/-- The carried buffers' contents. -/
structure Carry (F : FTy → Type) [FloatOps F] where
  m : Vec F S1024x1 .f32
  l : Vec F S1024x1 .f32
  a : Vec F S1024x768 .f32
  q : Vec F S1024x768 .bf16

/-- The reset at the first key tile, from the query block 'xq'. -/
def reset (xq : Vec F S1x1024x768 .f32) : Carry F := ⟨k0_pay5, k0_pay6, k0_pay7, k0_pay8 xq⟩

/-- One key tile's advance of the carried buffers at grid point 'i' (the point only enters through the diagonal's
    position), from the tile's keys 'xk' and values 'xv'. -/
def step (i : grid0.Coords) (xk xv : Vec F S1x256x768 .f32) (s : Carry F) : Carry F :=
  ⟨k0_pay3 (k0_pay10 i xk s.q s.m),
   k0_pay1 (k0_pay11 i xk s.q s.m s.m) (k0_pay12 i xk s.q s.m) s.l,
   k0_pay2 (k0_pay11 i xk s.q s.m s.m) (k0_pay12 i xk s.q s.m) xv s.a,
   s.q⟩

/-- The output block at the last key tile, from the advanced buffers and the query's own value block. -/
def emit (s : Carry F) (xf : Vec F S1x1024x768 .f32) : Vec F S1x1024x768 .f32 := k0_pay4 s.m s.a s.l xf

/-- The body's first conditional holds at the first key tile of a query block, -/
abbrev condFirst (i : grid0.Coords) : Prop := (Scalar.cmpi .ne (Scalar.extui (Scalar.cmpi .eq (BitVec.ofNat 32 (i 2).val) 0#32)) 0#32) = 1#1
/-- its second at the last. -/
abbrev condLast (i : grid0.Coords) : Prop := k0_cond2 i = 1#1

theorem zero2 : (![0, 0] : Fin 2 → Nat) = fun _ => 0 := by funext a; fin_cases a <;> rfl
theorem zero3 : (![0, 0, 0] : Fin 3 → Nat) = fun _ => 0 := by funext a; fin_cases a <;> rfl

/-- A buffer stored whole reads back what was stored. -/
theorem read_stored_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, by
    subst h; show y ∈ (Rect.whole S).set; rw [Rect.set_whole]; exact Finset.mem_univ y⟩), View.canon_cons_unit_zero h]

/-- The carried buffers, owned whole at the contents 's'. -/
def carried (c : Dev nD) (arg8 arg9 : Memref sig .tc .vmem S1024x1 .f32) (arg10 : Memref sig .tc .vmem S1024x768 .f32)
    (arg11 : Memref sig .tc .vmem S1024x768 .bf16) (s : Carry F) : sProp 𝕄 :=
  iprop(owns (c : Thread nD τ) arg8 fullShare s.m ∗ owns (c : Thread nD τ) arg9 fullShare s.l
    ∗ owns (c : Thread nD τ) arg10 fullShare s.a ∗ owns (c : Thread nD τ) arg11 fullShare s.q)

set_option maxHeartbeats 4000000 in
/-- A middle key tile: the body reads the tile's keys and values and the carried buffers, and leaves the carried
    buffers advanced; the query-side windows and the output window are not touched. -/
theorem runMid (c : Dev nD) (E : Set ℕ) (i : grid0.Coords)
    (arg3 : Memref sig .tc .vmem S1x1024x768 .f32) (harg3 : arg3.IsWhole) (arg4 : Memref sig .tc .vmem S1x256x768 .f32) (harg4 : arg4.IsWhole)
    (arg5 : Memref sig .tc .vmem S1x256x768 .f32) (harg5 : arg5.IsWhole) (arg6 : Memref sig .tc .vmem S1x1024x768 .f32) (harg6 : arg6.IsWhole)
    (arg7 : Memref sig .tc .vmem S1x1024x768 .f32) (harg7 : arg7.IsWhole) (arg8 : Memref sig .tc .vmem S1024x1 .f32) (harg8 : arg8.IsWhole)
    (arg9 : Memref sig .tc .vmem S1024x1 .f32) (harg9 : arg9.IsWhole) (arg10 : Memref sig .tc .vmem S1024x768 .f32) (harg10 : arg10.IsWhole)
    (arg11 : Memref sig .tc .vmem S1024x768 .bf16) (harg11 : arg11.IsWhole)
    (hc1 : ¬condFirst i) (hc2 : ¬condLast i)
    (xk xv : Vec F S1x256x768 .f32) (s : Carry F) (K : PUnit → sProp 𝕄) :
    iprop(owns (c : Thread nD τ) arg4 fullShare xk ∗ owns (c : Thread nD τ) arg5 fullShare xv ∗ carried c arg8 arg9 arg10 arg11 s
        ∗ (iprop(owns (c : Thread nD τ) arg4 fullShare xk ∗ owns (c : Thread nD τ) arg5 fullShare xv
            ∗ carried c arg8 arg9 arg10 arg11 (step i xk xv s)) -∗ K ⟨⟩))
      ⊢ wp frame (wpE (defs₀ (F := F)) Variants.none c none) E (cc0__kernel i arg3 harg3 arg4 harg4 arg5 harg5 arg6 harg6 arg7 harg7 arg8 harg8 arg9 harg9 arg10 harg10 arg11 harg11) K := by
  obtain ⟨m0, l0, a0, q0⟩ := s
  simp only [cc0__kernel_eq_skeleton]; unfold cc0__kernel_skel
  unfold carried owns
  iintro ⟨⟨%f4, %hf4, H4⟩, ⟨%f5, %hf5, H5⟩, ⟨⟨%f8, %hf8, H8⟩, ⟨%f9, %hf9, H9⟩, ⟨%f10, %hf10, H10⟩, ⟨%f11, %hf11, H11⟩⟩, Hk⟩
  obtain rfl := harg4.eq_unread hf4; obtain rfl := harg5.eq_unread hf5
  obtain rfl := harg8.eq_unread hf8; obtain rfl := harg9.eq_unread hf9
  obtain rfl := harg10.eq_unread hf10; obtain rfl := harg11.eq_unread hf11
  sl_exec (disch := first | exact hc1 | exact hc2)
  sl_step
  iapply Hk
  isplitl [H4]
  · iexists _; isplitr; · ipureintro; exact harg4.read_unread _
    iexact H4
  isplitl [H5]
  · iexists _; isplitr; · ipureintro; exact harg5.read_unread _
    iexact H5
  isplitl [H8]
  · iexists _; isplitr
    swap; · iexact H8
    ipureintro
    (try sl_unfold_words)
    rw [read_stored_whole _ _ zero2]
    simp only [View.readAt_eq_ld, harg3.read_unread, harg4.read_unread, harg5.read_unread, harg6.read_unread, harg8.read_unread, harg9.read_unread,
      harg10.read_unread, harg11.read_unread,
      View.readCov_unit_zero (S := S1024x1) _ zero2, View.readCov_unit_zero (S := S1024x768) _ zero2,
      View.ld_unit_zero (S := S1x256x768) zero3, View.ld_unit_zero (S := S1x1024x768) zero3,
      View.ld_unit_zero (S := S1024x1) zero2, View.ld_unit_zero (S := S1024x768) zero2]
    try rfl
  isplitl [H9]
  · iexists _; isplitr
    swap; · iexact H9
    ipureintro
    (try sl_unfold_words)
    rw [read_stored_whole _ _ zero2]
    simp only [View.readAt_eq_ld, harg3.read_unread, harg4.read_unread, harg5.read_unread, harg6.read_unread, harg8.read_unread, harg9.read_unread,
      harg10.read_unread, harg11.read_unread,
      View.readCov_unit_zero (S := S1024x1) _ zero2, View.readCov_unit_zero (S := S1024x768) _ zero2,
      View.ld_unit_zero (S := S1x256x768) zero3, View.ld_unit_zero (S := S1x1024x768) zero3,
      View.ld_unit_zero (S := S1024x1) zero2, View.ld_unit_zero (S := S1024x768) zero2]
    try rfl
  isplitl [H10]
  · iexists _; isplitr
    swap; · iexact H10
    ipureintro
    (try sl_unfold_words)
    rw [read_stored_whole _ _ zero2]
    simp only [View.readAt_eq_ld, harg3.read_unread, harg4.read_unread, harg5.read_unread, harg6.read_unread, harg8.read_unread, harg9.read_unread,
      harg10.read_unread, harg11.read_unread,
      View.readCov_unit_zero (S := S1024x1) _ zero2, View.readCov_unit_zero (S := S1024x768) _ zero2,
      View.ld_unit_zero (S := S1x256x768) zero3, View.ld_unit_zero (S := S1x1024x768) zero3,
      View.ld_unit_zero (S := S1024x1) zero2, View.ld_unit_zero (S := S1024x768) zero2]
    try rfl
  · iexists _; isplitr; · ipureintro; exact harg11.read_unread _
    iexact H11

set_option maxHeartbeats 4000000 in
/-- The first key tile of a query block: whatever the carried buffers held, the body resets them from the query
    block and advances them by the tile; the query's value window and the output window are not touched. -/
theorem runFirst (c : Dev nD) (E : Set ℕ) (i : grid0.Coords)
    (arg3 : Memref sig .tc .vmem S1x1024x768 .f32) (harg3 : arg3.IsWhole) (arg4 : Memref sig .tc .vmem S1x256x768 .f32) (harg4 : arg4.IsWhole)
    (arg5 : Memref sig .tc .vmem S1x256x768 .f32) (harg5 : arg5.IsWhole) (arg6 : Memref sig .tc .vmem S1x1024x768 .f32) (harg6 : arg6.IsWhole)
    (arg7 : Memref sig .tc .vmem S1x1024x768 .f32) (harg7 : arg7.IsWhole) (arg8 : Memref sig .tc .vmem S1024x1 .f32) (harg8 : arg8.IsWhole)
    (arg9 : Memref sig .tc .vmem S1024x1 .f32) (harg9 : arg9.IsWhole) (arg10 : Memref sig .tc .vmem S1024x768 .f32) (harg10 : arg10.IsWhole)
    (arg11 : Memref sig .tc .vmem S1024x768 .bf16) (harg11 : arg11.IsWhole)
    (hc1 : condFirst i) (hc2 : ¬condLast i)
    (xq : Vec F S1x1024x768 .f32) (xk xv : Vec F S1x256x768 .f32) (K : PUnit → sProp 𝕄) :
    iprop(owns (c : Thread nD τ) arg3 fullShare xq ∗ owns (c : Thread nD τ) arg4 fullShare xk ∗ owns (c : Thread nD τ) arg5 fullShare xv
        ∗ (∃ s, carried c arg8 arg9 arg10 arg11 s)
        ∗ (iprop(owns (c : Thread nD τ) arg3 fullShare xq ∗ owns (c : Thread nD τ) arg4 fullShare xk ∗ owns (c : Thread nD τ) arg5 fullShare xv
            ∗ carried c arg8 arg9 arg10 arg11 (step i xk xv (reset xq))) -∗ K ⟨⟩))
      ⊢ wp frame (wpE (defs₀ (F := F)) Variants.none c none) E (cc0__kernel i arg3 harg3 arg4 harg4 arg5 harg5 arg6 harg6 arg7 harg7 arg8 harg8 arg9 harg9 arg10 harg10 arg11 harg11) K := by
  simp only [cc0__kernel_eq_skeleton]; unfold cc0__kernel_skel
  unfold carried owns
  iintro ⟨⟨%f3, %hf3, H3⟩, ⟨%f4, %hf4, H4⟩, ⟨%f5, %hf5, H5⟩, ⟨%s, ⟨%f8, %hf8, H8⟩, ⟨%f9, %hf9, H9⟩, ⟨%f10, %hf10, H10⟩, ⟨%f11, %hf11, H11⟩⟩, Hk⟩
  obtain rfl := harg3.eq_unread hf3
  obtain rfl := harg4.eq_unread hf4; obtain rfl := harg5.eq_unread hf5
  sl_exec (disch := first | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H8]
  · iexists _; isplitr
    swap; · iexact H8
    ipureintro
    (try sl_unfold_words)
    rw [read_stored_whole _ _ zero2]
    simp only [View.readAt_eq_ld, harg3.read_unread, harg4.read_unread, harg5.read_unread, harg6.read_unread, harg8.read_unread, harg9.read_unread,
      harg10.read_unread, harg11.read_unread,
      View.readCov_unit_zero (S := S1024x1) _ zero2, View.readCov_unit_zero (S := S1024x768) _ zero2,
      View.ld_unit_zero (S := S1x256x768) zero3, View.ld_unit_zero (S := S1x1024x768) zero3,
      View.ld_unit_zero (S := S1024x1) zero2, View.ld_unit_zero (S := S1024x768) zero2]
    try rfl
  isplitl [H9]
  · iexists _; isplitr
    swap; · iexact H9
    ipureintro
    (try sl_unfold_words)
    rw [read_stored_whole _ _ zero2]
    simp only [View.readAt_eq_ld, harg3.read_unread, harg4.read_unread, harg5.read_unread, harg6.read_unread, harg8.read_unread, harg9.read_unread,
      harg10.read_unread, harg11.read_unread,
      View.readCov_unit_zero (S := S1024x1) _ zero2, View.readCov_unit_zero (S := S1024x768) _ zero2,
      View.ld_unit_zero (S := S1x256x768) zero3, View.ld_unit_zero (S := S1x1024x768) zero3,
      View.ld_unit_zero (S := S1024x1) zero2, View.ld_unit_zero (S := S1024x768) zero2]
    try rfl
  isplitl [H10]
  · iexists _; isplitr
    swap; · iexact H10
    ipureintro
    (try sl_unfold_words)
    rw [read_stored_whole _ _ zero2]
    simp only [View.readAt_eq_ld, harg3.read_unread, harg4.read_unread, harg5.read_unread, harg6.read_unread, harg8.read_unread, harg9.read_unread,
      harg10.read_unread, harg11.read_unread,
      View.readCov_unit_zero (S := S1024x1) _ zero2, View.readCov_unit_zero (S := S1024x768) _ zero2,
      View.ld_unit_zero (S := S1x256x768) zero3, View.ld_unit_zero (S := S1x1024x768) zero3,
      View.ld_unit_zero (S := S1024x1) zero2, View.ld_unit_zero (S := S1024x768) zero2]
    try rfl
  · iexists _; isplitr
    swap; · iexact H11
    ipureintro
    (try sl_unfold_words)
    rw [read_stored_whole _ _ zero2]
    simp only [View.readAt_eq_ld, harg3.read_unread, harg4.read_unread, harg5.read_unread, harg6.read_unread, harg8.read_unread, harg9.read_unread,
      harg10.read_unread, harg11.read_unread,
      View.readCov_unit_zero (S := S1024x1) _ zero2, View.readCov_unit_zero (S := S1024x768) _ zero2,
      View.ld_unit_zero (S := S1x256x768) zero3, View.ld_unit_zero (S := S1x1024x768) zero3,
      View.ld_unit_zero (S := S1024x1) zero2, View.ld_unit_zero (S := S1024x768) zero2]
    try rfl

set_option maxHeartbeats 4000000 in
/-- The last key tile of a query block: the carried buffers are advanced as at a middle tile, and the output window
    is stored whole with the blend of the advanced buffers and the query's own value block. -/
theorem runLast (c : Dev nD) (E : Set ℕ) (i : grid0.Coords)
    (arg3 : Memref sig .tc .vmem S1x1024x768 .f32) (harg3 : arg3.IsWhole) (arg4 : Memref sig .tc .vmem S1x256x768 .f32) (harg4 : arg4.IsWhole)
    (arg5 : Memref sig .tc .vmem S1x256x768 .f32) (harg5 : arg5.IsWhole) (arg6 : Memref sig .tc .vmem S1x1024x768 .f32) (harg6 : arg6.IsWhole)
    (arg7 : Memref sig .tc .vmem S1x1024x768 .f32) (harg7 : arg7.IsWhole) (arg8 : Memref sig .tc .vmem S1024x1 .f32) (harg8 : arg8.IsWhole)
    (arg9 : Memref sig .tc .vmem S1024x1 .f32) (harg9 : arg9.IsWhole) (arg10 : Memref sig .tc .vmem S1024x768 .f32) (harg10 : arg10.IsWhole)
    (arg11 : Memref sig .tc .vmem S1024x768 .bf16) (harg11 : arg11.IsWhole)
    (hc1 : ¬condFirst i) (hc2 : condLast i)
    (xk xv : Vec F S1x256x768 .f32) (xf : Vec F S1x1024x768 .f32) (s : Carry F) (K : PUnit → sProp 𝕄) :
    iprop(owns (c : Thread nD τ) arg4 fullShare xk ∗ owns (c : Thread nD τ) arg5 fullShare xv ∗ owns (c : Thread nD τ) arg6 fullShare xf
        ∗ (∃ d, owns (c : Thread nD τ) arg7 fullShare d) ∗ carried c arg8 arg9 arg10 arg11 s
        ∗ (iprop(owns (c : Thread nD τ) arg4 fullShare xk ∗ owns (c : Thread nD τ) arg5 fullShare xv ∗ owns (c : Thread nD τ) arg6 fullShare xf
            ∗ owns (c : Thread nD τ) arg7 fullShare (emit (step i xk xv s) xf)
            ∗ carried c arg8 arg9 arg10 arg11 (step i xk xv s)) -∗ K ⟨⟩))
      ⊢ wp frame (wpE (defs₀ (F := F)) Variants.none c none) E (cc0__kernel i arg3 harg3 arg4 harg4 arg5 harg5 arg6 harg6 arg7 harg7 arg8 harg8 arg9 harg9 arg10 harg10 arg11 harg11) K := by
  obtain ⟨m0, l0, a0, q0⟩ := s
  simp only [cc0__kernel_eq_skeleton]; unfold cc0__kernel_skel
  unfold carried owns
  iintro ⟨⟨%f4, %hf4, H4⟩, ⟨%f5, %hf5, H5⟩, ⟨%f6, %hf6, H6⟩, ⟨%d7, %f7, -, H7⟩, ⟨⟨%f8, %hf8, H8⟩, ⟨%f9, %hf9, H9⟩, ⟨%f10, %hf10, H10⟩, ⟨%f11, %hf11, H11⟩⟩, Hk⟩
  obtain rfl := harg4.eq_unread hf4; obtain rfl := harg5.eq_unread hf5; obtain rfl := harg6.eq_unread hf6
  obtain rfl := harg8.eq_unread hf8; obtain rfl := harg9.eq_unread hf9
  obtain rfl := harg10.eq_unread hf10; obtain rfl := harg11.eq_unread hf11
  sl_exec (disch := first | exact hc1 | exact hc2)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    (try sl_unfold_words)
    rw [read_stored_whole _ _ zero3]
    simp only [View.readAt_eq_ld, harg3.read_unread, harg4.read_unread, harg5.read_unread, harg6.read_unread, harg8.read_unread, harg9.read_unread,
      harg10.read_unread, harg11.read_unread,
      View.readCov_unit_zero (S := S1024x1) _ zero2, View.readCov_unit_zero (S := S1024x768) _ zero2,
      View.ld_unit_zero (S := S1x256x768) zero3, View.ld_unit_zero (S := S1x1024x768) zero3,
      View.ld_unit_zero (S := S1024x1) zero2, View.ld_unit_zero (S := S1024x768) zero2]
    try rfl
  isplitl [H8]
  · iexists _; isplitr
    swap; · iexact H8
    ipureintro
    (try sl_unfold_words)
    rw [read_stored_whole _ _ zero2]
    simp only [View.readAt_eq_ld, harg3.read_unread, harg4.read_unread, harg5.read_unread, harg6.read_unread, harg8.read_unread, harg9.read_unread,
      harg10.read_unread, harg11.read_unread,
      View.readCov_unit_zero (S := S1024x1) _ zero2, View.readCov_unit_zero (S := S1024x768) _ zero2,
      View.ld_unit_zero (S := S1x256x768) zero3, View.ld_unit_zero (S := S1x1024x768) zero3,
      View.ld_unit_zero (S := S1024x1) zero2, View.ld_unit_zero (S := S1024x768) zero2]
    try rfl
  isplitl [H9]
  · iexists _; isplitr
    swap; · iexact H9
    ipureintro
    (try sl_unfold_words)
    rw [read_stored_whole _ _ zero2]
    simp only [View.readAt_eq_ld, harg3.read_unread, harg4.read_unread, harg5.read_unread, harg6.read_unread, harg8.read_unread, harg9.read_unread,
      harg10.read_unread, harg11.read_unread,
      View.readCov_unit_zero (S := S1024x1) _ zero2, View.readCov_unit_zero (S := S1024x768) _ zero2,
      View.ld_unit_zero (S := S1x256x768) zero3, View.ld_unit_zero (S := S1x1024x768) zero3,
      View.ld_unit_zero (S := S1024x1) zero2, View.ld_unit_zero (S := S1024x768) zero2]
    try rfl
  isplitl [H10]
  · iexists _; isplitr
    swap; · iexact H10
    ipureintro
    (try sl_unfold_words)
    rw [read_stored_whole _ _ zero2]
    simp only [View.readAt_eq_ld, harg3.read_unread, harg4.read_unread, harg5.read_unread, harg6.read_unread, harg8.read_unread, harg9.read_unread,
      harg10.read_unread, harg11.read_unread,
      View.readCov_unit_zero (S := S1024x1) _ zero2, View.readCov_unit_zero (S := S1024x768) _ zero2,
      View.ld_unit_zero (S := S1x256x768) zero3, View.ld_unit_zero (S := S1x1024x768) zero3,
      View.ld_unit_zero (S := S1024x1) zero2, View.ld_unit_zero (S := S1024x768) zero2]
    try rfl
  · iexists _; isplitr; · ipureintro; exact harg11.read_unread _
    iexact H11

end Cert.Kernel.Hand

end
-- ==== Proof.DataK.lean ====
/-
  The proof data of the kernel's pipeline and its body obligation.

  A grid point is numbered t = 16·b + 8·qi + ki: ki, the key tile, is t mod 8. Each input window's staging buffer
  holds, at every point, the block of its array that the window's index map names there (the query-side windows are
  fetched once per query block and found in place at the seven later key tiles). The four carried buffers hold,
  after point t, the result of advancing by the tiles seen so far in this query block: 'carryAfter t' resets at
  ki = 0 and advances what point t - 1 left otherwise. The output window is stored at ki = 7 only, with the blend of
  the advanced buffers and the query's own value block, and is handed back untouched at the other points.
-/
import proofs.«129787_j68813966016741_2_alg».proof.Proof.Gen.Kernel.Launch
import proofs.«129787_j68813966016741_2_alg».proof.Proof.Gen.Kernel.Skeleton
import proofs.«129787_j68813966016741_2_alg».proof.Proof.Gen.Kernel.Points
import Idealize.ShloMosaic.Lib.Pipeline.FrameBody
import Idealize.ShloMosaic.Lib.Pipeline.FrameSuffix
import Idealize.ShloMosaic.Lib.Tactic
import Idealize.ShloMosaic.Lib.Pipeline.Value
import proofs.«129787_j68813966016741_2_alg».proof.Proof.BodyK

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The TensorCore buffers as the region finds them: the launch memory (no host line precedes the region). -/
abbrev V (c : Dev nD) (b : Ref sig .tc) : Buf (Elt F) ((c : Thread nD τ).loc b) := m ((c.tc : Thread nD τ).loc b)

/-- Window 'w''s block at point 't', read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first conditional holds exactly at key tile 0, -/
theorem hFirst : ∀ t : Fin cfg0.N, condFirst (grid0.coords t) ↔ t.val % 8 = 0 :=
  (by decide +kernel : ∀ t : Fin grid0.N, condFirst (grid0.coords t) ↔ t.val % 8 = 0)
/-- the second exactly at key tile 7. -/
theorem hLast : ∀ t : Fin cfg0.N, condLast (grid0.coords t) ↔ t.val % 8 = 7 :=
  (by decide +kernel : ∀ t : Fin grid0.N, condLast (grid0.coords t) ↔ t.val % 8 = 7)

/-- The input windows are never idle; the output window is idle, and not written back, away from key tile 7, and
    live at key tile 7. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem idle4 : ∀ t : Fin cfg0.N, ¬condLast (grid0.coords t) → cfg0.idle 4 (grid0.coords t) = true := by decide +kernel
theorem noFlush4 : ∀ t : Fin cfg0.N, ¬condLast (grid0.coords t) → (cfg0.win 4).flush t = false := by decide +kernel
theorem live4 : ∀ t : Fin cfg0.N, condLast (grid0.coords t) → cfg0.idle 4 (grid0.coords t) = false := by decide +kernel

/-- The carried buffers after the point numbered 'n': at key tile 0 the reset from the query block, advanced by the
    tile; otherwise what point n - 1 left, advanced by the tile. -/
def carryAfter (c : Dev nD) : (n : ℕ) → n < cfg0.N → Carry F
  | 0, hn => step (grid0.coords ⟨0, hn⟩) (iblk m c 1 ⟨0, hn⟩) (iblk m c 2 ⟨0, hn⟩) (reset (iblk m c 0 ⟨0, hn⟩))
  | n + 1, hn => step (grid0.coords ⟨n + 1, hn⟩) (iblk m c 1 ⟨n + 1, hn⟩) (iblk m c 2 ⟨n + 1, hn⟩)
      (if (n + 1) % 8 = 0 then reset (iblk m c 0 ⟨n + 1, hn⟩) else carryAfter c n (Nat.lt_of_succ_lt hn))

theorem carryAfter_first (c : Dev nD) (t : Fin cfg0.N) (h : t.val % 8 = 0) :
    carryAfter m c t.val t.isLt = step (grid0.coords t) (iblk m c 1 t) (iblk m c 2 t) (reset (iblk m c 0 t)) := by
  obtain ⟨n, hn⟩ := t
  cases n with
  | zero => rfl
  | succ n => exact congrArg (step _ _ _) (if_pos h)

theorem carryAfter_later (c : Dev nD) (t : Fin cfg0.N) (h : ¬t.val % 8 = 0) :
    carryAfter m c t.val t.isLt = step (grid0.coords t) (iblk m c 1 t) (iblk m c 2 t)
      (carryAfter m c (t.val - 1) (Nat.lt_of_le_of_lt (Nat.sub_le _ _) t.isLt)) := by
  obtain ⟨n, hn⟩ := t
  cases n with
  | zero => exact absurd (Nat.zero_mod _) h
  | succ n => exact congrArg (step _ _ _) (if_neg h)

/-- The carried buffers as whole memrefs. -/
abbrev scM : Memref sig .tc .vmem S1024x1 .f32 := Memref.whole cc0_scratch0
abbrev scL : Memref sig .tc .vmem S1024x1 .f32 := Memref.whole cc0_scratch1
abbrev scA : Memref sig .tc .vmem S1024x768 .f32 := Memref.whole cc0_scratch2
abbrev scQ : Memref sig .tc .vmem S1024x768 .bf16 := Memref.whole cc0_scratch3

/-- The core's scoped buffers that are no staging buffer: the four carried buffers, as memrefs owned at some contents. -/
abbrev rest (c : Dev nD) : sProp 𝕄 :=
  Pipeline.scopedRest (Ix := Unit) (Name := ℕ) (U := UR sig nD τ) (Lvl := ℕ) (Val := Elt F) spec0 c
theorem rest_eq (c : Dev nD) :
    (rest c : sProp 𝕄)
      = iprop((∃ d, owns (c : Thread nD τ) scM fullShare d) ∗ (∃ d, owns (c : Thread nD τ) scL fullShare d)
          ∗ (∃ d, owns (c : Thread nD τ) scA fullShare d) ∗ (∃ d, owns (c : Thread nD τ) scQ fullShare d)) := by
  unfold rest; rw [scopedRest0_eq]; simp only [scM, scL, scA, scQ, owns_whole]; try rfl

/-- The region invariant before the point numbered 'n': before the first point the carried buffers hold anything;
    afterwards what the point before left. -/
def PhiC (c : Dev nD) : (n : ℕ) → n ≤ cfg0.N → sProp 𝕄
  | 0, _ => rest c
  | n + 1, hn => carried c scM scL scA scQ (carryAfter m c n hn)

theorem PhiC_zero (c : Dev nD) (n : ℕ) (h : n ≤ cfg0.N) (hz : n = 0) : PhiC m c n h = rest c := by
  subst hz; rfl
theorem PhiC_succ (c : Dev nD) (n : ℕ) (hn : n < cfg0.N) :
    PhiC m c (n + 1) hn = carried c scM scL scA scQ (carryAfter m c n hn) := rfl
theorem PhiC_pos (c : Dev nD) (n : ℕ) (h : n ≤ cfg0.N) (hz : n ≠ 0) :
    PhiC m c n h = carried c scM scL scA scQ (carryAfter m c (n - 1) (by omega)) := by
  cases n with
  | zero => exact absurd rfl hz
  | succ n => rfl

/-- The proof data on core 'c'. The two windows on each input array hold a half of its share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => emit (carryAfter m c t.val t.isLt) (iblk m c 3 t)
  Φ t := PhiC m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiC m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = emit (carryAfter m c t.val t.isLt) (iblk m c 3 t) := by dsimp only [dats]

/-- Each input window's current staging buffer holds its block at every point, fetched there or not: unfetched, the
    window's index has not moved since the fetch, and the body left the block in place. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-! ## The body obligation, at a generic point -/

/-- What the body is called with at point 't', the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves0 (c : Dev nD) (t : Fin cfg0.N) :
    (dats m 0 c).leavesExact 0 t = owns (c : Thread nD τ) (st0_0 t) fullShare (iblk m c 0 t) := by
  unfold Dat.leavesExact; rw [live0 t, after0]
theorem leaves1 (c : Dev nD) (t : Fin cfg0.N) :
    (dats m 0 c).leavesExact 1 t = owns (c : Thread nD τ) (st0_1 t) fullShare (iblk m c 1 t) := by
  unfold Dat.leavesExact; rw [live1 t, after1]
theorem leaves2 (c : Dev nD) (t : Fin cfg0.N) :
    (dats m 0 c).leavesExact 2 t = owns (c : Thread nD τ) (st0_2 t) fullShare (iblk m c 2 t) := by
  unfold Dat.leavesExact; rw [live2 t, after2]
theorem leaves3 (c : Dev nD) (t : Fin cfg0.N) :
    (dats m 0 c).leavesExact 3 t = owns (c : Thread nD τ) (st0_3 t) fullShare (iblk m c 3 t) := by
  unfold Dat.leavesExact; rw [live3 t, after3]

set_option maxHeartbeats 4000000 in
/-- The body at any point. The inputs' memrefs hold their blocks; the key tile's number says which of the three
    situations the point is in; the invariant hands the body the carried buffers at what the point before left (at
    anything before the first point, where the first situation holds) and takes them back advanced. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, leaves0, leaves1, leaves2, leaves3]
  rw [show (dats m 0 c).owesAt () t.succ = (dats m 0 c).owesAt () t.castSucc from rfl]
  rw [show (dats m 0 c).Φ t.succ = PhiC m c (t.val + 1) t.isLt from rfl, PhiC_succ]
  have hN : t.val < 128 := lt_of_lt_of_eq t.isLt (show cfg0.N = 128 from N_0)
  by_cases h0 : t.val % 8 = 0
  · have h7 : ¬t.val % 8 = 7 := by omega
    have hc1 : condFirst (grid0.coords t) := (hFirst t).mpr h0
    have hc2 : ¬condLast (grid0.coords t) := fun h => h7 ((hLast t).mp h)
    rw [Dat.leavesExact_idle (dats m 0 c) 4 t (idle4 t hc2) (noFlush4 t hc2), carryAfter_first m c t h0]
    have hpre : (dats m 0 c).Φ t.castSucc ⊢ iprop(∃ s, carried c scM scL scA scQ s) := by
      rw [Phi_castSucc m c t]
      by_cases hz : t.val = 0
      · rw [PhiC_zero m c _ _ hz, rest_eq]
        iintro ⟨⟨%d8, H8⟩, ⟨%d9, H9⟩, ⟨%d10, H10⟩, ⟨%d11, H11⟩⟩
        iexists (⟨d8, d9, d10, d11⟩ : Carry F)
        unfold carried
        isplitl [H8]; · iexact H8
        isplitl [H9]; · iexact H9
        isplitl [H10]; · iexact H10
        iexact H11
      · rw [PhiC_pos m c _ _ hz]
        iintro H; iexists _; iexact H
    iintro ⟨HΦ, Ho, ⟨%d0, H0⟩, ⟨%d1, H1⟩, ⟨%d2, H2⟩, ⟨%d3, H3⟩, H4⟩
    ihave HS := hpre $$ HΦ
    iapply (runFirst c Set.univ (grid0.coords t) _ _ _ _ _ _ _ _ _ _ _ _ _ _ _ _ _ _ hc1 hc2 (iblk m c 0 t) (iblk m c 1 t) (iblk m c 2 t) _)
    isplitl [H0]; · iexact H0
    isplitl [H1]; · iexact H1
    isplitl [H2]; · iexact H2
    isplitl [HS]; · iexact HS
    iintro ⟨H0, H1, H2, HS⟩
    isplitl [HS]; · iexact HS
    isplitl [Ho]; · iexact Ho
    isplitl [H0]; · iexact H0
    isplitl [H1]; · iexact H1
    isplitl [H2]; · iexact H2
    isplitl [H3]; · iexact H3
    iexact H4
  · have hz : t.val ≠ 0 := fun h => h0 (by rw [h])
    have hc1 : ¬condFirst (grid0.coords t) := fun h => h0 ((hFirst t).mp h)
    rw [Phi_castSucc m c t, PhiC_pos m c _ _ hz, carryAfter_later m c t h0]
    by_cases h7 : t.val % 8 = 7
    · have hc2 : condLast (grid0.coords t) := (hLast t).mpr h7
      rw [show (dats m 0 c).leavesExact 4 t = owns (c : Thread nD τ) (st0_4 t) fullShare ((dats m 0 c).after 4 t) from by
        unfold Dat.leavesExact; rw [live4 t hc2], after4, carryAfter_later m c t h0]
      iintro ⟨HS, Ho, ⟨%d0, H0⟩, ⟨%d1, H1⟩, ⟨%d2, H2⟩, ⟨%d3, H3⟩, ⟨%d4, H4⟩⟩
      iapply (runLast c Set.univ (grid0.coords t) _ _ _ _ _ _ _ _ _ _ _ _ _ _ _ _ _ _ hc1 hc2 (iblk m c 1 t) (iblk m c 2 t) (iblk m c 3 t) _ _)
      isplitl [H1]; · iexact H1
      isplitl [H2]; · iexact H2
      isplitl [H3]; · iexact H3
      isplitl [H4]; · iexists _; iexact H4
      isplitl [HS]; · iexact HS
      iintro ⟨H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexact H4
    · have hc2 : ¬condLast (grid0.coords t) := fun h => h7 ((hLast t).mp h)
      rw [Dat.leavesExact_idle (dats m 0 c) 4 t (idle4 t hc2) (noFlush4 t hc2)]
      iintro ⟨HS, Ho, ⟨%d0, H0⟩, ⟨%d1, H1⟩, ⟨%d2, H2⟩, ⟨%d3, H3⟩, H4⟩
      iapply (runMid c Set.univ (grid0.coords t) _ _ _ _ _ _ _ _ _ _ _ _ _ _ _ _ _ _ hc1 hc2 (iblk m c 1 t) (iblk m c 2 t) _ _)
      isplitl [H1]; · iexact H1
      isplitl [H2]; · iexact H2
      isplitl [HS]; · iexact HS
      iintro ⟨H1, H2, HS⟩
      isplitl [HS]; · iexact HS
      isplitl [Ho]; · iexact Ho
      isplitl [H0]; · iexact H0
      isplitl [H1]; · iexact H1
      isplitl [H2]; · iexact H2
      isplitl [H3]; · iexact H3
      iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (rest c : sProp 𝕄) ⊢ (dats m 0 c).Φ 0 := by
  rw [show (dats m 0 c).Φ 0 = PhiC m c 0 (Nat.zero_le _) from rfl, PhiC_zero m c 0 _ rfl]
  try exact Idealize.SL.BI.Entails.refl _

/-- After the last point the invariant gives the carried buffers back, their contents forgotten. -/
theorem hout (c : Dev nD) : (dats m 0 c).Φ (Fin.last cfg0.N) ⊢ (rest c : sProp 𝕄) := by
  have hN : (Fin.last cfg0.N).val ≠ 0 := by rw [Fin.val_last]; have : cfg0.N = 128 := N_0; omega
  rw [show (dats m 0 c).Φ (Fin.last cfg0.N) = PhiC m c (Fin.last cfg0.N).val (Nat.le_of_lt_succ (Fin.last cfg0.N).isLt) from rfl,
    PhiC_pos m c _ _ hN, rest_eq]
  unfold carried
  iintro ⟨H8, H9, H10, H11⟩
  isplitl [H8]; · iexists _; iexact H8
  isplitl [H9]; · iexists _; iexact H9
  isplitl [H10]; · iexists _; iexact H10
  iexists _; iexact H11

end Cert.Kernel.Hand

end
-- ==== Proof.RunK.lean ====
/-
  The launch: the whole program's run from the body obligation.

  The program is the one region. Two of its five windows read the normalised-feature array and two read the value
  array, so each of those arrays' full share is dealt to its two windows as two halves; the fifth window owns the
  result array outright. The carried buffers are the core's only scoped buffers beside the staging buffers: the launch
  hands them over at arbitrary contents and takes them back the same way. The run ends with every window's array at
  what the write-backs made of it: the inputs unchanged, the result overwritten block by block.
-/
import proofs.«129787_j68813966016741_2_alg».proof.Proof.Gen.Kernel.Launch
import proofs.«129787_j68813966016741_2_alg».proof.Proof.Gen.Kernel.Skeleton
import proofs.«129787_j68813966016741_2_alg».proof.Proof.Gen.Kernel.Points
import Idealize.ShloMosaic.Lib.Pipeline.FrameBody
import Idealize.ShloMosaic.Lib.Pipeline.FrameSuffix
import Idealize.ShloMosaic.Lib.Tactic
import Idealize.ShloMosaic.Lib.Pipeline.Value
import proofs.«129787_j68813966016741_2_alg».proof.Proof.DataK

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program is the region alone, entered at the launch memory. -/
theorem hmain0 : Pipeline.HMain (Ix := Unit) (Name := ℕ) (U := UR sig nD τ) (Lvl := ℕ) cfgs 0 defs₀ Variants.none m (main (F := F)) (V m) :=
  Pipeline.hmain_region cfgs 0 defs₀ Variants.none m main (fun c => rfl)

/-- The buffers behind the windows' arrays: the two arguments and the result. -/
theorem arrRefs_eq : Finset.univ.image (Pipeline.arrRef spec0) = ({main_arg1, main_arg0, main_v0} : Finset (Ref sig .tc)) := by decide

/-- The windows' arrays as plain points-tos of the buffers behind them, each at its window's share. -/
theorem arrays_eq (c : Dev nD) :
    (dats m 0 c).arrays (fun w => (dats m 0 c).arrAt w 0)
      = bigSep Finset.univ fun w : Fin 5 =>
          ((((c.tc : Thread nD τ).loc (Pipeline.arrRef spec0 w)) ↦{(dats m 0 c).share w} V m c (Pipeline.arrRef spec0 w)) : sProp 𝕄) := by
  unfold Dat.arrays
  exact bigSep_congr fun w _ => by rw [(arr_whole0 w).set_eq_univ]; rfl

/-- An argument array's full share is its two windows' halves; the result array's is its one window's. -/
theorem hsplit (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  rw [arrays_eq, bigSep_W0]
  unfold Pipeline.arrBufs
  rw [arrRefs_eq, BI.bigSep_insert (by decide), BI.bigSep_insert (by decide), BI.bigSep_singleton]
  have s0 : (dats m 0 c).share 0 = fullShare.left := rfl
  have s1 : (dats m 0 c).share 1 = fullShare.right := rfl
  have s2 : (dats m 0 c).share 2 = fullShare.left := rfl
  have s3 : (dats m 0 c).share 3 = fullShare.right := rfl
  have s4 : (dats m 0 c).share 4 = fullShare := rfl
  simp only [s0, s1, s2, s3, s4]
  show iprop((((c.tc : Thread nD τ).loc main_arg1) ↦{fullShare} V m c main_arg1)
      ∗ (((c.tc : Thread nD τ).loc main_arg0) ↦{fullShare} V m c main_arg0)
      ∗ (((c.tc : Thread nD τ).loc main_v0) ↦{fullShare} V m c main_v0)) ⊢ _
  iintro ⟨H1, H0, Hv⟩
  ihave H1' := (pointsTo_share (PosShare.mem_left_op_right fullShare)).1 $$ H1
  ihave H0' := (pointsTo_share (PosShare.mem_left_op_right fullShare)).1 $$ H0
  icases H1' with ⟨H1l, H1r⟩
  icases H0' with ⟨H0l, H0r⟩
  isplitl [H1l]; · iexact H1l
  isplitl [H1r]; · iexact H1r
  isplitl [H0l]; · iexact H0l
  isplitl [H0r]; · iexact H0r
  iexact Hv

set_option backward.isDefEq.respectTransparency.types false in
/-- From any memory with zero counters every weakly fair execution of the program terminates, nothing faulting,
    with every window's array at what the proof data's write-backs make of it. -/
theorem run_main :
    θ_run defs (onTc (τ := τ) (main (F := F))) (s₀ m ρ)
      (fun r => ∀ c : Dev nD, ∀ w : Fin 5,
        r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain0 m) (hsplit := hsplit m)
    (X := fun _ => BI.emp) (Y := fun _ => BI.emp)
    (Z := fun c => Pipeline.unscopedRest (Ix := Unit) (Name := ℕ) (U := UR sig nD τ) (Lvl := ℕ) spec0 c (V m c))
    (hX := fun c => by
      show _ ⊢ iprop(BI.emp ∗ Pipeline.unscopedRest spec0 c (V m c))
      iintro H
      isplitl []
      · iempintro
      iexact H)
    (hin := fun c => by
      show iprop(BI.emp ∗ rest c) ⊢ (dats m 0 c).Φ 0
      refine BIBase.Entails.trans ?_ (hin m c)
      iintro ⟨-, H⟩
      iexact H)
    (hout := fun c => by
      show (dats m 0 c).Φ (Fin.last cfg0.N) ⊢ iprop(BI.emp ∗ rest c)
      refine BIBase.Entails.trans (hout m c) ?_
      iintro H
      isplitl []
      · iempintro
      iexact H)
    (QY := fun _ _ => True)
    (hY := fun c s' => by
      iintro ⟨-, -, HSI⟩
      imodintro
      isplitl []
      · ipureintro; trivial
      iexact HSI)
    (hQ := fun s h c w => (h c).1 w)

/-- The frame: the program runs to the end without a fault and both argument arrays end as they began — each is an
    input window's array, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(h c 2).trans (((dats m 0 c).arrAt_in 2 rfl _).trans (A_eq m c 2)),
       (h c 0).trans (((dats m 0 c).arrAt_in 0 rfl _).trans (A_eq m c 0))⟩)
    (run_main m ρ)

end Cert.Kernel.Hand

end
-- ==== Proof.Body.lean ====
/-
  The kernel's body, run once in each of its three situations.

  The grid walks batches, query blocks of 1024 rows and, innermost, key tiles of 256 rows. A grid point's body sees
  the query block of the normalised-feature input, the key tile of the same input, the value tile and the query's own
  value block of the other input, the output block, and four buffers it carries from tile to tile. Which of its two
  conditionals it takes depends only on the key tile's number: the first tile resets the carried buffers, the last
  one writes the output block, the six in between do neither. Each situation is one run of the body's text; what the
  carried buffers and the output block hold afterwards is named by the pure functions 'reset', 'step' and 'emit',
  which are the body's arithmetic and nothing else.
-/
import proofs.«129787_j68813966016741_2_alg».proof.Proof.Gen.KernelIdeal.Launch
import proofs.«129787_j68813966016741_2_alg».proof.Proof.Gen.KernelIdeal.Skeleton
import proofs.«129787_j68813966016741_2_alg».proof.Proof.Gen.KernelIdeal.Points
import Idealize.ShloMosaic.Lib.Pipeline.FrameBody
import Idealize.ShloMosaic.Lib.Pipeline.FrameSuffix
import Idealize.ShloMosaic.Lib.Tactic
import Idealize.ShloMosaic.Lib.Pipeline.Value

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a grid point does to the carried buffers

Four buffers live across the eight key tiles of one query block: the running maximum 'm' and the running sum 'l'
(one number per query row), the running weighted sum 'a' and the normalised query rows 'q' (one row of 768 per query
row). At the first key tile they are reset — the maximum to -infinity, the sums to zero, 'q' to the query block
normalised row by row —; at every tile they are then advanced by that tile's keys 'xk' and values 'xv'; at the last
tile the advanced buffers and the query's own value block 'xf' give the output block. -/

/-- The carried buffers' contents. -/
structure Carry (F : FTy → Type) [FloatOps F] where
  m : Vec F S1024x1 .f32
  l : Vec F S1024x1 .f32
  a : Vec F S1024x768 .f32
  q : Vec F S1024x768 .bf16

/-- The reset at the first key tile, from the query block 'xq'. -/
def reset (xq : Vec F S1x1024x768 .f32) : Carry F := ⟨k0_pay5, k0_pay6, k0_pay7, k0_pay8 xq⟩

/-- One key tile's advance of the carried buffers at grid point 'i' (the point only enters through the diagonal's
    position), from the tile's keys 'xk' and values 'xv'. -/
def step (i : grid0.Coords) (xk xv : Vec F S1x256x768 .f32) (s : Carry F) : Carry F :=
  ⟨k0_pay3 (k0_pay10 i xk s.q s.m),
   k0_pay1 (k0_pay11 i xk s.q s.m s.m) (k0_pay12 i xk s.q s.m) s.l,
   k0_pay2 (k0_pay11 i xk s.q s.m s.m) (k0_pay12 i xk s.q s.m) xv s.a,
   s.q⟩

/-- The output block at the last key tile, from the advanced buffers and the query's own value block. -/
def emit (s : Carry F) (xf : Vec F S1x1024x768 .f32) : Vec F S1x1024x768 .f32 := k0_pay4 s.m s.a s.l xf

/-- The body's first conditional holds at the first key tile of a query block, -/
abbrev condFirst (i : grid0.Coords) : Prop := (Scalar.cmpi .ne (Scalar.extui (Scalar.cmpi .eq (BitVec.ofNat 32 (i 2).val) 0#32)) 0#32) = 1#1
/-- its second at the last. -/
abbrev condLast (i : grid0.Coords) : Prop := k0_cond2 i = 1#1

theorem zero2 : (![0, 0] : Fin 2 → Nat) = fun _ => 0 := by funext a; fin_cases a <;> rfl
theorem zero3 : (![0, 0, 0] : Fin 3 → Nat) = fun _ => 0 := by funext a; fin_cases a <;> rfl

/-- A buffer stored whole reads back what was stored. -/
theorem read_stored_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, by
    subst h; show y ∈ (Rect.whole S).set; rw [Rect.set_whole]; exact Finset.mem_univ y⟩), View.canon_cons_unit_zero h]

/-- The carried buffers, owned whole at the contents 's'. -/
def carried (c : Dev nD) (arg8 arg9 : Memref sig .tc .vmem S1024x1 .f32) (arg10 : Memref sig .tc .vmem S1024x768 .f32)
    (arg11 : Memref sig .tc .vmem S1024x768 .bf16) (s : Carry F) : sProp 𝕄 :=
  iprop(owns (c : Thread nD τ) arg8 fullShare s.m ∗ owns (c : Thread nD τ) arg9 fullShare s.l
    ∗ owns (c : Thread nD τ) arg10 fullShare s.a ∗ owns (c : Thread nD τ) arg11 fullShare s.q)

set_option maxHeartbeats 4000000 in
/-- A middle key tile: the body reads the tile's keys and values and the carried buffers, and leaves the carried
    buffers advanced; the query-side windows and the output window are not touched. -/
theorem runMid (c : Dev nD) (E : Set ℕ) (i : grid0.Coords)
    (arg3 : Memref sig .tc .vmem S1x1024x768 .f32) (harg3 : arg3.IsWhole) (arg4 : Memref sig .tc .vmem S1x256x768 .f32) (harg4 : arg4.IsWhole)
    (arg5 : Memref sig .tc .vmem S1x256x768 .f32) (harg5 : arg5.IsWhole) (arg6 : Memref sig .tc .vmem S1x1024x768 .f32) (harg6 : arg6.IsWhole)
    (arg7 : Memref sig .tc .vmem S1x1024x768 .f32) (harg7 : arg7.IsWhole) (arg8 : Memref sig .tc .vmem S1024x1 .f32) (harg8 : arg8.IsWhole)
    (arg9 : Memref sig .tc .vmem S1024x1 .f32) (harg9 : arg9.IsWhole) (arg10 : Memref sig .tc .vmem S1024x768 .f32) (harg10 : arg10.IsWhole)
    (arg11 : Memref sig .tc .vmem S1024x768 .bf16) (harg11 : arg11.IsWhole)
    (hc1 : ¬condFirst i) (hc2 : ¬condLast i)
    (xk xv : Vec F S1x256x768 .f32) (s : Carry F) (K : PUnit → sProp 𝕄) :
    iprop(owns (c : Thread nD τ) arg4 fullShare xk ∗ owns (c : Thread nD τ) arg5 fullShare xv ∗ carried c arg8 arg9 arg10 arg11 s
        ∗ (iprop(owns (c : Thread nD τ) arg4 fullShare xk ∗ owns (c : Thread nD τ) arg5 fullShare xv
            ∗ carried c arg8 arg9 arg10 arg11 (step i xk xv s)) -∗ K ⟨⟩))
      ⊢ wp frame (wpE (defs₀ (F := F)) Variants.none c none) E (cc0__kernel i arg3 harg3 arg4 harg4 arg5 harg5 arg6 harg6 arg7 harg7 arg8 harg8 arg9 harg9 arg10 harg10 arg11 harg11) K := by
  obtain ⟨m0, l0, a0, q0⟩ := s
  simp only [cc0__kernel_eq_skeleton]; unfold cc0__kernel_skel
  unfold carried owns
  iintro ⟨⟨%f4, %hf4, H4⟩, ⟨%f5, %hf5, H5⟩, ⟨⟨%f8, %hf8, H8⟩, ⟨%f9, %hf9, H9⟩, ⟨%f10, %hf10, H10⟩, ⟨%f11, %hf11, H11⟩⟩, Hk⟩
  obtain rfl := harg4.eq_unread hf4; obtain rfl := harg5.eq_unread hf5
  obtain rfl := harg8.eq_unread hf8; obtain rfl := harg9.eq_unread hf9
  obtain rfl := harg10.eq_unread hf10; obtain rfl := harg11.eq_unread hf11
  sl_exec (disch := first | exact hc1 | exact hc2)
  sl_step
  iapply Hk
  isplitl [H4]
  · iexists _; isplitr; · ipureintro; exact harg4.read_unread _
    iexact H4
  isplitl [H5]
  · iexists _; isplitr; · ipureintro; exact harg5.read_unread _
    iexact H5
  isplitl [H8]
  · iexists _; isplitr
    swap; · iexact H8
    ipureintro
    (try sl_unfold_words)
    rw [read_stored_whole _ _ zero2]
    simp only [View.readAt_eq_ld, harg3.read_unread, harg4.read_unread, harg5.read_unread, harg6.read_unread, harg8.read_unread, harg9.read_unread,
      harg10.read_unread, harg11.read_unread,
      View.readCov_unit_zero (S := S1024x1) _ zero2, View.readCov_unit_zero (S := S1024x768) _ zero2,
      View.ld_unit_zero (S := S1x256x768) zero3, View.ld_unit_zero (S := S1x1024x768) zero3,
      View.ld_unit_zero (S := S1024x1) zero2, View.ld_unit_zero (S := S1024x768) zero2]
    try rfl
  isplitl [H9]
  · iexists _; isplitr
    swap; · iexact H9
    ipureintro
    (try sl_unfold_words)
    rw [read_stored_whole _ _ zero2]
    simp only [View.readAt_eq_ld, harg3.read_unread, harg4.read_unread, harg5.read_unread, harg6.read_unread, harg8.read_unread, harg9.read_unread,
      harg10.read_unread, harg11.read_unread,
      View.readCov_unit_zero (S := S1024x1) _ zero2, View.readCov_unit_zero (S := S1024x768) _ zero2,
      View.ld_unit_zero (S := S1x256x768) zero3, View.ld_unit_zero (S := S1x1024x768) zero3,
      View.ld_unit_zero (S := S1024x1) zero2, View.ld_unit_zero (S := S1024x768) zero2]
    try rfl
  isplitl [H10]
  · iexists _; isplitr
    swap; · iexact H10
    ipureintro
    (try sl_unfold_words)
    rw [read_stored_whole _ _ zero2]
    simp only [View.readAt_eq_ld, harg3.read_unread, harg4.read_unread, harg5.read_unread, harg6.read_unread, harg8.read_unread, harg9.read_unread,
      harg10.read_unread, harg11.read_unread,
      View.readCov_unit_zero (S := S1024x1) _ zero2, View.readCov_unit_zero (S := S1024x768) _ zero2,
      View.ld_unit_zero (S := S1x256x768) zero3, View.ld_unit_zero (S := S1x1024x768) zero3,
      View.ld_unit_zero (S := S1024x1) zero2, View.ld_unit_zero (S := S1024x768) zero2]
    try rfl
  · iexists _; isplitr; · ipureintro; exact harg11.read_unread _
    iexact H11

set_option maxHeartbeats 4000000 in
/-- The first key tile of a query block: whatever the carried buffers held, the body resets them from the query
    block and advances them by the tile; the query's value window and the output window are not touched. -/
theorem runFirst (c : Dev nD) (E : Set ℕ) (i : grid0.Coords)
    (arg3 : Memref sig .tc .vmem S1x1024x768 .f32) (harg3 : arg3.IsWhole) (arg4 : Memref sig .tc .vmem S1x256x768 .f32) (harg4 : arg4.IsWhole)
    (arg5 : Memref sig .tc .vmem S1x256x768 .f32) (harg5 : arg5.IsWhole) (arg6 : Memref sig .tc .vmem S1x1024x768 .f32) (harg6 : arg6.IsWhole)
    (arg7 : Memref sig .tc .vmem S1x1024x768 .f32) (harg7 : arg7.IsWhole) (arg8 : Memref sig .tc .vmem S1024x1 .f32) (harg8 : arg8.IsWhole)
    (arg9 : Memref sig .tc .vmem S1024x1 .f32) (harg9 : arg9.IsWhole) (arg10 : Memref sig .tc .vmem S1024x768 .f32) (harg10 : arg10.IsWhole)
    (arg11 : Memref sig .tc .vmem S1024x768 .bf16) (harg11 : arg11.IsWhole)
    (hc1 : condFirst i) (hc2 : ¬condLast i)
    (xq : Vec F S1x1024x768 .f32) (xk xv : Vec F S1x256x768 .f32) (K : PUnit → sProp 𝕄) :
    iprop(owns (c : Thread nD τ) arg3 fullShare xq ∗ owns (c : Thread nD τ) arg4 fullShare xk ∗ owns (c : Thread nD τ) arg5 fullShare xv
        ∗ (∃ s, carried c arg8 arg9 arg10 arg11 s)
        ∗ (iprop(owns (c : Thread nD τ) arg3 fullShare xq ∗ owns (c : Thread nD τ) arg4 fullShare xk ∗ owns (c : Thread nD τ) arg5 fullShare xv
            ∗ carried c arg8 arg9 arg10 arg11 (step i xk xv (reset xq))) -∗ K ⟨⟩))
      ⊢ wp frame (wpE (defs₀ (F := F)) Variants.none c none) E (cc0__kernel i arg3 harg3 arg4 harg4 arg5 harg5 arg6 harg6 arg7 harg7 arg8 harg8 arg9 harg9 arg10 harg10 arg11 harg11) K := by
  simp only [cc0__kernel_eq_skeleton]; unfold cc0__kernel_skel
  unfold carried owns
  iintro ⟨⟨%f3, %hf3, H3⟩, ⟨%f4, %hf4, H4⟩, ⟨%f5, %hf5, H5⟩, ⟨%s, ⟨%f8, %hf8, H8⟩, ⟨%f9, %hf9, H9⟩, ⟨%f10, %hf10, H10⟩, ⟨%f11, %hf11, H11⟩⟩, Hk⟩
  obtain rfl := harg3.eq_unread hf3
  obtain rfl := harg4.eq_unread hf4; obtain rfl := harg5.eq_unread hf5
  sl_exec (disch := first | exact hc1 | exact hc2)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H8]
  · iexists _; isplitr
    swap; · iexact H8
    ipureintro
    (try sl_unfold_words)
    rw [read_stored_whole _ _ zero2]
    simp only [View.readAt_eq_ld, harg3.read_unread, harg4.read_unread, harg5.read_unread, harg6.read_unread, harg8.read_unread, harg9.read_unread,
      harg10.read_unread, harg11.read_unread,
      View.readCov_unit_zero (S := S1024x1) _ zero2, View.readCov_unit_zero (S := S1024x768) _ zero2,
      View.ld_unit_zero (S := S1x256x768) zero3, View.ld_unit_zero (S := S1x1024x768) zero3,
      View.ld_unit_zero (S := S1024x1) zero2, View.ld_unit_zero (S := S1024x768) zero2]
    try rfl
  isplitl [H9]
  · iexists _; isplitr
    swap; · iexact H9
    ipureintro
    (try sl_unfold_words)
    rw [read_stored_whole _ _ zero2]
    simp only [View.readAt_eq_ld, harg3.read_unread, harg4.read_unread, harg5.read_unread, harg6.read_unread, harg8.read_unread, harg9.read_unread,
      harg10.read_unread, harg11.read_unread,
      View.readCov_unit_zero (S := S1024x1) _ zero2, View.readCov_unit_zero (S := S1024x768) _ zero2,
      View.ld_unit_zero (S := S1x256x768) zero3, View.ld_unit_zero (S := S1x1024x768) zero3,
      View.ld_unit_zero (S := S1024x1) zero2, View.ld_unit_zero (S := S1024x768) zero2]
    try rfl
  isplitl [H10]
  · iexists _; isplitr
    swap; · iexact H10
    ipureintro
    (try sl_unfold_words)
    rw [read_stored_whole _ _ zero2]
    simp only [View.readAt_eq_ld, harg3.read_unread, harg4.read_unread, harg5.read_unread, harg6.read_unread, harg8.read_unread, harg9.read_unread,
      harg10.read_unread, harg11.read_unread,
      View.readCov_unit_zero (S := S1024x1) _ zero2, View.readCov_unit_zero (S := S1024x768) _ zero2,
      View.ld_unit_zero (S := S1x256x768) zero3, View.ld_unit_zero (S := S1x1024x768) zero3,
      View.ld_unit_zero (S := S1024x1) zero2, View.ld_unit_zero (S := S1024x768) zero2]
    try rfl
  · iexists _; isplitr
    swap; · iexact H11
    ipureintro
    (try sl_unfold_words)
    rw [read_stored_whole _ _ zero2]
    simp only [View.readAt_eq_ld, harg3.read_unread, harg4.read_unread, harg5.read_unread, harg6.read_unread, harg8.read_unread, harg9.read_unread,
      harg10.read_unread, harg11.read_unread,
      View.readCov_unit_zero (S := S1024x1) _ zero2, View.readCov_unit_zero (S := S1024x768) _ zero2,
      View.ld_unit_zero (S := S1x256x768) zero3, View.ld_unit_zero (S := S1x1024x768) zero3,
      View.ld_unit_zero (S := S1024x1) zero2, View.ld_unit_zero (S := S1024x768) zero2]
    try rfl

set_option maxHeartbeats 4000000 in
/-- The last key tile of a query block: the carried buffers are advanced as at a middle tile, and the output window
    is stored whole with the blend of the advanced buffers and the query's own value block. -/
theorem runLast (c : Dev nD) (E : Set ℕ) (i : grid0.Coords)
    (arg3 : Memref sig .tc .vmem S1x1024x768 .f32) (harg3 : arg3.IsWhole) (arg4 : Memref sig .tc .vmem S1x256x768 .f32) (harg4 : arg4.IsWhole)
    (arg5 : Memref sig .tc .vmem S1x256x768 .f32) (harg5 : arg5.IsWhole) (arg6 : Memref sig .tc .vmem S1x1024x768 .f32) (harg6 : arg6.IsWhole)
    (arg7 : Memref sig .tc .vmem S1x1024x768 .f32) (harg7 : arg7.IsWhole) (arg8 : Memref sig .tc .vmem S1024x1 .f32) (harg8 : arg8.IsWhole)
    (arg9 : Memref sig .tc .vmem S1024x1 .f32) (harg9 : arg9.IsWhole) (arg10 : Memref sig .tc .vmem S1024x768 .f32) (harg10 : arg10.IsWhole)
    (arg11 : Memref sig .tc .vmem S1024x768 .bf16) (harg11 : arg11.IsWhole)
    (hc1 : ¬condFirst i) (hc2 : condLast i)
    (xk xv : Vec F S1x256x768 .f32) (xf : Vec F S1x1024x768 .f32) (s : Carry F) (K : PUnit → sProp 𝕄) :
    iprop(owns (c : Thread nD τ) arg4 fullShare xk ∗ owns (c : Thread nD τ) arg5 fullShare xv ∗ owns (c : Thread nD τ) arg6 fullShare xf
        ∗ (∃ d, owns (c : Thread nD τ) arg7 fullShare d) ∗ carried c arg8 arg9 arg10 arg11 s
        ∗ (iprop(owns (c : Thread nD τ) arg4 fullShare xk ∗ owns (c : Thread nD τ) arg5 fullShare xv ∗ owns (c : Thread nD τ) arg6 fullShare xf
            ∗ owns (c : Thread nD τ) arg7 fullShare (emit (step i xk xv s) xf)
            ∗ carried c arg8 arg9 arg10 arg11 (step i xk xv s)) -∗ K ⟨⟩))
      ⊢ wp frame (wpE (defs₀ (F := F)) Variants.none c none) E (cc0__kernel i arg3 harg3 arg4 harg4 arg5 harg5 arg6 harg6 arg7 harg7 arg8 harg8 arg9 harg9 arg10 harg10 arg11 harg11) K := by
  obtain ⟨m0, l0, a0, q0⟩ := s
  simp only [cc0__kernel_eq_skeleton]; unfold cc0__kernel_skel
  unfold carried owns
  iintro ⟨⟨%f4, %hf4, H4⟩, ⟨%f5, %hf5, H5⟩, ⟨%f6, %hf6, H6⟩, ⟨%d7, %f7, -, H7⟩, ⟨⟨%f8, %hf8, H8⟩, ⟨%f9, %hf9, H9⟩, ⟨%f10, %hf10, H10⟩, ⟨%f11, %hf11, H11⟩⟩, Hk⟩
  obtain rfl := harg4.eq_unread hf4; obtain rfl := harg5.eq_unread hf5; obtain rfl := harg6.eq_unread hf6
  obtain rfl := harg8.eq_unread hf8; obtain rfl := harg9.eq_unread hf9
  obtain rfl := harg10.eq_unread hf10; obtain rfl := harg11.eq_unread hf11
  sl_exec (disch := first | exact hc1 | exact hc2)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    (try sl_unfold_words)
    rw [read_stored_whole _ _ zero3]
    simp only [View.readAt_eq_ld, harg3.read_unread, harg4.read_unread, harg5.read_unread, harg6.read_unread, harg8.read_unread, harg9.read_unread,
      harg10.read_unread, harg11.read_unread,
      View.readCov_unit_zero (S := S1024x1) _ zero2, View.readCov_unit_zero (S := S1024x768) _ zero2,
      View.ld_unit_zero (S := S1x256x768) zero3, View.ld_unit_zero (S := S1x1024x768) zero3,
      View.ld_unit_zero (S := S1024x1) zero2, View.ld_unit_zero (S := S1024x768) zero2]
    try rfl
  isplitl [H8]
  · iexists _; isplitr
    swap; · iexact H8
    ipureintro
    (try sl_unfold_words)
    rw [read_stored_whole _ _ zero2]
    simp only [View.readAt_eq_ld, harg3.read_unread, harg4.read_unread, harg5.read_unread, harg6.read_unread, harg8.read_unread, harg9.read_unread,
      harg10.read_unread, harg11.read_unread,
      View.readCov_unit_zero (S := S1024x1) _ zero2, View.readCov_unit_zero (S := S1024x768) _ zero2,
      View.ld_unit_zero (S := S1x256x768) zero3, View.ld_unit_zero (S := S1x1024x768) zero3,
      View.ld_unit_zero (S := S1024x1) zero2, View.ld_unit_zero (S := S1024x768) zero2]
    try rfl
  isplitl [H9]
  · iexists _; isplitr
    swap; · iexact H9
    ipureintro
    (try sl_unfold_words)
    rw [read_stored_whole _ _ zero2]
    simp only [View.readAt_eq_ld, harg3.read_unread, harg4.read_unread, harg5.read_unread, harg6.read_unread, harg8.read_unread, harg9.read_unread,
      harg10.read_unread, harg11.read_unread,
      View.readCov_unit_zero (S := S1024x1) _ zero2, View.readCov_unit_zero (S := S1024x768) _ zero2,
      View.ld_unit_zero (S := S1x256x768) zero3, View.ld_unit_zero (S := S1x1024x768) zero3,
      View.ld_unit_zero (S := S1024x1) zero2, View.ld_unit_zero (S := S1024x768) zero2]
    try rfl
  isplitl [H10]
  · iexists _; isplitr
    swap; · iexact H10
    ipureintro
    (try sl_unfold_words)
    rw [read_stored_whole _ _ zero2]
    simp only [View.readAt_eq_ld, harg3.read_unread, harg4.read_unread, harg5.read_unread, harg6.read_unread, harg8.read_unread, harg9.read_unread,
      harg10.read_unread, harg11.read_unread,
      View.readCov_unit_zero (S := S1024x1) _ zero2, View.readCov_unit_zero (S := S1024x768) _ zero2,
      View.ld_unit_zero (S := S1x256x768) zero3, View.ld_unit_zero (S := S1x1024x768) zero3,
      View.ld_unit_zero (S := S1024x1) zero2, View.ld_unit_zero (S := S1024x768) zero2]
    try rfl
  · iexists _; isplitr; · ipureintro; exact harg11.read_unread _
    iexact H11

end Cert.KernelIdeal.Hand

end
-- ==== Proof.Data.lean ====
/-
  The proof data of the kernel's pipeline and its body obligation.

  A grid point is numbered t = 16·b + 8·qi + ki: ki, the key tile, is t mod 8. Each input window's staging buffer
  holds, at every point, the block of its array that the window's index map names there (the query-side windows are
  fetched once per query block and found in place at the seven later key tiles). The four carried buffers hold,
  after point t, the result of advancing by the tiles seen so far in this query block: 'carryAfter t' resets at
  ki = 0 and advances what point t - 1 left otherwise. The output window is stored at ki = 7 only, with the blend of
  the advanced buffers and the query's own value block, and is handed back untouched at the other points.
-/
import proofs.«129787_j68813966016741_2_alg».proof.Proof.Gen.KernelIdeal.Launch
import proofs.«129787_j68813966016741_2_alg».proof.Proof.Gen.KernelIdeal.Skeleton
import proofs.«129787_j68813966016741_2_alg».proof.Proof.Gen.KernelIdeal.Points
import Idealize.ShloMosaic.Lib.Pipeline.FrameBody
import Idealize.ShloMosaic.Lib.Pipeline.FrameSuffix
import Idealize.ShloMosaic.Lib.Tactic
import Idealize.ShloMosaic.Lib.Pipeline.Value
import proofs.«129787_j68813966016741_2_alg».proof.Proof.Body

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The TensorCore buffers as the region finds them: the launch memory (no host line precedes the region). -/
abbrev V (c : Dev nD) (b : Ref sig .tc) : Buf (Elt F) ((c : Thread nD τ).loc b) := m ((c.tc : Thread nD τ).loc b)

/-- Window 'w''s block at point 't', read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first conditional holds exactly at key tile 0, -/
theorem hFirst : ∀ t : Fin cfg0.N, condFirst (grid0.coords t) ↔ t.val % 8 = 0 :=
  (by decide +kernel : ∀ t : Fin grid0.N, condFirst (grid0.coords t) ↔ t.val % 8 = 0)
/-- the second exactly at key tile 7. -/
theorem hLast : ∀ t : Fin cfg0.N, condLast (grid0.coords t) ↔ t.val % 8 = 7 :=
  (by decide +kernel : ∀ t : Fin grid0.N, condLast (grid0.coords t) ↔ t.val % 8 = 7)

/-- The input windows are never idle; the output window is idle, and not written back, away from key tile 7, and
    live at key tile 7. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem idle4 : ∀ t : Fin cfg0.N, ¬condLast (grid0.coords t) → cfg0.idle 4 (grid0.coords t) = true := by decide +kernel
theorem noFlush4 : ∀ t : Fin cfg0.N, ¬condLast (grid0.coords t) → (cfg0.win 4).flush t = false := by decide +kernel
theorem live4 : ∀ t : Fin cfg0.N, condLast (grid0.coords t) → cfg0.idle 4 (grid0.coords t) = false := by decide +kernel

/-- The carried buffers after the point numbered 'n': at key tile 0 the reset from the query block, advanced by the
    tile; otherwise what point n - 1 left, advanced by the tile. -/
def carryAfter (c : Dev nD) : (n : ℕ) → n < cfg0.N → Carry F
  | 0, hn => step (grid0.coords ⟨0, hn⟩) (iblk m c 1 ⟨0, hn⟩) (iblk m c 2 ⟨0, hn⟩) (reset (iblk m c 0 ⟨0, hn⟩))
  | n + 1, hn => step (grid0.coords ⟨n + 1, hn⟩) (iblk m c 1 ⟨n + 1, hn⟩) (iblk m c 2 ⟨n + 1, hn⟩)
      (if (n + 1) % 8 = 0 then reset (iblk m c 0 ⟨n + 1, hn⟩) else carryAfter c n (Nat.lt_of_succ_lt hn))

theorem carryAfter_first (c : Dev nD) (t : Fin cfg0.N) (h : t.val % 8 = 0) :
    carryAfter m c t.val t.isLt = step (grid0.coords t) (iblk m c 1 t) (iblk m c 2 t) (reset (iblk m c 0 t)) := by
  obtain ⟨n, hn⟩ := t
  cases n with
  | zero => rfl
  | succ n => exact congrArg (step _ _ _) (if_pos h)

theorem carryAfter_later (c : Dev nD) (t : Fin cfg0.N) (h : ¬t.val % 8 = 0) :
    carryAfter m c t.val t.isLt = step (grid0.coords t) (iblk m c 1 t) (iblk m c 2 t)
      (carryAfter m c (t.val - 1) (Nat.lt_of_le_of_lt (Nat.sub_le _ _) t.isLt)) := by
  obtain ⟨n, hn⟩ := t
  cases n with
  | zero => exact absurd (Nat.zero_mod _) h
  | succ n => exact congrArg (step _ _ _) (if_neg h)

/-- The carried buffers as whole memrefs. -/
abbrev scM : Memref sig .tc .vmem S1024x1 .f32 := Memref.whole cc0_scratch0
abbrev scL : Memref sig .tc .vmem S1024x1 .f32 := Memref.whole cc0_scratch1
abbrev scA : Memref sig .tc .vmem S1024x768 .f32 := Memref.whole cc0_scratch2
abbrev scQ : Memref sig .tc .vmem S1024x768 .bf16 := Memref.whole cc0_scratch3

/-- The core's scoped buffers that are no staging buffer: the four carried buffers, as memrefs owned at some contents. -/
abbrev rest (c : Dev nD) : sProp 𝕄 :=
  Pipeline.scopedRest (Ix := Unit) (Name := ℕ) (U := UR sig nD τ) (Lvl := ℕ) (Val := Elt F) spec0 c
theorem rest_eq (c : Dev nD) :
    (rest c : sProp 𝕄)
      = iprop((∃ d, owns (c : Thread nD τ) scM fullShare d) ∗ (∃ d, owns (c : Thread nD τ) scL fullShare d)
          ∗ (∃ d, owns (c : Thread nD τ) scA fullShare d) ∗ (∃ d, owns (c : Thread nD τ) scQ fullShare d)) := by
  unfold rest; rw [scopedRest0_eq]; simp only [scM, scL, scA, scQ, owns_whole]; try rfl

/-- The region invariant before the point numbered 'n': before the first point the carried buffers hold anything;
    afterwards what the point before left. -/
def PhiC (c : Dev nD) : (n : ℕ) → n ≤ cfg0.N → sProp 𝕄
  | 0, _ => rest c
  | n + 1, hn => carried c scM scL scA scQ (carryAfter m c n hn)

theorem PhiC_zero (c : Dev nD) (n : ℕ) (h : n ≤ cfg0.N) (hz : n = 0) : PhiC m c n h = rest c := by
  subst hz; rfl
theorem PhiC_succ (c : Dev nD) (n : ℕ) (hn : n < cfg0.N) :
    PhiC m c (n + 1) hn = carried c scM scL scA scQ (carryAfter m c n hn) := rfl
theorem PhiC_pos (c : Dev nD) (n : ℕ) (h : n ≤ cfg0.N) (hz : n ≠ 0) :
    PhiC m c n h = carried c scM scL scA scQ (carryAfter m c (n - 1) (by omega)) := by
  cases n with
  | zero => exact absurd rfl hz
  | succ n => rfl

/-- The proof data on core 'c'. The two windows on each input array hold a half of its share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => emit (carryAfter m c t.val t.isLt) (iblk m c 3 t)
  Φ t := PhiC m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiC m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = emit (carryAfter m c t.val t.isLt) (iblk m c 3 t) := by dsimp only [dats]

/-- Each input window's current staging buffer holds its block at every point, fetched there or not: unfetched, the
    window's index has not moved since the fetch, and the body left the block in place. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-! ## The body obligation, at a generic point -/

/-- What the body is called with at point 't', the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves0 (c : Dev nD) (t : Fin cfg0.N) :
    (dats m 0 c).leavesExact 0 t = owns (c : Thread nD τ) (st0_0 t) fullShare (iblk m c 0 t) := by
  unfold Dat.leavesExact; rw [live0 t, after0]
theorem leaves1 (c : Dev nD) (t : Fin cfg0.N) :
    (dats m 0 c).leavesExact 1 t = owns (c : Thread nD τ) (st0_1 t) fullShare (iblk m c 1 t) := by
  unfold Dat.leavesExact; rw [live1 t, after1]
theorem leaves2 (c : Dev nD) (t : Fin cfg0.N) :
    (dats m 0 c).leavesExact 2 t = owns (c : Thread nD τ) (st0_2 t) fullShare (iblk m c 2 t) := by
  unfold Dat.leavesExact; rw [live2 t, after2]
theorem leaves3 (c : Dev nD) (t : Fin cfg0.N) :
    (dats m 0 c).leavesExact 3 t = owns (c : Thread nD τ) (st0_3 t) fullShare (iblk m c 3 t) := by
  unfold Dat.leavesExact; rw [live3 t, after3]

set_option maxHeartbeats 4000000 in
/-- The body at any point. The inputs' memrefs hold their blocks; the key tile's number says which of the three
    situations the point is in; the invariant hands the body the carried buffers at what the point before left (at
    anything before the first point, where the first situation holds) and takes them back advanced. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, leaves0, leaves1, leaves2, leaves3]
  rw [show (dats m 0 c).owesAt () t.succ = (dats m 0 c).owesAt () t.castSucc from rfl]
  rw [show (dats m 0 c).Φ t.succ = PhiC m c (t.val + 1) t.isLt from rfl, PhiC_succ]
  have hN : t.val < 128 := lt_of_lt_of_eq t.isLt (show cfg0.N = 128 from N_0)
  by_cases h0 : t.val % 8 = 0
  · have h7 : ¬t.val % 8 = 7 := by omega
    have hc1 : condFirst (grid0.coords t) := (hFirst t).mpr h0
    have hc2 : ¬condLast (grid0.coords t) := fun h => h7 ((hLast t).mp h)
    rw [Dat.leavesExact_idle (dats m 0 c) 4 t (idle4 t hc2) (noFlush4 t hc2), carryAfter_first m c t h0]
    have hpre : (dats m 0 c).Φ t.castSucc ⊢ iprop(∃ s, carried c scM scL scA scQ s) := by
      rw [Phi_castSucc m c t]
      by_cases hz : t.val = 0
      · rw [PhiC_zero m c _ _ hz, rest_eq]
        iintro ⟨⟨%d8, H8⟩, ⟨%d9, H9⟩, ⟨%d10, H10⟩, ⟨%d11, H11⟩⟩
        iexists (⟨d8, d9, d10, d11⟩ : Carry F)
        unfold carried
        isplitl [H8]; · iexact H8
        isplitl [H9]; · iexact H9
        isplitl [H10]; · iexact H10
        iexact H11
      · rw [PhiC_pos m c _ _ hz]
        iintro H; iexists _; iexact H
    iintro ⟨HΦ, Ho, ⟨%d0, H0⟩, ⟨%d1, H1⟩, ⟨%d2, H2⟩, ⟨%d3, H3⟩, H4⟩
    ihave HS := hpre $$ HΦ
    iapply (runFirst c Set.univ (grid0.coords t) _ _ _ _ _ _ _ _ _ _ _ _ _ _ _ _ _ _ hc1 hc2 (iblk m c 0 t) (iblk m c 1 t) (iblk m c 2 t) _)
    isplitl [H0]; · iexact H0
    isplitl [H1]; · iexact H1
    isplitl [H2]; · iexact H2
    isplitl [HS]; · iexact HS
    iintro ⟨H0, H1, H2, HS⟩
    isplitl [HS]; · iexact HS
    isplitl [Ho]; · iexact Ho
    isplitl [H0]; · iexact H0
    isplitl [H1]; · iexact H1
    isplitl [H2]; · iexact H2
    isplitl [H3]; · iexact H3
    iexact H4
  · have hz : t.val ≠ 0 := fun h => h0 (by rw [h])
    have hc1 : ¬condFirst (grid0.coords t) := fun h => h0 ((hFirst t).mp h)
    rw [Phi_castSucc m c t, PhiC_pos m c _ _ hz, carryAfter_later m c t h0]
    by_cases h7 : t.val % 8 = 7
    · have hc2 : condLast (grid0.coords t) := (hLast t).mpr h7
      rw [show (dats m 0 c).leavesExact 4 t = owns (c : Thread nD τ) (st0_4 t) fullShare ((dats m 0 c).after 4 t) from by
        unfold Dat.leavesExact; rw [live4 t hc2], after4, carryAfter_later m c t h0]
      iintro ⟨HS, Ho, ⟨%d0, H0⟩, ⟨%d1, H1⟩, ⟨%d2, H2⟩, ⟨%d3, H3⟩, ⟨%d4, H4⟩⟩
      iapply (runLast c Set.univ (grid0.coords t) _ _ _ _ _ _ _ _ _ _ _ _ _ _ _ _ _ _ hc1 hc2 (iblk m c 1 t) (iblk m c 2 t) (iblk m c 3 t) _ _)
      isplitl [H1]; · iexact H1
      isplitl [H2]; · iexact H2
      isplitl [H3]; · iexact H3
      isplitl [H4]; · iexists _; iexact H4
      isplitl [HS]; · iexact HS
      iintro ⟨H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexact H4
    · have hc2 : ¬condLast (grid0.coords t) := fun h => h7 ((hLast t).mp h)
      rw [Dat.leavesExact_idle (dats m 0 c) 4 t (idle4 t hc2) (noFlush4 t hc2)]
      iintro ⟨HS, Ho, ⟨%d0, H0⟩, ⟨%d1, H1⟩, ⟨%d2, H2⟩, ⟨%d3, H3⟩, H4⟩
      iapply (runMid c Set.univ (grid0.coords t) _ _ _ _ _ _ _ _ _ _ _ _ _ _ _ _ _ _ hc1 hc2 (iblk m c 1 t) (iblk m c 2 t) _ _)
      isplitl [H1]; · iexact H1
      isplitl [H2]; · iexact H2
      isplitl [HS]; · iexact HS
      iintro ⟨H1, H2, HS⟩
      isplitl [HS]; · iexact HS
      isplitl [Ho]; · iexact Ho
      isplitl [H0]; · iexact H0
      isplitl [H1]; · iexact H1
      isplitl [H2]; · iexact H2
      isplitl [H3]; · iexact H3
      iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : (rest c : sProp 𝕄) ⊢ (dats m 0 c).Φ 0 := by
  rw [show (dats m 0 c).Φ 0 = PhiC m c 0 (Nat.zero_le _) from rfl, PhiC_zero m c 0 _ rfl]
  try exact Idealize.SL.BI.Entails.refl _

/-- After the last point the invariant gives the carried buffers back, their contents forgotten. -/
theorem hout (c : Dev nD) : (dats m 0 c).Φ (Fin.last cfg0.N) ⊢ (rest c : sProp 𝕄) := by
  have hN : (Fin.last cfg0.N).val ≠ 0 := by rw [Fin.val_last]; have : cfg0.N = 128 := N_0; omega
  rw [show (dats m 0 c).Φ (Fin.last cfg0.N) = PhiC m c (Fin.last cfg0.N).val (Nat.le_of_lt_succ (Fin.last cfg0.N).isLt) from rfl,
    PhiC_pos m c _ _ hN, rest_eq]
  unfold carried
  iintro ⟨H8, H9, H10, H11⟩
  isplitl [H8]; · iexists _; iexact H8
  isplitl [H9]; · iexists _; iexact H9
  isplitl [H10]; · iexists _; iexact H10
  iexists _; iexact H11

end Cert.KernelIdeal.Hand

end
-- ==== Proof.Blocks.lean ====
/-
  Where a window's block sits in its array.

  Grid point t = 16·b + 8·qi + ki. The query-side windows' block at t is rows 1024·qi … 1024·qi + 1023 of batch b;
  the key-side windows' block is rows 256·ki … 256·ki + 255 of batch b; all 768 features. So a block read at
  (0, r, d) is the array read at (b, 1024·qi + r, d), respectively (b, 256·ki + r, d).
-/
import proofs.«129787_j68813966016741_2_alg».proof.Proof.Gen.KernelIdeal.Launch
import proofs.«129787_j68813966016741_2_alg».proof.Proof.Gen.KernelIdeal.Skeleton
import proofs.«129787_j68813966016741_2_alg».proof.Proof.Gen.KernelIdeal.Points
import Idealize.ShloMosaic.Lib.Pipeline.FrameBody
import Idealize.ShloMosaic.Lib.Pipeline.FrameSuffix
import Idealize.ShloMosaic.Lib.Tactic
import Idealize.ShloMosaic.Lib.Pipeline.Value
import Idealize.ShloMosaic.Lib.ValueIdx
import proofs.«129787_j68813966016741_2_alg».proof.Proof.Data

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

open Idealize.ShloMosaic.ValueIdx

theorem N128 : cfg0.N = 128 := N_0

/-- The batch of a grid point, -/
def bOf (t : Fin cfg0.N) : Fin 8 := ⟨t.val / 16, by have := lt_of_lt_of_eq t.isLt N128; omega⟩
/-- its query block, -/
def qOf (t : Fin cfg0.N) : ℕ := (t.val / 8) % 2
/-- its key tile. -/
def kOf (t : Fin cfg0.N) : ℕ := t.val % 8
/-- Row 'r' of the point's query block, as a row of the array, -/
def qRow (t : Fin cfg0.N) (r : Fin 1024) : Fin 2048 := ⟨1024 * qOf t + r.val, by unfold qOf; omega⟩
/-- and row 'r' of its key tile. -/
def kRow (t : Fin cfg0.N) (r : Fin 256) : Fin 2048 := ⟨256 * kOf t + r.val, by unfold kOf; omega⟩

/-- The printed index maps and the grid's coordinates in closed form, decided over the grid. -/
theorem idx_facts : ∀ t : Fin cfg0.N,
    win0_0.index t (0 : Fin 3) = t.val / 16 ∧ win0_0.index t (1 : Fin 3) = (t.val / 8) % 2 ∧ win0_0.index t (2 : Fin 3) = 0
    ∧ win0_1.index t (0 : Fin 3) = t.val / 16 ∧ win0_1.index t (1 : Fin 3) = t.val % 8 ∧ win0_1.index t (2 : Fin 3) = 0
    ∧ win0_2.index t (0 : Fin 3) = t.val / 16 ∧ win0_2.index t (1 : Fin 3) = t.val % 8 ∧ win0_2.index t (2 : Fin 3) = 0
    ∧ win0_3.index t (0 : Fin 3) = t.val / 16 ∧ win0_3.index t (1 : Fin 3) = (t.val / 8) % 2 ∧ win0_3.index t (2 : Fin 3) = 0
    ∧ win0_4.index t (0 : Fin 3) = t.val / 16 ∧ win0_4.index t (1 : Fin 3) = (t.val / 8) % 2 ∧ win0_4.index t (2 : Fin 3) = 0
    ∧ (grid0.coords t (1 : Fin 3)).val = (t.val / 8) % 2 ∧ (grid0.coords t (2 : Fin 3)).val = t.val % 8 :=
  (by decide +kernel : ∀ t : Fin grid0.N, _)

theorem iblk0_apply (c : Dev nD) (t : Fin cfg0.N) (r : Fin 1024) (d : Fin 768) :
    iblk m c 0 t (ix3 0 r d) = V m c main_arg1 (ix3 (bOf t) (qRow t r) d) := by
  obtain ⟨e0, e1, e2, -⟩ := idx_facts t
  show V m c main_arg1 (((cfg0.win 0).blk t).view.emb (ix3 0 r d)) = _
  congr 1
  funext a; apply Fin.ext
  match a with
  | ⟨0, _⟩ => show win0_0.index t (0 : Fin 3) * 1 + 1 * 0 = t.val / 16; omega
  | ⟨1, _⟩ => show win0_0.index t (1 : Fin 3) * 1024 + 1 * r.val = 1024 * ((t.val / 8) % 2) + r.val; omega
  | ⟨2, _⟩ => show win0_0.index t (2 : Fin 3) * 768 + 1 * d.val = d.val; omega

theorem iblk1_apply (c : Dev nD) (t : Fin cfg0.N) (r : Fin 256) (d : Fin 768) :
    iblk m c 1 t (ix3 0 r d) = V m c main_arg1 (ix3 (bOf t) (kRow t r) d) := by
  obtain ⟨-, -, -, e0, e1, e2, -⟩ := idx_facts t
  show V m c main_arg1 (((cfg0.win 1).blk t).view.emb (ix3 0 r d)) = _
  congr 1
  funext a; apply Fin.ext
  match a with
  | ⟨0, _⟩ => show win0_1.index t (0 : Fin 3) * 1 + 1 * 0 = t.val / 16; omega
  | ⟨1, _⟩ => show win0_1.index t (1 : Fin 3) * 256 + 1 * r.val = 256 * (t.val % 8) + r.val; omega
  | ⟨2, _⟩ => show win0_1.index t (2 : Fin 3) * 768 + 1 * d.val = d.val; omega

theorem iblk2_apply (c : Dev nD) (t : Fin cfg0.N) (r : Fin 256) (d : Fin 768) :
    iblk m c 2 t (ix3 0 r d) = V m c main_arg0 (ix3 (bOf t) (kRow t r) d) := by
  obtain ⟨-, -, -, -, -, -, e0, e1, e2, -⟩ := idx_facts t
  show V m c main_arg0 (((cfg0.win 2).blk t).view.emb (ix3 0 r d)) = _
  congr 1
  funext a; apply Fin.ext
  match a with
  | ⟨0, _⟩ => show win0_2.index t (0 : Fin 3) * 1 + 1 * 0 = t.val / 16; omega
  | ⟨1, _⟩ => show win0_2.index t (1 : Fin 3) * 256 + 1 * r.val = 256 * (t.val % 8) + r.val; omega
  | ⟨2, _⟩ => show win0_2.index t (2 : Fin 3) * 768 + 1 * d.val = d.val; omega

theorem iblk3_apply (c : Dev nD) (t : Fin cfg0.N) (r : Fin 1024) (d : Fin 768) :
    iblk m c 3 t (ix3 0 r d) = V m c main_arg0 (ix3 (bOf t) (qRow t r) d) := by
  obtain ⟨-, -, -, -, -, -, -, -, -, e0, e1, e2, -⟩ := idx_facts t
  show V m c main_arg0 (((cfg0.win 3).blk t).view.emb (ix3 0 r d)) = _
  congr 1
  funext a; apply Fin.ext
  match a with
  | ⟨0, _⟩ => show win0_3.index t (0 : Fin 3) * 1 + 1 * 0 = t.val / 16; omega
  | ⟨1, _⟩ => show win0_3.index t (1 : Fin 3) * 1024 + 1 * r.val = 1024 * ((t.val / 8) % 2) + r.val; omega
  | ⟨2, _⟩ => show win0_3.index t (2 : Fin 3) * 768 + 1 * d.val = d.val; omega

end Cert.KernelIdeal.Hand

end
-- ==== Proof.Spec.lean ====
/-
  Similarity attention over row-normalised features: the two formulas whose equality is the claim.

  Each row x(b, n, ·) of the feature array is divided by its length, the length floored at a small positive number.
  The score of a pair of rows (n, j) of one batch is the inner product of the two normalised rows, except on the
  diagonal n = j, where it is 0. A row's confidence is the largest of its 2048 scores; its weights are the scores'
  softmax; the refined row is the weighted average of the value rows; the result blends the refined row and the row's
  own value by the confidence.

  The softmax side is written twice. 'refOut' takes the whole row of scores at once: the maximum, the exponentials
  of the differences, their sum, the quotients, the weighted sum. 'kerOut' walks the row in eight tiles of 256 keys
  and keeps a running maximum, a running sum of exponentials and a running weighted sum, each rescaled by the
  exponential of the change of the maximum whenever the maximum grows; it divides once at the end. Everything is
  stated on the extended reals with the exact operations, the starting maximum being -infinity.
-/
import Idealize.ShloMosaic.PureOps.Ideal
import Idealize.ShloMosaic.PureOps.Ideal.Laws
import Idealize.ShloMosaic.Lib.ValueIdx

noncomputable section

namespace Cert.SimAttn

open Idealize.ShloMosaic Idealize.ShloMosaic.ValueIdx

/-- The arrays' shape: 8 batches of 2048 rows of 768 features. -/
abbrev SArr : Shape := ⟨3, ![8, 2048, 768]⟩
/-- An array of that shape over the extended reals. -/
abbrev Arr : Type := SArr.Idx → EReal

/-- The floor of a row's length. -/
def eps : EReal := Ideal.ofBits .f32 0x2B8CBCCC#32
/-- The starting value of every maximum. -/
def negInf : EReal := Ideal.ofBits .f32 0xFF800000#32
/-- The unit of the blend. -/
def one : EReal := Ideal.ofBits .f32 0x3F800000#32

/-- The sum of the squares of row (b, n). -/
def sumSq (x : Arr) (b : Fin 8) (n : Fin 2048) : EReal := ∑ d : Fin 768, x (ix3 b n d) * x (ix3 b n d)
/-- The row's length, floored. -/
def len (x : Arr) (b : Fin 8) (n : Fin 2048) : EReal := max (Ideal.sqrt (sumSq x b n)) eps
/-- The normalised row. -/
def unit (x : Arr) (b : Fin 8) (n : Fin 2048) (d : Fin 768) : EReal := Ideal.div (x (ix3 b n d)) (len x b n)
/-- The inner product of two normalised rows of one batch. -/
def cosine (x : Arr) (b : Fin 8) (n j : Fin 2048) : EReal := ∑ d : Fin 768, unit x b n d * unit x b j d

/-- The blend of a refined value 'r' and the row's own value 'f' by the confidence 'm'. -/
def blend (m r f : EReal) : EReal := m * r + (one - m) * f

/-! ## The whole row at once -/

/-- The score with the diagonal removed by a factor 1 - [n = j]. -/
def maskedScore (x : Arr) (b : Fin 8) (n j : Fin 2048) : EReal :=
  cosine x b n j * (one - (if n = j then (1 : EReal) else 0))

/-- Confidence, softmax weights and blend, the row taken whole. -/
def refOut (fin mid : Arr) (b : Fin 8) (n : Fin 2048) (d : Fin 768) : EReal :=
  let s : Fin 2048 → EReal := maskedScore mid b n
  let conf : EReal := (Finset.univ : Finset (Fin 2048)).fold max negInf s
  let s' : Fin 2048 → EReal := fun j => Ideal.div (s j) one
  let M : EReal := max negInf ((Finset.univ : Finset (Fin 2048)).fold max negInf s')
  let e : Fin 2048 → EReal := fun j => Ideal.exp (s' j - M)
  let L : EReal := 0 + ∑ j : Fin 2048, e j
  blend conf (∑ j : Fin 2048, Ideal.div (e j) L * fin (ix3 b j d)) (fin (ix3 b n d))

/-! ## The row in eight tiles -/

/-- Key 'c' of tile 'k'. -/
def key (k : ℕ) (c : Fin 256) : Fin 2048 := ⟨(256 * k + c.val) % 2048, Nat.mod_lt _ (by norm_num)⟩

/-- The score with the diagonal set to 0. -/
def score (x : Arr) (b : Fin 8) (n j : Fin 2048) : EReal := if n = j then 0 else cosine x b n j

/-- The largest score of tile 'k'. -/
def tileMax (s : ℕ → Fin 256 → EReal) (k : ℕ) : EReal := (Finset.univ : Finset (Fin 256)).fold max negInf (s k)

/-- The running maximum after the first 'k' tiles. -/
def runM (s : ℕ → Fin 256 → EReal) : ℕ → EReal
  | 0 => negInf
  | k + 1 => max (runM s k) (tileMax s k)

/-- The running sum of exponentials after the first 'k' tiles, relative to the running maximum. -/
def runL (s : ℕ → Fin 256 → EReal) : ℕ → EReal
  | 0 => 0
  | k + 1 => Ideal.exp (runM s k - runM s (k + 1)) * runL s k + ∑ c : Fin 256, Ideal.exp (s k c - runM s (k + 1))

/-- The running weighted sum of the values after the first 'k' tiles, relative to the running maximum. -/
def runA (s v : ℕ → Fin 256 → EReal) : ℕ → EReal
  | 0 => 0
  | k + 1 => Ideal.exp (runM s k - runM s (k + 1)) * runA s v k
      + ∑ c : Fin 256, Ideal.exp (s k c - runM s (k + 1)) * v k c

/-- Confidence, running softmax and blend, the row taken tile by tile. -/
def kerOut (fin mid : Arr) (b : Fin 8) (n : Fin 2048) (d : Fin 768) : EReal :=
  let s : ℕ → Fin 256 → EReal := fun k c => score mid b n (key k c)
  let v : ℕ → Fin 256 → EReal := fun k c => fin (ix3 b (key k c) d)
  blend (runM s 8) (Ideal.div (runA s v 8) (runL s 8)) (fin (ix3 b n d))

end Cert.SimAttn

end
-- ==== Proof.LibKeepdims.lean ====
/-
  A column kept after a row reduction, read at an index given by coordinates.

  A sum over the last axis of an [a, b] array with the reduced axis KEPT is an [a] vector viewed as an [a, 1] column
  and then broadcast along the second axis. Two layout facts say what such a column reads:
  • an [a] vector cast to [a, 1] reads, at (p, 0), the vector at p (the two row-major positions coincide);
  • an [a, 1] column broadcast to [a, b] reads, at (p, c), the column at (p, 0), whatever c.
  Beside them: the index a one-axis reduction inserts its summed coordinate into, for a reduction of an [a, b]
  array over its last axis — the reduced index (p) with coordinate k inserted is (p, k).
-/
import Idealize.ShloMosaic.Lib.Pipeline.Value
import Idealize.ShloMosaic.Lib.ValueIdx
import Idealize.ShloMosaic.PureOps.Reduce

namespace Cert.Rbf.Keepdims

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Rbf.Keepdims
-- ==== Proof.LibRowReductions.lean ====
/-
  Row reductions of a two-axis array, read at a row.

  Over the extended reals a maximum taken along the second axis of an [n0, n1] array, at row p, is the fold of `max`
  from the starting value over the row's entries v (p, 0), …, v (p, n1 - 1), in any order; a sum along that axis is the
  starting value plus the sum of the row's entries. This is so both for the vector unit's reduction (whose
  accumulator is the operation's neutral value) and for the host's `reduce` (whose starting value is an operand).
-/
import Idealize.ShloMosaic.Lib.ValueIdx
import Idealize.ShloMosaic.PureOps.Ideal.Laws
import Idealize.ShloMosaic.PureOps.Reduce

namespace Cert.Lib.RowReductions

open Idealize.ShloMosaic Idealize.ShloMosaic.ValueIdx

/-- The reduced index (p) with coordinate k put back on the second axis is (p, k). -/
theorem lift_axis1 {n0 n1 : ℕ} (h : (⟨2, ![n0, n1]⟩ : Shape).Reduces [1] ⟨1, ![n0]⟩) (p : Fin n0) (k : Fin n1) :
    h.lift (ix1 p) k = ix2 p k :=
  funext fun c => Fin.ext (by fin_cases c <;> rfl)

/-- The vector unit's maximum over the second axis, at row `p`: the fold of `max` from the accumulator's value over
    the row. -/
theorem max_axis1 {n0 n1 : ℕ} (v : FVec Ideal (⟨2, ![n0, n1]⟩ : Shape) .f32) (acc : BitVec 32)
    (h : (⟨2, ![n0, n1]⟩ : Shape).Reduces [1] ⟨1, ![n0]⟩) (hφ : FKind.Formats .f32)
    (hacc : acc = FKind.maximumf.neutral .f32 hφ) (p : Fin n0) :
    multiReduction .maximumf [1] ⟨1, ![n0]⟩ v acc h hφ hacc (ix1 p)
      = (Finset.univ : Finset (Fin n1)).fold max (FloatOps.ofBits .f32 acc) (fun k => v (ix2 p k)) :=
  (Ideal.multiReduction_maximumf_single v acc h hφ hacc (ix1 p)).trans
    (congrArg (fun f => (Finset.univ : Finset (Fin n1)).fold max (FloatOps.ofBits .f32 acc) f)
      (funext fun k => congrArg v (lift_axis1 h p k)))

/-- The host's `reduce` with a maximum body over the second axis, at row `p`: the fold of `max` from the starting
    value over the row. -/
theorem hostMax_axis1 {n0 n1 : ℕ} {u : Shape} (x : FVec Ideal (⟨2, ![n0, n1]⟩ : Shape) .f32) (init : u.Idx → Ideal .f32)
    (h' : (⟨2, ![n0, n1]⟩ : Shape).ReducesTo [1] ⟨1, ![n0]⟩) (h : (⟨2, ![n0, n1]⟩ : Shape).Reduces [1] ⟨1, ![n0]⟩)
    (hu : 0 < u.numel) (p : Fin n0) :
    Host.reduce FloatOps.maximumf x init h' hu (ix1 p)
      = (Finset.univ : Finset (Fin n1)).fold max (init (Shape.Idx.first hu)) (fun k => x (ix2 p k)) := by
  rw [Host.reduce_eq_fold_single FloatOps.maximumf x init h' h hu]
  exact congrArg (fun f => (Finset.univ : Finset (Fin n1)).fold max (init (Shape.Idx.first hu)) f)
    (funext fun k => congrArg x (lift_axis1 h p k))

/-- The host's sum over the second axis, at row `p`: the starting value plus the sum of the row. -/
theorem hostSum_axis1 {n0 n1 : ℕ} {u : Shape} (x : FVec Ideal (⟨2, ![n0, n1]⟩ : Shape) .f32) (init : u.Idx → Ideal .f32)
    (h' : (⟨2, ![n0, n1]⟩ : Shape).ReducesTo [1] ⟨1, ![n0]⟩) (h : (⟨2, ![n0, n1]⟩ : Shape).Reduces [1] ⟨1, ![n0]⟩)
    (hu : 0 < u.numel) (p : Fin n0) :
    Host.reduceAdd x init h' hu (ix1 p) = init (Shape.Idx.first hu) + ∑ k : Fin n1, x (ix2 p k) := by
  show Ideal.hostReduceAdd _ _ _ (ix1 p) = _
  rw [Ideal.hostReduceAdd_single h' h]
  exact congrArg (init (Shape.Idx.first hu) + ·) (Finset.sum_congr rfl fun k _ => congrArg x (lift_axis1 h p k))

end Cert.Lib.RowReductions
-- ==== Proof.Payload.lean ====
/-
  The body's arithmetic, read at an index.

  Each of the kernel's stored values is a chain of pointwise operations, column broadcasts, unit-axis casts, row
  reductions and two matrix products. Read at one index of the result over the extended reals, with the exact
  operations, every link of the chain is the corresponding scalar operation on the operands at the matching indices:
  a column [1024, 1] broadcast along a row reads the column's entry of that row, a row reduction is the sum or the
  maximum over the row, a matrix product is the sum over the contracted coordinate. What comes out are the
  scalar recurrences of the running maximum, the running sum and the running weighted sum, and the final blend.
-/
import proofs.«129787_j68813966016741_2_alg».proof.Proof.Body
import proofs.«129787_j68813966016741_2_alg».proof.Proof.Spec
import proofs.«129787_j68813966016741_2_alg».proof.Proof.LibKeepdims
import proofs.«129787_j68813966016741_2_alg».proof.Proof.LibRowReductions
import Idealize.ShloMosaic.Lib.ValueLayout

set_option maxRecDepth 16384

noncomputable section

namespace Cert.KernelIdeal.Hand

open Cert.KernelIdeal Cert.KernelIdeal.Gen Cert.SimAttn
open Idealize.ShloMosaic Idealize.ShloMosaic.ValueIdx
open Cert.Rbf.Keepdims Cert.Lib.RowReductions

/-! ## Operations the library does not yet read at an index -/

/-- A pointwise square root at an index. -/
theorem sqrt_apply {s : Shape} {φ : FTy} (a : FVec Ideal s φ) (i : s.Idx) : sqrt a i = Ideal.sqrt (a i) := rfl

/-- A pointwise exponential at an index. -/
theorem exp_apply {s : Shape} {φ : FTy} (a : FVec Ideal s φ) (i : s.Idx) : exp a i = Ideal.exp (a i) := rfl

/-- The vector unit's sum over the second axis of an [n0, n1] array, at row p: the sum of the row. -/
theorem sum_axis1 {n0 n1 : ℕ} (v : FVec Ideal (⟨2, ![n0, n1]⟩ : Shape) .f32) (acc : BitVec 32)
    (h : (⟨2, ![n0, n1]⟩ : Shape).Reduces [1] ⟨1, ![n0]⟩) (hφ : FKind.Formats .f32)
    (hacc : acc = FKind.add.neutral .f32 hφ) (p : Fin n0) :
    multiReduction .add [1] ⟨1, ![n0]⟩ v acc h hφ hacc (ix1 p) = ∑ k : Fin n1, v (ix2 p k) :=
  (Ideal.multiReduction_add_single v acc h hφ hacc (ix1 p)).trans
    (Finset.sum_congr rfl fun k _ => congrArg v (lift_axis1 h p k))

/-! ## The output block -/

/-- The output block at (0, r, d): the blend, by the running maximum of row r, of the row's weighted sum divided by
    its running sum and the row's own value. -/
theorem emit_apply (s : Carry Ideal) (xf : Vec Ideal S1x1024x768 .f32) (r : Fin 1024) (d : Fin 768) :
    emit s xf (ix3 0 r d)
      = blend (s.m (ix2 r 0)) (Ideal.div (s.a (ix2 r d)) (s.l (ix2 r 0))) (xf (ix3 0 r d)) := by
  unfold emit k0_pay4
  refine (shapeCast_ab_1ab_apply _ _ 0 r d).trans ?_
  simp only [addf_apply, mulf_apply, divf_apply, subf_apply, broadcast_apply, broadcastTo_a1_ab_apply,
    shapeCast_1ab_ab_apply, Ideal.ofBits_def]
  rfl
/-! ## The reset -/

/-- The reset maximum is -infinity in every row. -/
theorem reset_m (xq : Vec Ideal S1x1024x768 .f32) (r : Fin 1024) : (reset xq).m (ix2 r 0) = negInf := by
  show k0_pay5 (F := Ideal) (ix2 r 0) = negInf
  unfold k0_pay5
  simp only [shapeCast_self, broadcast_apply]
  rfl

/-- The reset sum is 0 in every row. -/
theorem reset_l (xq : Vec Ideal S1x1024x768 .f32) (r : Fin 1024) : (reset xq).l (ix2 r 0) = 0 := by
  show k0_pay6 (F := Ideal) (ix2 r 0) = 0
  unfold k0_pay6
  simp only [shapeCast_self, broadcast_apply]
  exact Ideal.ofBits_zero_f32

/-- The reset weighted sum is 0 everywhere. -/
theorem reset_a (xq : Vec Ideal S1x1024x768 .f32) (r : Fin 1024) (d : Fin 768) : (reset xq).a (ix2 r d) = 0 := by
  show k0_pay7 (F := Ideal) (ix2 r d) = 0
  unfold k0_pay7
  simp only [shapeCast_self, broadcast_apply]
  exact Ideal.ofBits_zero_f32

/-- The reset query rows are the query block's rows, each divided by its floored length. -/
theorem reset_q (xq : Vec Ideal S1x1024x768 .f32) (r : Fin 1024) (d : Fin 768) :
    (reset xq).q (ix2 r d)
      = Ideal.div (xq (ix3 0 r d))
          (max (Ideal.sqrt (∑ d' : Fin 768, xq (ix3 0 r d') * xq (ix3 0 r d'))) eps) := by
  show k0_pay8 xq (ix2 r d) = _
  unfold k0_pay8
  simp only [shapeCast_self, truncf_apply, divf_apply, broadcastTo_a1_ab_apply, maximumf_apply, sqrt_apply,
    broadcast_apply, shapeCast_a_a1_apply, shapeCast_1ab_ab_apply, Ideal.ofBits_def]
  refine congrArg (fun t => Ideal.div (xq (ix3 0 r d)) (max (Ideal.sqrt t) eps)) ?_
  refine (sum_axis1 _ _ _ _ _ r).trans (Finset.sum_congr rfl fun k _ => ?_)
  simp only [mulf_apply, shapeCast_1ab_ab_apply]

/-! ## The two matrix products -/

theorem rows_lhs0 (j : S1024x256.Idx) (q : dot_S1024x768_S256x768_S1024x256_1_1_0_0_n_n.contr.Idx) :
    (dot_S1024x768_S256x768_S1024x256_1_1_0_0_n_n.lhsIdx j q 0).val = (j 0).val := by
  unfold DotDims.lhsIdx
  rw [dif_neg (show ¬(0 : Fin S1024x768.rank) ∈ dot_S1024x768_S256x768_S1024x256_1_1_0_0_n_n.lhsBatch by decide),
    dif_pos (show (0 : Fin S1024x768.rank) ∈ dot_S1024x768_S256x768_S1024x256_1_1_0_0_n_n.lhsNonContracting by decide)]
  rfl
theorem rows_rhs0 (j : S1024x256.Idx) (q : dot_S1024x768_S256x768_S1024x256_1_1_0_0_n_n.contr.Idx) :
    (dot_S1024x768_S256x768_S1024x256_1_1_0_0_n_n.rhsIdx j q 0).val = (j 1).val := by
  unfold DotDims.rhsIdx
  rw [dif_neg (show ¬(0 : Fin S256x768.rank) ∈ dot_S1024x768_S256x768_S1024x256_1_1_0_0_n_n.rhsBatch by decide),
    dif_pos (show (0 : Fin S256x768.rank) ∈ dot_S1024x768_S256x768_S1024x256_1_1_0_0_n_n.rhsNonContracting by decide)]
  rfl

/-- Scores: rows of the left operand against rows of the right one, summed over the 768 features. -/
theorem matmul_rows (lhs : FVec Ideal S1024x768 .bf16) (rhs : FVec Ideal S256x768 .bf16) (r : Fin 1024) (c : Fin 256) :
    matmul dot_S1024x768_S256x768_S1024x256_1_1_0_0_n_n none lhs rhs (constant (F := Ideal) S1024x256 .f32 0x00000000#32)
        (ix2 r c)
      = ∑ k : Fin 768, lhs (ix2 r k) * rhs (ix2 c k) := by
  simp only [matmul]
  rw [Ideal.matmul_constant_zero_apply,
    ← Equiv.sum_comp (contrEquiv1 dot_S1024x768_S256x768_S1024x256_1_1_0_0_n_n 768 rfl rfl).symm]
  refine Finset.sum_congr rfl fun k _ => ?_
  have hk := contrEquiv1_symm_val dot_S1024x768_S256x768_S1024x256_1_1_0_0_n_n 768 rfl rfl k
  have el : dot_S1024x768_S256x768_S1024x256_1_1_0_0_n_n.lhsIdx (ix2 r c)
      ((contrEquiv1 dot_S1024x768_S256x768_S1024x256_1_1_0_0_n_n 768 rfl rfl).symm k) = ix2 r k :=
    funext fun a => Fin.ext (by
      match a with
      | ⟨0, _⟩ => exact rows_lhs0 _ _
      | ⟨1, _⟩ => exact (dot_S1024x768_S256x768_S1024x256_1_1_0_0_n_n.lhsIdx_val_of_single rfl _ _).trans hk)
  have er : dot_S1024x768_S256x768_S1024x256_1_1_0_0_n_n.rhsIdx (ix2 r c)
      ((contrEquiv1 dot_S1024x768_S256x768_S1024x256_1_1_0_0_n_n 768 rfl rfl).symm k) = ix2 c k :=
    funext fun a => Fin.ext (by
      match a with
      | ⟨0, _⟩ => exact rows_rhs0 _ _
      | ⟨1, _⟩ => exact (dot_S1024x768_S256x768_S1024x256_1_1_0_0_n_n.rhsIdx_val_of_single rfl _ _).trans hk)
  rw [el, er]

theorem cols_lhs0 (j : S1024x768.Idx) (q : dot_S1024x256_S256x768_S1024x768_1_0_0_1_n_n.contr.Idx) :
    (dot_S1024x256_S256x768_S1024x768_1_0_0_1_n_n.lhsIdx j q 0).val = (j 0).val := by
  unfold DotDims.lhsIdx
  rw [dif_neg (show ¬(0 : Fin S1024x256.rank) ∈ dot_S1024x256_S256x768_S1024x768_1_0_0_1_n_n.lhsBatch by decide),
    dif_pos (show (0 : Fin S1024x256.rank) ∈ dot_S1024x256_S256x768_S1024x768_1_0_0_1_n_n.lhsNonContracting by decide)]
  rfl
theorem cols_rhs1 (j : S1024x768.Idx) (q : dot_S1024x256_S256x768_S1024x768_1_0_0_1_n_n.contr.Idx) :
    (dot_S1024x256_S256x768_S1024x768_1_0_0_1_n_n.rhsIdx j q 1).val = (j 1).val := by
  unfold DotDims.rhsIdx
  rw [dif_neg (show ¬(1 : Fin S256x768.rank) ∈ dot_S1024x256_S256x768_S1024x768_1_0_0_1_n_n.rhsBatch by decide),
    dif_pos (show (1 : Fin S256x768.rank) ∈ dot_S1024x256_S256x768_S1024x768_1_0_0_1_n_n.rhsNonContracting by decide)]
  rfl

/-- Weighted values: a row of weights against a column of the values, summed over the tile's 256 keys. -/
theorem matmul_cols (lhs : FVec Ideal S1024x256 .bf16) (rhs : FVec Ideal S256x768 .bf16) (r : Fin 1024) (d : Fin 768) :
    matmul dot_S1024x256_S256x768_S1024x768_1_0_0_1_n_n none lhs rhs (constant (F := Ideal) S1024x768 .f32 0x00000000#32)
        (ix2 r d)
      = ∑ c : Fin 256, lhs (ix2 r c) * rhs (ix2 c d) := by
  simp only [matmul]
  rw [Ideal.matmul_constant_zero_apply,
    ← Equiv.sum_comp (contrEquiv1 dot_S1024x256_S256x768_S1024x768_1_0_0_1_n_n 256 rfl rfl).symm]
  refine Finset.sum_congr rfl fun k _ => ?_
  have hk := contrEquiv1_symm_val dot_S1024x256_S256x768_S1024x768_1_0_0_1_n_n 256 rfl rfl k
  have el : dot_S1024x256_S256x768_S1024x768_1_0_0_1_n_n.lhsIdx (ix2 r d)
      ((contrEquiv1 dot_S1024x256_S256x768_S1024x768_1_0_0_1_n_n 256 rfl rfl).symm k) = ix2 r k :=
    funext fun a => Fin.ext (by
      match a with
      | ⟨0, _⟩ => exact cols_lhs0 _ _
      | ⟨1, _⟩ => exact (dot_S1024x256_S256x768_S1024x768_1_0_0_1_n_n.lhsIdx_val_of_single rfl _ _).trans hk)
  have er : dot_S1024x256_S256x768_S1024x768_1_0_0_1_n_n.rhsIdx (ix2 r d)
      ((contrEquiv1 dot_S1024x256_S256x768_S1024x768_1_0_0_1_n_n 256 rfl rfl).symm k) = ix2 k d :=
    funext fun a => Fin.ext (by
      match a with
      | ⟨0, _⟩ => exact (dot_S1024x256_S256x768_S1024x768_1_0_0_1_n_n.rhsIdx_val_of_single rfl _ _).trans hk
      | ⟨1, _⟩ => exact cols_rhs1 _ _)
  rw [el, er]

/-! ## One key tile -/

/-- An integer comparison of vectors at an index. -/
theorem cmpi_apply {s : Shape} {w : Nat} (p : CmpIPredicate) (x y : IVec s w) (i : s.Idx) :
    cmpi p x y i = IntOp.cmpi p (x i) (y i) := rfl

/-- An integer sum of vectors at an index. -/
theorem addi_apply {s : Shape} {w : Nat} (x y : IVec s w) (i : s.Idx) : addi x y i = IntOp.addi (x i) (y i) := rfl

/-- The tile's scores: the query row r against the tile's key c, both normalised, with 0 where the key is the query
    itself (the query block's row 1024 * i1 + r is the key tile's row 256 * i2 + c). -/
def tileScore (i : grid0.Coords) (xk : Vec Ideal S1x256x768 .f32) (s : Carry Ideal) (r : Fin 1024) (c : Fin 256) : EReal :=
  if 1024 * (i 1).val + r.val = 256 * (i 2).val + c.val then 0
  else ∑ d : Fin 768, s.q (ix2 r d) * Ideal.div (xk (ix3 0 c d))
    (max (Ideal.sqrt (∑ d' : Fin 768, xk (ix3 0 c d') * xk (ix3 0 c d'))) eps)

/-- The two row numbers as 32-bit words are equal exactly when they are equal: nothing wraps. -/
theorem diag_word (i : grid0.Coords) (r : Fin 1024) (c : Fin 256) :
    (IntOp.addi (Scalar.muli (BitVec.ofNat 32 (i 1).val) 1024#32) (BitVec.ofNat 32 r.val)
      = IntOp.addi (Scalar.muli (BitVec.ofNat 32 (i 2).val) 256#32) (BitVec.ofNat 32 c.val))
      ↔ 1024 * (i 1).val + r.val = 256 * (i 2).val + c.val := by
  have h1 : (i 1).val < 2 := (i 1).isLt
  have h2 : (i 2).val < 8 := (i 2).isLt
  have hr := r.isLt
  have hc := c.isLt
  unfold Scalar.muli IntOp.muli IntOp.addi
  rw [← BitVec.toNat_inj]
  simp only [BitVec.toNat_add, BitVec.toNat_mul, BitVec.toNat_ofNat]
  omega

/-- An equality test of words is 1 exactly when they are equal. -/
theorem cmpi_eq_ite {w : Nat} (x y : BitVec w) : IntOp.cmpi .eq x y = if x = y then 1#1 else 0#1 := by
  unfold IntOp.cmpi
  by_cases h : x = y
  · subst h; simp
  · rw [if_neg h, beq_eq_false_iff_ne.mpr h]; rfl

/-- The body's diagonal mask at (r, c). -/
theorem diag_bit (i : grid0.Coords) (r : Fin 1024) (c : Fin 256) :
    cmpi .eq (addi (broadcast S1024x256 (Scalar.muli (BitVec.ofNat 32 (i 1).val) 1024#32))
        (iota .tc S1024x256 32 [0] iota_S1024x256_d0_w32))
      (addi (broadcast S1024x256 (Scalar.muli (BitVec.ofNat 32 (i 2).val) 256#32))
        (iota .tc S1024x256 32 [1] iota_S1024x256_d1_w32)) (ix2 r c)
      = if 1024 * (i 1).val + r.val = 256 * (i 2).val + c.val then 1#1 else 0#1 := by
  rw [cmpi_apply, addi_apply, addi_apply, broadcast_apply, broadcast_apply, iota_single_apply, iota_single_apply]
  show IntOp.cmpi .eq (IntOp.addi (Scalar.muli (BitVec.ofNat 32 (i 1).val) 1024#32) (BitVec.ofNat 32 r.val))
      (IntOp.addi (Scalar.muli (BitVec.ofNat 32 (i 2).val) 256#32) (BitVec.ofNat 32 c.val)) = _
  rw [cmpi_eq_ite]
  exact if_congr (diag_word i r c) rfl rfl

/-- The masked score tile at (r, c). -/
theorem pay9_apply (i : grid0.Coords) (xk : Vec Ideal S1x256x768 .f32) (s : Carry Ideal) (r : Fin 1024) (c : Fin 256) :
    k0_pay9 i xk s.q (ix2 r c) = tileScore i xk s r c := by
  unfold k0_pay9 tileScore
  simp only [select_apply]
  rw [diag_bit]
  by_cases h : 1024 * (i 1).val + r.val = 256 * (i 2).val + c.val
  · rw [if_pos h, if_pos h, select_one, broadcast_apply]
    exact Ideal.ofBits_zero_f32
  · rw [if_neg h, if_neg h, select_zero]
    refine (matmul_rows _ _ r c).trans (Finset.sum_congr rfl fun k _ => ?_)
    simp only [truncf_apply, divf_apply, broadcastTo_a1_ab_apply, maximumf_apply, sqrt_apply, broadcast_apply,
      shapeCast_a_a1_apply, shapeCast_1ab_ab_apply, Ideal.ofBits_def]
    refine congrArg (fun t => s.q (ix2 r k) * Ideal.div (xk (ix3 0 c k)) (max (Ideal.sqrt t) eps)) ?_
    refine (sum_axis1 _ _ _ _ _ c).trans (Finset.sum_congr rfl fun k' _ => ?_)
    simp only [mulf_apply, shapeCast_1ab_ab_apply]

/-- The new running maximum of row r. -/
theorem pay10_apply (i : grid0.Coords) (xk : Vec Ideal S1x256x768 .f32) (s : Carry Ideal) (r : Fin 1024) :
    k0_pay10 i xk s.q s.m (ix2 r 0)
      = max (s.m (ix2 r 0)) (Finset.univ.fold max negInf (tileScore i xk s r)) := by
  unfold k0_pay10
  simp only [maximumf_apply, shapeCast_a_a1_apply]
  refine congrArg (fun t => max (s.m (ix2 r 0)) t) ?_
  refine (max_axis1 _ _ _ _ _ r).trans ?_
  exact congrArg (fun f => (Finset.univ : Finset (Fin 256)).fold max negInf f)
    (funext fun c => pay9_apply i xk s r c)

/-- The rescaling factor of row r. -/
theorem pay11_apply (i : grid0.Coords) (xk : Vec Ideal S1x256x768 .f32) (s : Carry Ideal) (r : Fin 1024) :
    k0_pay11 i xk s.q s.m s.m (ix2 r 0)
      = Ideal.exp (s.m (ix2 r 0) - max (s.m (ix2 r 0)) (Finset.univ.fold max negInf (tileScore i xk s r))) := by
  unfold k0_pay11
  simp only [exp_apply, subf_apply]
  rw [pay10_apply]

/-- The tile's exponentials at (r, c). -/
theorem pay12_apply (i : grid0.Coords) (xk : Vec Ideal S1x256x768 .f32) (s : Carry Ideal) (r : Fin 1024) (c : Fin 256) :
    k0_pay12 i xk s.q s.m (ix2 r c)
      = Ideal.exp (tileScore i xk s r c
          - max (s.m (ix2 r 0)) (Finset.univ.fold max negInf (tileScore i xk s r))) := by
  unfold k0_pay12
  simp only [exp_apply, subf_apply, broadcastTo_a1_ab_apply]
  rw [pay9_apply, pay10_apply]

/-- The advanced running sum of row r, from any rescaling column, exponential tile and old sum. -/
theorem pay1_apply (v33 : FVec Ideal S1024x1 .f32) (v36 : FVec Ideal S1024x256 .f32) (v37 : Vec Ideal S1024x1 .f32)
    (r : Fin 1024) :
    k0_pay1 v33 v36 v37 (ix2 r 0) = v33 (ix2 r 0) * v37 (ix2 r 0) + ∑ c : Fin 256, v36 (ix2 r c) := by
  unfold k0_pay1
  simp only [shapeCast_self, addf_apply, mulf_apply, shapeCast_a_a1_apply]
  exact congrArg (fun t => v33 (ix2 r 0) * v37 (ix2 r 0) + t) (sum_axis1 _ _ _ _ _ r)

/-- The advanced running weighted sum at (r, d), from any rescaling column, exponential tile, value tile and old
    weighted sum. -/
theorem pay2_apply (v33 : FVec Ideal S1024x1 .f32) (v36 : FVec Ideal S1024x256 .f32) (v45 : Vec Ideal S1x256x768 .f32)
    (v48 : Vec Ideal S1024x768 .f32) (r : Fin 1024) (d : Fin 768) :
    k0_pay2 v33 v36 v45 v48 (ix2 r d)
      = v33 (ix2 r 0) * v48 (ix2 r d) + ∑ c : Fin 256, v36 (ix2 r c) * v45 (ix3 0 c d) := by
  unfold k0_pay2
  simp only [shapeCast_self, addf_apply, mulf_apply, broadcastTo_a1_ab_apply]
  refine congrArg (fun t => v33 (ix2 r 0) * v48 (ix2 r d) + t) ?_
  refine (matmul_cols _ _ r d).trans (Finset.sum_congr rfl fun c _ => ?_)
  simp only [truncf_apply, shapeCast_1ab_ab_apply]

/-- The running maximum after the tile: the old one or the tile's largest score. -/
theorem step_m (i : grid0.Coords) (xk xv : Vec Ideal S1x256x768 .f32) (s : Carry Ideal) (r : Fin 1024) :
    (step i xk xv s).m (ix2 r 0)
      = max (s.m (ix2 r 0)) (Finset.univ.fold max negInf (tileScore i xk s r)) := by
  show k0_pay3 (k0_pay10 i xk s.q s.m) (ix2 r 0) = _
  unfold k0_pay3
  rw [shapeCast_self]
  exact pay10_apply i xk s r

/-- The running sum after the tile: the old one rescaled, plus the tile's exponentials. -/
theorem step_l (i : grid0.Coords) (xk xv : Vec Ideal S1x256x768 .f32) (s : Carry Ideal) (r : Fin 1024) :
    (step i xk xv s).l (ix2 r 0)
      = Ideal.exp (s.m (ix2 r 0) - max (s.m (ix2 r 0)) (Finset.univ.fold max negInf (tileScore i xk s r)))
          * s.l (ix2 r 0)
        + ∑ c : Fin 256, Ideal.exp (tileScore i xk s r c
            - max (s.m (ix2 r 0)) (Finset.univ.fold max negInf (tileScore i xk s r))) := by
  show k0_pay1 (k0_pay11 i xk s.q s.m s.m) (k0_pay12 i xk s.q s.m) s.l (ix2 r 0) = _
  rw [pay1_apply, pay11_apply]
  simp only [pay12_apply]

/-- The running weighted sum after the tile: the old one rescaled, plus the tile's exponentials times its values. -/
theorem step_a (i : grid0.Coords) (xk xv : Vec Ideal S1x256x768 .f32) (s : Carry Ideal) (r : Fin 1024) (d : Fin 768) :
    (step i xk xv s).a (ix2 r d)
      = Ideal.exp (s.m (ix2 r 0) - max (s.m (ix2 r 0)) (Finset.univ.fold max negInf (tileScore i xk s r)))
          * s.a (ix2 r d)
        + ∑ c : Fin 256, Ideal.exp (tileScore i xk s r c
            - max (s.m (ix2 r 0)) (Finset.univ.fold max negInf (tileScore i xk s r))) * xv (ix3 0 c d) := by
  show k0_pay2 (k0_pay11 i xk s.q s.m s.m) (k0_pay12 i xk s.q s.m) xv s.a (ix2 r d) = _
  rw [pay2_apply, pay11_apply]
  simp only [pay12_apply]

/-- The normalised query rows are carried unchanged. -/
theorem step_q (i : grid0.Coords) (xk xv : Vec Ideal S1x256x768 .f32) (s : Carry Ideal) : (step i xk xv s).q = s.q := rfl

end Cert.KernelIdeal.Hand

end
-- ==== Proof.Tiles.lean ====
/-
  The carried buffers after each key tile are the specification's running triple.

  Fix a batch b, a query block qi and a row r of it; n = 1024·qi + r is the row of the array. After the key tile k of
  that query block the running-maximum buffer holds, at row r, the running maximum of row n's scores over the keys
  0 … 256·(k+1) - 1; the running-sum buffer the running sum of exponentials; the weighted-sum buffer, at (r, d), the
  running weighted sum of feature d of the value rows; and the normalised-query buffer row n of the normalised
  features. Tile 0 starts from the reset, tile k + 1 from what tile k left: an induction on k, each step one
  application of the body's arithmetic read at an index.
-/
import proofs.«129787_j68813966016741_2_alg».proof.Proof.Gen.KernelIdeal.Launch
import proofs.«129787_j68813966016741_2_alg».proof.Proof.Gen.KernelIdeal.Skeleton
import proofs.«129787_j68813966016741_2_alg».proof.Proof.Gen.KernelIdeal.Points
import Idealize.ShloMosaic.Lib.Pipeline.FrameBody
import Idealize.ShloMosaic.Lib.Pipeline.FrameSuffix
import Idealize.ShloMosaic.Lib.Tactic
import Idealize.ShloMosaic.Lib.Pipeline.Value
import Idealize.ShloMosaic.Lib.ValueIdx
import proofs.«129787_j68813966016741_2_alg».proof.Proof.Blocks
import proofs.«129787_j68813966016741_2_alg».proof.Proof.Payload
import proofs.«129787_j68813966016741_2_alg».proof.Proof.Spec

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.SimAttn

variable (m : (ℓ : Loc nD τ sig) → Buf (Elt Ideal) ℓ)

/-- The value array and the feature array as the region finds them. -/
abbrev finA (c : Dev nD) : Arr := V m c main_arg0
abbrev midA (c : Dev nD) : Arr := V m c main_arg1

/-- The grid point of batch 'b', query block 'qi', key tile 'k', -/
def ptOf (b : Fin 8) (qi : Fin 2) (k : Fin 8) : Fin cfg0.N := ⟨16 * b.val + 8 * qi.val + k.val, by rw [N128]; omega⟩
/-- and row 'r' of query block 'qi' as a row of the array. -/
def rowOf (qi : Fin 2) (r : Fin 1024) : Fin 2048 := ⟨1024 * qi.val + r.val, by omega⟩

theorem bOf_ptOf (b : Fin 8) (qi : Fin 2) (k : Fin 8) : bOf (ptOf b qi k) = b := Fin.ext (by show (16 * b.val + 8 * qi.val + k.val) / 16 = b.val; omega)
theorem qRow_ptOf (b : Fin 8) (qi : Fin 2) (k : Fin 8) (r : Fin 1024) : qRow (ptOf b qi k) r = rowOf qi r :=
  Fin.ext (by show 1024 * (((16 * b.val + 8 * qi.val + k.val) / 8) % 2) + r.val = 1024 * qi.val + r.val; omega)
theorem kRow_ptOf (b : Fin 8) (qi : Fin 2) (k : Fin 8) (cc : Fin 256) : kRow (ptOf b qi k) cc = key k.val cc :=
  Fin.ext (by show 256 * ((16 * b.val + 8 * qi.val + k.val) % 8) + cc.val = (256 * k.val + cc.val) % 2048; omega)
theorem coords1_ptOf (b : Fin 8) (qi : Fin 2) (k : Fin 8) : (grid0.coords (ptOf b qi k) (1 : Fin 3)).val = qi.val := by
  have h := (idx_facts (ptOf b qi k)).2.2.2.2.2.2.2.2.2.2.2.2.2.2.2.1
  rw [h]; show ((16 * b.val + 8 * qi.val + k.val) / 8) % 2 = qi.val; omega
theorem coords2_ptOf (b : Fin 8) (qi : Fin 2) (k : Fin 8) : (grid0.coords (ptOf b qi k) (2 : Fin 3)).val = k.val := by
  have h := (idx_facts (ptOf b qi k)).2.2.2.2.2.2.2.2.2.2.2.2.2.2.2.2
  rw [h]; show (16 * b.val + 8 * qi.val + k.val) % 8 = k.val; omega

theorem carryAfter_congr (c : Dev nD) {n n' : ℕ} (e : n = n') (h : n < cfg0.N) (h' : n' < cfg0.N) :
    carryAfter m c n h = carryAfter m c n' h' := by subst e; rfl

/-- Row n's scores, tile by tile, and feature d of the value rows, tile by tile. -/
def scores (c : Dev nD) (b : Fin 8) (n : Fin 2048) : ℕ → Fin 256 → EReal := fun k cc => score (midA m c) b n (key k cc)
def values (c : Dev nD) (b : Fin 8) (d : Fin 768) : ℕ → Fin 256 → EReal := fun k cc => finA m c (ix3 b (key k cc) d)

/-- A tile's scores as the body computes them are the specification's, once the normalised-query buffer holds the
    normalised row: the key tile's rows are normalised the same way, and the diagonal's position is n = j. -/
theorem tileScore_eq (c : Dev nD) (b : Fin 8) (qi : Fin 2) (k : Fin 8) (st : Carry Ideal) (r : Fin 1024)
    (hq : ∀ d, st.q (ix2 r d) = unit (midA m c) b (rowOf qi r) d) (cc : Fin 256) :
    tileScore (grid0.coords (ptOf b qi k)) (iblk m c 1 (ptOf b qi k)) st r cc = scores m c b (rowOf qi r) k.val cc := by
  unfold tileScore scores score cosine
  rw [coords1_ptOf, coords2_ptOf]
  have hk : key k.val cc = (⟨256 * k.val + cc.val, by omega⟩ : Fin 2048) := Fin.ext (by show (256 * k.val + cc.val) % 2048 = 256 * k.val + cc.val; omega)
  have hcond : (1024 * qi.val + r.val = 256 * k.val + cc.val) ↔ rowOf qi r = key k.val cc := by
    rw [hk]; exact ⟨fun h => Fin.ext h, fun h => congrArg Fin.val h⟩
  simp only [hcond]
  refine if_congr Iff.rfl rfl (Finset.sum_congr rfl fun d _ => ?_)
  rw [hq d]
  congr 1
  unfold unit len sumSq
  simp only [iblk1_apply, bOf_ptOf, kRow_ptOf]

/-- THE INVARIANT, by induction on the key tile. -/
theorem carry_eq (c : Dev nD) (b : Fin 8) (qi : Fin 2) (r : Fin 1024) :
    ∀ (k : ℕ) (hk : k < 8),
      (carryAfter m c (ptOf b qi ⟨k, hk⟩).val (ptOf b qi ⟨k, hk⟩).isLt).m (ix2 r 0) = runM (scores m c b (rowOf qi r)) (k + 1)
      ∧ (carryAfter m c (ptOf b qi ⟨k, hk⟩).val (ptOf b qi ⟨k, hk⟩).isLt).l (ix2 r 0) = runL (scores m c b (rowOf qi r)) (k + 1)
      ∧ (∀ d, (carryAfter m c (ptOf b qi ⟨k, hk⟩).val (ptOf b qi ⟨k, hk⟩).isLt).a (ix2 r d)
            = runA (scores m c b (rowOf qi r)) (values m c b d) (k + 1))
      ∧ (∀ d, (carryAfter m c (ptOf b qi ⟨k, hk⟩).val (ptOf b qi ⟨k, hk⟩).isLt).q (ix2 r d) = unit (midA m c) b (rowOf qi r) d) := by
  intro k
  induction k with
  | zero =>
    intro hk
    have h0 : (ptOf b qi ⟨0, hk⟩).val % 8 = 0 := by show (16 * b.val + 8 * qi.val + 0) % 8 = 0; omega
    rw [carryAfter_first m c _ h0]
    have hq : ∀ d, (reset (F := Ideal) (iblk m c 0 (ptOf b qi ⟨0, hk⟩))).q (ix2 r d) = unit (midA m c) b (rowOf qi r) d := fun d => by
      rw [reset_q]; unfold unit len sumSq
      simp only [iblk0_apply, bOf_ptOf, qRow_ptOf]
    have hs := fun cc => tileScore_eq m c b qi ⟨0, hk⟩ _ r hq cc
    refine ⟨?_, ?_, fun d => ?_, fun d => ?_⟩
    · rw [step_m, reset_m]; simp only [hs]; rfl
    · rw [step_l, reset_m, reset_l]; simp only [hs]; rfl
    · rw [step_a, reset_m, reset_a]; simp only [hs, iblk2_apply, bOf_ptOf, kRow_ptOf]; rfl
    · rw [step_q]; exact hq d
  | succ k ih =>
    intro hk
    obtain ⟨im, il, ia, iq⟩ := ih (by omega)
    have h0 : ¬(ptOf b qi ⟨k + 1, hk⟩).val % 8 = 0 := by show ¬(16 * b.val + 8 * qi.val + (k + 1)) % 8 = 0; omega
    rw [carryAfter_later m c _ h0,
      carryAfter_congr m c (show (ptOf b qi ⟨k + 1, hk⟩).val - 1 = (ptOf b qi ⟨k, by omega⟩).val from by
        show 16 * b.val + 8 * qi.val + (k + 1) - 1 = 16 * b.val + 8 * qi.val + k; omega) _ (ptOf b qi ⟨k, by omega⟩).isLt]
    have hs := fun cc => tileScore_eq m c b qi ⟨k + 1, hk⟩ _ r iq cc
    refine ⟨?_, ?_, fun d => ?_, fun d => ?_⟩
    · rw [step_m, im]; simp only [hs]; rfl
    · rw [step_l, im, il]; simp only [hs]; rfl
    · rw [step_a, im, ia d]; simp only [hs, iblk2_apply, bOf_ptOf, kRow_ptOf]; rfl
    · rw [step_q]; exact iq d

/-- What the last key tile writes into the output block is the specification's tile-by-tile formula. -/
theorem after4_apply (c : Dev nD) (t : Fin cfg0.N) (h7 : t.val % 8 = 7) (r : Fin 1024) (d : Fin 768) :
    (dats m 0 c).after 4 t (ix3 0 r d) = kerOut (finA m c) (midA m c) (bOf t) (qRow t r) d := by
  have hN : t.val < 128 := lt_of_lt_of_eq t.isLt N128
  let b : Fin 8 := bOf t
  let qi : Fin 2 := ⟨qOf t, by unfold qOf; omega⟩
  have ht : t = ptOf b qi ⟨7, by omega⟩ := Fin.ext (by
    show t.val = 16 * (t.val / 16) + 8 * ((t.val / 8) % 2) + 7; omega)
  obtain ⟨hm, hl, ha, -⟩ := carry_eq m c b qi r 7 (by omega)
  have hrow : qRow t r = rowOf qi r := Fin.ext rfl
  rw [after4, emit_apply, hrow]
  rw [ht]
  rw [hm, hl, ha d, iblk3_apply, bOf_ptOf, qRow_ptOf]
  rfl

end Cert.KernelIdeal.Hand

end
-- ==== Proof.Cover.lean ====
/-
  From the result window's blocks to the result array.

  Grid point t = 16·b + 8·qi + ki. The result window is written back exactly at the points with ki = 7; its block
  there is rows 1024·qi … 1024·qi + 1023 of batch b, all 768 features. The sixteen blocks (b, qi) tile the array: the
  entry (b, n, d) lies in the block of the point 16·b + 8·(n / 1024) + 7, at row n mod 1024. So if what every such
  point leaves in the window is one whole-array function read on the point's block, the array ends holding that
  function.
-/
import proofs.«129787_j68813966016741_2_alg».proof.Proof.Gen.KernelIdeal.Launch
import proofs.«129787_j68813966016741_2_alg».proof.Proof.Gen.KernelIdeal.Skeleton
import proofs.«129787_j68813966016741_2_alg».proof.Proof.Gen.KernelIdeal.Points
import Idealize.ShloMosaic.Lib.Pipeline.FrameBody
import Idealize.ShloMosaic.Lib.Pipeline.FrameSuffix
import Idealize.ShloMosaic.Lib.Tactic
import Idealize.ShloMosaic.Lib.Pipeline.Value
import Idealize.ShloMosaic.Lib.ValueIdx
import proofs.«129787_j68813966016741_2_alg».proof.Proof.Blocks

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

open Idealize.ShloMosaic.ValueIdx

/-- Where the result window's block sits: its entry (0, r, d) at point t is the array's entry (b, 1024·qi + r, d). -/
theorem emb4 (t : Fin cfg0.N) (r : Fin 1024) (d : Fin 768) :
    ((cfg0.win 4).blk t).view.emb (ix3 0 r d) = ix3 (bOf t) (qRow t r) d := by
  obtain ⟨-, -, -, -, -, -, -, -, -, -, -, -, e0, e1, e2, -⟩ := idx_facts t
  funext a; apply Fin.ext
  match a with
  | ⟨0, _⟩ => show win0_4.index t (0 : Fin 3) * 1 + 1 * 0 = t.val / 16; omega
  | ⟨1, _⟩ => show win0_4.index t (1 : Fin 3) * 1024 + 1 * r.val = 1024 * ((t.val / 8) % 2) + r.val; omega
  | ⟨2, _⟩ => show win0_4.index t (2 : Fin 3) * 768 + 1 * d.val = d.val; omega

/-- What a point with ki = 7 writes back is the point's block of 'G', when the window holds 'G' there entry by entry. -/
theorem flushed4_eq (c : Dev nD) (G : S8x2048x768.Idx → Elt F .f32)
    (hG : ∀ t : Fin cfg0.N, t.val % 8 = 7 → ∀ (r : Fin 1024) (d : Fin 768),
      (dats m 0 c).after 4 t (ix3 0 r d) = G (ix3 (bOf t) (qRow t r) d))
    (t : Fin cfg0.N) (hf : (cfg0.win 4).flush t = true) :
    (dats m 0 c).flushed 4 t = ((cfg0.win 4).blk t).view.read (Elt F) G := by
  have h7 : t.val % 8 = 7 := (flush0_4 t).1 hf
  funext j
  obtain ⟨z, r, d, rfl⟩ : ∃ (z : Fin 1) (r : Fin 1024) (d : Fin 768), j = ix3 z r d := ⟨j 0, j 1, j 2, eq_ix3 j⟩
  obtain rfl : z = 0 := Fin.ext (by omega)
  rw [View.read_apply, emb4]
  exact hG t h7 r d

/-- An entry of the array is in point t's block exactly when each coordinate is in the block's range on its axis. -/
theorem mem_blk4 (t : Fin cfg0.N) (i : S8x2048x768.Idx) :
    i ∈ ((cfg0.win 4).blk t).view.set ↔ ∀ a : Fin 3, win0_4.index t a * S1x1024x768.size a ≤ (i a).val
      ∧ (i a).val < win0_4.index t a * S1x1024x768.size a + S1x1024x768.size a := by
  show i ∈ ((View.whole main_v0).slice (win0_4.rect t)).set ↔ _
  rw [View.set_slice_whole, Rect.mem_set_unit]
  exact Iff.rfl

/-- Every entry (b, n, d) of the array is in the block of the point 16·b + 8·(n / 1024) + 7, which is written back. -/
theorem cover4 (i : S8x2048x768.Idx) :
    ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 768 := (i 2).isLt
  obtain ⟨t, ht⟩ : ∃ t : Fin cfg0.N, t.val = 16 * (i 0).val + 8 * ((i 1).val / 1024) + 7 :=
    ⟨⟨16 * (i 0).val + 8 * ((i 1).val / 1024) + 7, by rw [N128]; omega⟩, rfl⟩
  obtain ⟨-, -, -, -, -, -, -, -, -, -, -, -, e0, e1, e2, -⟩ := idx_facts t
  refine ⟨t, (flush0_4 t).2 (by omega), ?_⟩
  rw [mem_blk4]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 1024 ≤ (i 1).val ∧ (i 1).val < win0_4.index t (1 : Fin 3) * 1024 + 1024
    omega
  | ⟨2, _⟩ =>
    show win0_4.index t (2 : Fin 3) * 768 ≤ (i 2).val ∧ (i 2).val < win0_4.index t (2 : Fin 3) * 768 + 768
    omega

/-- The result array after the run is 'G', when at every point with ki = 7 the result window holds 'G' read on the
    point's block. -/
theorem final_of_blocks (c : Dev nD) (G : S8x2048x768.Idx → Elt F .f32)
    (hG : ∀ t : Fin cfg0.N, t.val % 8 = 7 → ∀ (r : Fin 1024) (d : Fin 768),
      (dats m 0 c).after 4 t (ix3 0 r d) = G (ix3 (bOf t) (qRow t r) d)) :
    (dats m 0 c).arrAt 4 cfg0.N = G :=
  (dats m 0 c).arrAt_eq_of_cover 4 G (flushed4_eq m c G hG) cover4

end Cert.KernelIdeal.Hand

end
-- ==== Proof.Run.lean ====
/-
  The launch: the whole program's run from the body obligation.

  The program is the one region. Two of its five windows read the normalised-feature array and two read the value
  array, so each of those arrays' full share is dealt to its two windows as two halves; the fifth window owns the
  result array outright. The carried buffers are the core's only scoped buffers beside the staging buffers: the launch
  hands them over at arbitrary contents and takes them back the same way. The run ends with every window's array at
  what the write-backs made of it: the inputs unchanged, the result overwritten block by block.
-/
import proofs.«129787_j68813966016741_2_alg».proof.Proof.Gen.KernelIdeal.Launch
import proofs.«129787_j68813966016741_2_alg».proof.Proof.Gen.KernelIdeal.Skeleton
import proofs.«129787_j68813966016741_2_alg».proof.Proof.Gen.KernelIdeal.Points
import Idealize.ShloMosaic.Lib.Pipeline.FrameBody
import Idealize.ShloMosaic.Lib.Pipeline.FrameSuffix
import Idealize.ShloMosaic.Lib.Tactic
import Idealize.ShloMosaic.Lib.Pipeline.Value
import proofs.«129787_j68813966016741_2_alg».proof.Proof.Data

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program is the region alone, entered at the launch memory. -/
theorem hmain0 : Pipeline.HMain (Ix := Unit) (Name := ℕ) (U := UR sig nD τ) (Lvl := ℕ) cfgs 0 defs₀ Variants.none m (main (F := F)) (V m) :=
  Pipeline.hmain_region cfgs 0 defs₀ Variants.none m main (fun c => rfl)

/-- The buffers behind the windows' arrays: the two arguments and the result. -/
theorem arrRefs_eq : Finset.univ.image (Pipeline.arrRef spec0) = ({main_arg1, main_arg0, main_v0} : Finset (Ref sig .tc)) := by decide

/-- The windows' arrays as plain points-tos of the buffers behind them, each at its window's share. -/
theorem arrays_eq (c : Dev nD) :
    (dats m 0 c).arrays (fun w => (dats m 0 c).arrAt w 0)
      = bigSep Finset.univ fun w : Fin 5 =>
          ((((c.tc : Thread nD τ).loc (Pipeline.arrRef spec0 w)) ↦{(dats m 0 c).share w} V m c (Pipeline.arrRef spec0 w)) : sProp 𝕄) := by
  unfold Dat.arrays
  exact bigSep_congr fun w _ => by rw [(arr_whole0 w).set_eq_univ]; rfl

/-- An argument array's full share is its two windows' halves; the result array's is its one window's. -/
theorem hsplit (c : Dev nD) :
    (Pipeline.arrBufs (Ix := Unit) (Name := ℕ) (U := UR sig nD τ) (Lvl := ℕ) spec0 c (V m c) : sProp 𝕄)
      ⊢ (dats m 0 c).arrays (fun w => (dats m 0 c).arrAt w 0) := by
  rw [arrays_eq, bigSep_W0]
  unfold Pipeline.arrBufs
  rw [arrRefs_eq, BI.bigSep_insert (by decide), BI.bigSep_insert (by decide), BI.bigSep_singleton]
  have s0 : (dats m 0 c).share 0 = fullShare.left := rfl
  have s1 : (dats m 0 c).share 1 = fullShare.right := rfl
  have s2 : (dats m 0 c).share 2 = fullShare.left := rfl
  have s3 : (dats m 0 c).share 3 = fullShare.right := rfl
  have s4 : (dats m 0 c).share 4 = fullShare := rfl
  simp only [s0, s1, s2, s3, s4]
  show iprop((((c.tc : Thread nD τ).loc main_arg1) ↦{fullShare} V m c main_arg1)
      ∗ (((c.tc : Thread nD τ).loc main_arg0) ↦{fullShare} V m c main_arg0)
      ∗ (((c.tc : Thread nD τ).loc main_v0) ↦{fullShare} V m c main_v0)) ⊢ _
  iintro ⟨H1, H0, Hv⟩
  ihave H1' := (pointsTo_share (PosShare.mem_left_op_right fullShare)).1 $$ H1
  ihave H0' := (pointsTo_share (PosShare.mem_left_op_right fullShare)).1 $$ H0
  icases H1' with ⟨H1l, H1r⟩
  icases H0' with ⟨H0l, H0r⟩
  isplitl [H1l]; · iexact H1l
  isplitl [H1r]; · iexact H1r
  isplitl [H0l]; · iexact H0l
  isplitl [H0r]; · iexact H0r
  iexact Hv

set_option backward.isDefEq.respectTransparency.types false in
/-- From any memory with zero counters every weakly fair execution of the program terminates, nothing faulting,
    with every window's array at what the proof data's write-backs make of it. -/
theorem run_main :
    θ_run defs (onTc (τ := τ) (main (F := F))) (s₀ m ρ)
      (fun r => ∀ c : Dev nD, ∀ w : Fin 5,
        r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain0 m) (hsplit := hsplit m)
    (X := fun _ => BI.emp) (Y := fun _ => BI.emp)
    (Z := fun c => Pipeline.unscopedRest (Ix := Unit) (Name := ℕ) (U := UR sig nD τ) (Lvl := ℕ) spec0 c (V m c))
    (hX := fun c => by
      show _ ⊢ iprop(BI.emp ∗ Pipeline.unscopedRest spec0 c (V m c))
      iintro H
      isplitl []
      · iempintro
      iexact H)
    (hin := fun c => by
      show iprop(BI.emp ∗ rest c) ⊢ (dats m 0 c).Φ 0
      refine BIBase.Entails.trans ?_ (hin m c)
      iintro ⟨-, H⟩
      iexact H)
    (hout := fun c => by
      show (dats m 0 c).Φ (Fin.last cfg0.N) ⊢ iprop(BI.emp ∗ rest c)
      refine BIBase.Entails.trans (hout m c) ?_
      iintro H
      isplitl []
      · iempintro
      iexact H)
    (QY := fun _ _ => True)
    (hY := fun c s' => by
      iintro ⟨-, -, HSI⟩
      imodintro
      isplitl []
      · ipureintro; trivial
      iexact HSI)
    (hQ := fun s h c w => (h c).1 w)

/-- The frame: the program runs to the end without a fault and both argument arrays end as they began — each is an
    input window's array, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(h c 2).trans (((dats m 0 c).arrAt_in 2 rfl _).trans (A_eq m c 2)),
       (h c 0).trans (((dats m 0 c).arrAt_in 0 rfl _).trans (A_eq m c 0))⟩)
    (run_main m ρ)

end Cert.KernelIdeal.Hand

end
-- ==== Proof.Value.lean ====
/-
  The idealised kernel's run, with its result named: the tile-by-tile formula of the specification.

  The run leaves the result array at what the write-backs made of it; the sixteen blocks written at the last key
  tiles tile the array, and each holds the blend of the carried buffers after the eighth tile, which the induction
  over the tiles identifies with the specification's running softmax. The argument arrays end as they began.
-/
import proofs.«129787_j68813966016741_2_alg».proof.Proof.Gen.KernelIdeal.Launch
import proofs.«129787_j68813966016741_2_alg».proof.Proof.Gen.KernelIdeal.Skeleton
import proofs.«129787_j68813966016741_2_alg».proof.Proof.Gen.KernelIdeal.Points
import Idealize.ShloMosaic.Lib.Pipeline.FrameBody
import Idealize.ShloMosaic.Lib.Pipeline.FrameSuffix
import Idealize.ShloMosaic.Lib.Tactic
import Idealize.ShloMosaic.Lib.Pipeline.Value
import Idealize.ShloMosaic.Lib.ValueIdx
import proofs.«129787_j68813966016741_2_alg».proof.Proof.Tiles
import proofs.«129787_j68813966016741_2_alg».proof.Proof.Cover
import proofs.«129787_j68813966016741_2_alg».proof.Proof.Run

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.SimAttn

variable (m : (ℓ : Loc nD τ sig) → Buf (Elt Ideal) ℓ) (ρ : Dev nD → PrngReg)

/-- The result array after the run. -/
def result (c : Dev nD) : S8x2048x768.Idx → Elt Ideal .f32 := fun i => kerOut (finA m c) (midA m c) (i 0) (i 1) (i 2)

theorem final (c : Dev nD) : (dats m 0 c).arrAt 4 cfg0.N = result m c :=
  final_of_blocks m c (result m c) (fun t h7 r d => after4_apply m c t h7 r d)

theorem value_run : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(h c 4).trans (final m c),
       (h c 2).trans (((dats m 0 c).arrAt_in 2 rfl _).trans (A_eq m c 2)),
       (h c 0).trans (((dats m 0 c).arrAt_in 0 rfl _).trans (A_eq m c 0))⟩)
    (run_main m ρ)

end Cert.KernelIdeal.Hand

end
-- ==== Proof.RefValue.lean ====
/-
  The reference's result read at an index: the whole-row formula 'refOut' of the specification.

  The reference computes, for every batch b, row n and feature d: the length of each row of the middle features (the
  square root of the sum of squares, floored at a small positive number); the rows divided by their lengths; all
  inner products of two normalised rows of one batch; these times 1 - [n = j], which removes the diagonal; the
  largest entry of each row of that table (the confidence); the table divided by the temperature 1, its row maxima
  again, the exponentials of the differences, their row sums, the quotients (the softmax weights); the weighted sums
  of the final features' rows; and the blend of that average with the row's own final features by the confidence.
  Below, each of these stages is read at explicit coordinates (b, n, d), (b, n, j) or (b, n) and identified with the
  quantity of the same name in the specification; the last theorem chains them.
-/
import proofs.«129787_j68813966016741_2_alg».proof.Proof.Gen.ReferenceIdeal.Read
import proofs.«129787_j68813966016741_2_alg».proof.Proof.Spec

noncomputable section

namespace Cert.SimAttn.Ref

open Cert.ReferenceIdeal Cert.ReferenceIdeal.Gen Cert.ReferenceIdeal.Read Idealize.ShloMosaic Idealize.ShloMosaic.ValueIdx
open Idealize.ShloMosaic.TcCoe Idealize.SL.Sem

/-! ## Indices

  A broadcast, a sum over an axis and a contraction each read their operand at an index computed from the result's
  index. At explicit coordinates the composed index is the coordinates re-arranged: the length of row (b, n) sits at
  (b, n, 0) and is the same for every feature d; the inner product at (b, n, j) pairs feature k of row n with feature
  k of row j; the diagonal factor at (b, n, j) is the entry (n, j) of one 2048 x 2048 table shared by the batches; a
  row's maximum and its sum of exponentials sit at (b, n) and are the same for every column j; the weighted average at
  (b, n, d) pairs weight (b, n, k) with the final feature (b, k, d). -/

/-- Feature 'k' of the row whose length is at (b, n, 0). -/
theorem idx_sumSq (b : Fin 8) (n : Fin 2048) (k : Fin 768) :
    idx_main_call0_v1 (idx_main_call0_v2 (ix3 b n (0 : Fin 1))) k = ix3 b n k := by
  funext a; match a with | ⟨0, _⟩ => rfl | ⟨1, _⟩ => rfl | ⟨2, _⟩ => rfl

/-- Every feature of row (b, n) is divided by the length at (b, n, 0). -/
theorem idx_len (b : Fin 8) (n : Fin 2048) (d : Fin 768) : idx_main_v3 (ix3 b n d) = ix3 b n (0 : Fin 1) := by
  funext a; match a with | ⟨0, _⟩ => rfl | ⟨1, _⟩ => rfl | ⟨2, _⟩ => rfl

/-- The inner product at (b, n, j): its left factor is feature 'k' of row n, -/
theorem idx_dotL (b : Fin 8) (n j : Fin 2048) (k : Fin 768) : lidx_main_v5 (ix3 b n j) k = ix3 b n k := by
  funext a; match a with | ⟨0, _⟩ => rfl | ⟨1, _⟩ => rfl | ⟨2, _⟩ => rfl

/-- its right factor feature 'k' of row j. -/
theorem idx_dotR (b : Fin 8) (n j : Fin 2048) (k : Fin 768) : ridx_main_v5 (ix3 b n j) k = ix3 b j k := by
  funext a; match a with | ⟨0, _⟩ => rfl | ⟨1, _⟩ => rfl | ⟨2, _⟩ => rfl

/-- The diagonal factor at (b, n, j) is entry (n, j) of the table shared by the batches. -/
theorem idx_mask (b : Fin 8) (n j : Fin 2048) : idx_main_v14 (idx_main_v15 (ix3 b n j)) = ix2 n j := by
  funext a; match a with | ⟨0, _⟩ => rfl | ⟨1, _⟩ => rfl

/-- The maximum subtracted at (b, n, j) is the one of row (b, n). -/
theorem idx_rowTop (b : Fin 8) (n j : Fin 2048) : idx_main_v23 (idx_main_v24 (ix3 b n j)) = ix2 b n := by
  funext a; match a with | ⟨0, _⟩ => rfl | ⟨1, _⟩ => rfl

/-- The sum of exponentials dividing at (b, n, j) is the one of row (b, n). -/
theorem idx_expSum (b : Fin 8) (n j : Fin 2048) : idx_main_v28 (idx_main_v29 (ix3 b n j)) = ix2 b n := by
  funext a; match a with | ⟨0, _⟩ => rfl | ⟨1, _⟩ => rfl

/-- Term 'k' of the sum of exponentials of row (b, n) is the exponential at (b, n, k). -/
theorem idx_expSumK (b : Fin 8) (n k : Fin 2048) : idx_main_v27 (ix2 b n) k = ix3 b n k := by
  funext a; match a with | ⟨0, _⟩ => rfl | ⟨1, _⟩ => rfl | ⟨2, _⟩ => rfl

/-- The weighted average at (b, n, d): term 'k' is the weight at (b, n, k) -/
theorem idx_avgL (b : Fin 8) (n : Fin 2048) (d : Fin 768) (k : Fin 2048) : lidx_main_v31 (ix3 b n d) k = ix3 b n k := by
  funext a; match a with | ⟨0, _⟩ => rfl | ⟨1, _⟩ => rfl | ⟨2, _⟩ => rfl

/-- times the final feature at (b, k, d). -/
theorem idx_avgR (b : Fin 8) (n : Fin 2048) (d : Fin 768) (k : Fin 2048) : ridx_main_v31 (ix3 b n d) k = ix3 b k d := by
  funext a; match a with | ⟨0, _⟩ => rfl | ⟨1, _⟩ => rfl | ⟨2, _⟩ => rfl

/-- The confidence multiplying the average at (b, n, d) is the one of row (b, n); -/
theorem idx_conf (b : Fin 8) (n : Fin 2048) (d : Fin 768) : idx_main_v32 (idx_main_v33 (ix3 b n d)) = ix2 b n := by
  funext a; match a with | ⟨0, _⟩ => rfl | ⟨1, _⟩ => rfl

/-- so is the one in the complementary factor. -/
theorem idx_conf' (b : Fin 8) (n : Fin 2048) (d : Fin 768) : idx_main_v32 (idx_main_v37 (ix3 b n d)) = ix2 b n := by
  funext a; match a with | ⟨0, _⟩ => rfl | ⟨1, _⟩ => rfl

/-! ## The normalised rows and their inner products -/

/-- The unfloored length of row (b, n): the square root of 0 plus the sum of the squares, the 0 dropped. -/
theorem v0_at (mid : Arr) (b : Fin 8) (n : Fin 2048) :
    val_main_v0 (F := Ideal) mid (ix3 b n (0 : Fin 1)) = Ideal.sqrt (sumSq mid b n) := by
  rw [val_main_v0_apply, val_main_call0_v2_apply, val_main_call0_v1_apply]
  simp only [val_main_call0_v0_apply, val_main_call0_cst_apply, idx_sumSq, Ideal.hostUnary_sqrt_def, Ideal.ofBits_def,
    Ideal.mulf_def, Ideal.ofBits_zero_f32, zero_add]
  rfl

/-- The normalised row: the feature over the larger of the length and the floor. -/
theorem v4_at (mid : Arr) (b : Fin 8) (n : Fin 2048) (d : Fin 768) :
    val_main_v4 (F := Ideal) mid (ix3 b n d) = unit mid b n d := by
  rw [val_main_v4_apply, val_main_v3_apply, idx_len, val_main_v2_apply, v0_at, val_main_v1_apply, val_main_cst_apply]
  rfl

/-- The inner product of the normalised rows n and j of batch b. -/
theorem v5_at (mid : Arr) (b : Fin 8) (n j : Fin 2048) :
    val_main_v5 (F := Ideal) mid (ix3 b n j) = cosine mid b n j := by
  rw [val_main_v5_apply]
  simp only [idx_dotL, idx_dotR, v4_at]
  rfl

/-! ## The diagonal

  The reference removes the diagonal by the factor 1 - [n = j], the bracket computed by comparing a row counter with
  a column counter as 32-bit words and reading the one-bit answer as a number. Both counters are below 2048, far below
  2^32, so their words are equal exactly when n = j. -/

/-- The bracket [n = j] as the reference computes it. -/
theorem diag_at (n j : Fin 2048) :
    FloatOps.uitofp (F := Ideal) .f32 (IntOp.cmpi .eq (IntOp.addi (BitVec.ofNat 32 n.val) 0#32) (BitVec.ofNat 32 j.val))
      = if n = j then (1 : EReal) else 0 := by
  have hn : n.val < 2048 := n.isLt
  have hj : j.val < 2048 := j.isLt
  show (((BitVec.ofBool (BitVec.ofNat 32 n.val + 0#32 == BitVec.ofNat 32 j.val)).toNat : ℝ) : EReal) = _
  by_cases h : n = j
  · subst h; simp
  · have e : (BitVec.ofNat 32 n.val + 0#32 == BitVec.ofNat 32 j.val) = false := by
      rw [BitVec.add_zero]
      simp only [beq_eq_false_iff_ne, ne_eq]
      intro e
      have e' := congrArg BitVec.toNat e
      simp only [BitVec.toNat_ofNat] at e'
      rw [Nat.mod_eq_of_lt (by omega), Nat.mod_eq_of_lt (by omega)] at e'
      exact h (Fin.ext e')
    rw [e, if_neg h]; simp

/-- The factor 1 - [n = j] at (b, n, j), the same in every batch. -/
theorem v15_at (b : Fin 8) (n j : Fin 2048) :
    val_main_v15 (F := Ideal) (ix3 b n j) = one - (if n = j then (1 : EReal) else 0) := by
  rw [val_main_v15_apply, val_main_v14_apply, idx_mask, val_main_v13_apply, val_main_v12_apply, val_main_cst_0_apply,
    val_main_v11_apply, val_main_v10_apply, val_main_v9_apply, val_main_v6_apply, val_main_v7_apply, val_main_v8_apply,
    val_main_c_apply]
  show FloatOps.subf (F := Ideal) (FloatOps.ofBits .f32 0x3F800000#32)
    (FloatOps.uitofp (F := Ideal) .f32 (IntOp.cmpi .eq (IntOp.addi (BitVec.ofNat 32 n.val) 0#32) (BitVec.ofNat 32 j.val))) = _
  rw [diag_at]
  rfl

/-- The score with the diagonal removed. -/
theorem v16_at (mid : Arr) (b : Fin 8) (n j : Fin 2048) :
    val_main_v16 (F := Ideal) mid (ix3 b n j) = maskedScore mid b n j := by
  rw [val_main_v16_apply, v5_at, v15_at]
  rfl

/-- The score over the temperature 1. -/
theorem v19_at (mid : Arr) (b : Fin 8) (n j : Fin 2048) :
    val_main_v19 (F := Ideal) mid (ix3 b n j) = Ideal.div (maskedScore mid b n j) one := by
  rw [val_main_v19_apply, v16_at, val_main_v18_apply, val_main_cst_2_apply]
  rfl

/-! ## The two row maxima

  A maximum over the last axis of an array of shape [8, 2048, 2048], started from -infinity, is at (b, n) the fold of
  'max' over the 2048 entries (b, n, ·): 'max' is commutative and associative, and the entries reduced into (b, n) are
  those whose first two coordinates are b and n. -/

/-- The reduced index (b, n) with 'k' put back on the last axis is (b, n, k). -/
theorem lift_at (h : S8x2048x2048.Reduces [2] S8x2048) (b : Fin 8) (n : Fin 2048) (k : Fin (S8x2048x2048.size 2)) :
    h.lift (ix2 b n) k = ix3 b n (⟨k.val, k.isLt⟩ : Fin 2048) := by
  funext c; apply Fin.ext
  fin_cases c <;> rfl

/-- The maximum of row (b, n) of any such array, from -infinity. -/
theorem rowMax_at (x : FVec Ideal S8x2048x2048 .f32) (b : Fin 8) (n : Fin 2048) :
    Host.reduce (FloatOps.maximumf (F := Ideal) (φ := .f32)) x (constant (F := Ideal) S_ .f32 0xFF800000#32)
        reducesTo_S8x2048x2048_S8x2048_d2 h_S_ (ix2 b n)
      = (Finset.univ : Finset (Fin 2048)).fold max negInf (fun j => x (ix3 b n j)) := by
  have h : S8x2048x2048.Reduces [2] S8x2048 := by decide
  rw [Host.reduce_eq_fold_single FloatOps.maximumf x _ reducesTo_S8x2048x2048_S8x2048_d2 h h_S_]
  have hf : (x ∘ h.lift (ix2 b n)) = fun k : Fin 2048 => x (ix3 b n k) := funext fun k => congrArg x (lift_at h b n k)
  exact congrArg (fun f => Finset.fold max negInf f (Finset.univ : Finset (Fin 2048))) hf

/-- The confidence of row (b, n): the largest of its scores. -/
theorem v17_at (mid : Arr) (b : Fin 8) (n : Fin 2048) :
    val_main_v17 (F := Ideal) mid (ix2 b n) = (Finset.univ : Finset (Fin 2048)).fold max negInf (maskedScore mid b n) := by
  unfold val_main_v17 val_main_cst_1
  refine (rowMax_at _ b n).trans ?_
  exact congrArg (fun f => Finset.fold max negInf f (Finset.univ : Finset (Fin 2048))) (funext fun j => v16_at mid b n j)

/-- The largest of the row's scores over the temperature. -/
theorem v20_at (mid : Arr) (b : Fin 8) (n : Fin 2048) :
    val_main_v20 (F := Ideal) mid (ix2 b n)
      = (Finset.univ : Finset (Fin 2048)).fold max negInf (fun j => Ideal.div (maskedScore mid b n j) one) := by
  unfold val_main_v20 val_main_cst_3
  refine (rowMax_at _ b n).trans ?_
  exact congrArg (fun f => Finset.fold max negInf f (Finset.univ : Finset (Fin 2048))) (funext fun j => v19_at mid b n j)

/-! ## The softmax of the row, the weighted average, the blend -/

/-- The row's scores divided by the temperature 1. -/
def scaled (mid : Arr) (b : Fin 8) (n j : Fin 2048) : EReal := Ideal.div (maskedScore mid b n j) one
/-- The largest of them, taken once more against -infinity as the reference does. -/
def rowTop (mid : Arr) (b : Fin 8) (n : Fin 2048) : EReal :=
  max negInf ((Finset.univ : Finset (Fin 2048)).fold max negInf (scaled mid b n))
/-- The exponentials of the differences. -/
def expo (mid : Arr) (b : Fin 8) (n j : Fin 2048) : EReal := Ideal.exp (scaled mid b n j - rowTop mid b n)
/-- Their sum, from 0. -/
def expSum (mid : Arr) (b : Fin 8) (n : Fin 2048) : EReal := 0 + ∑ j : Fin 2048, expo mid b n j

/-- The specification's whole-row formula with its intermediate quantities named. -/
theorem refOut_eq (fin mid : Arr) (b : Fin 8) (n : Fin 2048) (d : Fin 768) :
    refOut fin mid b n d
      = blend ((Finset.univ : Finset (Fin 2048)).fold max negInf (maskedScore mid b n))
          (∑ j : Fin 2048, Ideal.div (expo mid b n j) (expSum mid b n) * fin (ix3 b j d)) (fin (ix3 b n d)) := rfl

/-- The exponential of a scaled score less the row's maximum. -/
theorem v26_at (mid : Arr) (b : Fin 8) (n j : Fin 2048) :
    val_main_v26 (F := Ideal) mid (ix3 b n j) = expo mid b n j := by
  rw [val_main_v26_apply, val_main_v25_apply, v19_at, val_main_v24_apply, val_main_v23_apply, idx_rowTop,
    val_main_v22_apply, v20_at, val_main_v21_apply, val_main_cst_4_apply]
  rfl

/-- The row's sum of exponentials. -/
theorem v27_at (mid : Arr) (b : Fin 8) (n : Fin 2048) :
    val_main_v27 (F := Ideal) mid (ix2 b n) = expSum mid b n := by
  rw [val_main_v27_apply]
  simp only [val_main_cst_5_apply, idx_expSumK, v26_at, Ideal.ofBits_def, Ideal.ofBits_zero_f32]
  rfl

/-- The softmax weight of column j in row (b, n). -/
theorem v30_at (mid : Arr) (b : Fin 8) (n j : Fin 2048) :
    val_main_v30 (F := Ideal) mid (ix3 b n j) = Ideal.div (expo mid b n j) (expSum mid b n) := by
  rw [val_main_v30_apply, v26_at, val_main_v29_apply, val_main_v28_apply, idx_expSum, v27_at]
  rfl

/-- The weighted average of the final features' rows. -/
theorem v31_at (fin mid : Arr) (b : Fin 8) (n : Fin 2048) (d : Fin 768) :
    val_main_v31 (F := Ideal) fin mid (ix3 b n d)
      = ∑ j : Fin 2048, Ideal.div (expo mid b n j) (expSum mid b n) * fin (ix3 b j d) := by
  rw [val_main_v31_apply]
  simp only [idx_avgL, idx_avgR, v30_at]

/-- The reference's result, index by index, is the whole-row formula: confidence times the weighted average plus
    (1 - confidence) times the row's own final features. -/
theorem ref_is_refOut (fin mid : Arr) :
    val_main_v39 (F := Ideal) fin mid = fun i => refOut fin mid (i 0) (i 1) (i 2) := by
  funext i
  obtain ⟨b, n, d, rfl⟩ : ∃ (b : Fin 8) (n : Fin 2048) (d : Fin 768), i = ix3 b n d := ⟨i 0, i 1, i 2, eq_ix3 i⟩
  rw [val_main_v39_apply, val_main_v34_apply, val_main_v33_apply, val_main_v32_apply, idx_conf, v17_at, v31_at,
    val_main_v38_apply, val_main_v37_apply, val_main_v36_apply, val_main_v32_apply, idx_conf', v17_at,
    val_main_v35_apply, val_main_cst_6_apply]
  show _ = refOut fin mid b n d
  rw [refOut_eq]
  rfl

/-- The same, for the result array the reference's run ends with, from the memory the run starts in: the first
    argument holds the final features, the second the middle features. -/
theorem res_is_refOut (m : (ℓ : Loc nD τ sig) → Buf (Elt Ideal) ℓ) (c : Dev nD) :
    Cert.ReferenceIdeal.Value.res_main_v39 m c
      = fun i => refOut (m ((c.tc : Thread nD τ).loc main_arg0)) (m ((c.tc : Thread nD τ).loc main_arg1)) (i 0) (i 1) (i 2) :=
  (val_main_v39_eq m c).trans (ref_is_refOut _ _)

end Cert.SimAttn.Ref

end
-- ==== Proof.OnlineSoftmax.lean ====
/-
  The online softmax is the softmax.

  The scores of one query row are finite reals. Walking the row tile by tile with a running maximum m, a running
  sum L of exponentials relative to m and a running weighted sum A relative to m, and rescaling L and A by
  exp (m_old - m_new) whenever the maximum moves, leaves after the last tile exactly the whole row's maximum M, the
  whole row's sum of exp (s_j - M) and the whole row's weighted sum of exp (s_j - M) v_j: this is
  exp (a - c) = exp (b - c) * exp (a - b), carried through the sums. The first tile starts from the maximum -infinity,
  where the rescaling factor is exp (-infinity) = 0 and multiplies the empty sums 0. Dividing A by L once at the end is
  dividing every term by L. The eight tiles of 256 keys are the 2048 keys, each once.
-/
import proofs.«129787_j68813966016741_2_alg».proof.Proof.Spec

noncomputable section

namespace Cert.SimAttn

open Idealize.ShloMosaic Idealize.ShloMosaic.ValueIdx

/-! ## The three constants -/

/-- The starting maximum is the bottom of the extended reals. -/
theorem negInf_eq : negInf = ⊥ := by
  simp [negInf, Ideal.ofBits, Ideal.ieee]

/-- The unit of the blend is 1. -/
theorem one_eq : one = 1 := by
  simp [one, Ideal.ofBits, Ideal.ieee, -EReal.coe_mul]; norm_num

/-- The floor of the lengths, as a real. -/
def epsR : ℝ := 9223372 * (2 ^ 63)⁻¹

theorem eps_eq : eps = (epsR : EReal) := by
  simp [eps, epsR, Ideal.ofBits, Ideal.ieee, -EReal.coe_mul]

theorem epsR_pos : 0 < epsR := by
  unfold epsR; positivity

/-! ## Finite sums and maxima of reals inside the extended reals -/

/-- The inclusion of the reals commutes with finite sums. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The maximum, started from the bottom, of a nonempty finite family of reals is a real, is an upper bound of the
    family, and is attained. -/
theorem fold_max_coe {ι : Type*} [Fintype ι] [Nonempty ι] (f : ι → ℝ) :
    ∃ m : ℝ, (Finset.univ : Finset ι).fold max (⊥ : EReal) (fun i => (f i : EReal)) = (m : EReal)
      ∧ (∀ i, f i ≤ m) ∧ ∃ i, f i = m := by
  refine ⟨Finset.univ.sup' Finset.univ_nonempty f, ?_, fun i => Finset.le_sup' f (Finset.mem_univ i), ?_⟩
  · have h1 : (Finset.univ : Finset ι).fold max (⊥ : EReal) (fun i => (f i : EReal))
        = Finset.univ.sup (fun i => (f i : EReal)) := rfl
    rw [h1, ← Finset.sup'_eq_sup Finset.univ_nonempty]
    exact (Finset.comp_sup'_eq_sup'_comp Finset.univ_nonempty (fun r : ℝ => (r : EReal))
      (fun x y => EReal.coe_strictMono.monotone.map_max)).symm
  · obtain ⟨i, _, hi⟩ := Finset.exists_mem_eq_sup' Finset.univ_nonempty f
    exact ⟨i, hi.symm⟩

/-- A tile's maximum is a real, an upper bound of the tile, attained in the tile. -/
theorem tileMax_coe (s : ℕ → Fin 256 → ℝ) (k : ℕ) :
    ∃ t : ℝ, tileMax (fun i c => (s i c : EReal)) k = (t : EReal) ∧ (∀ c, s k c ≤ t) ∧ ∃ c, s k c = t := by
  unfold tileMax
  rw [negInf_eq]
  exact fold_max_coe (s k)

/-! ## The running maximum, sum and weighted sum over real scores -/

section Online

variable (s v : ℕ → Fin 256 → ℝ)

/-- After 'k + 1' tiles of real scores the running maximum is the real maximum 'm' of those tiles (an upper bound,
    attained), the running sum is the sum of exp (s - m) over them and the running weighted sum that of
    exp (s - m) * v. -/
theorem run_coe (k : ℕ) :
    ∃ m : ℝ, runM (fun i c => (s i c : EReal)) (k + 1) = (m : EReal)
      ∧ (∀ i ∈ Finset.range (k + 1), ∀ c, s i c ≤ m) ∧ (∃ i ∈ Finset.range (k + 1), ∃ c, s i c = m)
      ∧ runL (fun i c => (s i c : EReal)) (k + 1)
          = ((∑ i ∈ Finset.range (k + 1), ∑ c, Real.exp (s i c - m) : ℝ) : EReal)
      ∧ runA (fun i c => (s i c : EReal)) (fun i c => (v i c : EReal)) (k + 1)
          = ((∑ i ∈ Finset.range (k + 1), ∑ c, Real.exp (s i c - m) * v i c : ℝ) : EReal) := by
  induction k with
  | zero =>
    obtain ⟨t, ht, hle, c0, hc0⟩ := tileMax_coe s 0
    have hM : runM (fun i c => (s i c : EReal)) 1 = (t : EReal) := by
      simp [runM, ht, negInf_eq]
    refine ⟨t, hM, ?_, ⟨0, by simp, c0, hc0⟩, ?_, ?_⟩
    · intro i hi c
      have : i = 0 := by simpa using hi
      subst this
      exact hle c
    · rw [runL, hM]
      simp only [runM, runL, negInf_eq, EReal.bot_sub, Ideal.exp_bot, mul_zero, zero_add, Finset.range_one,
        Finset.sum_singleton, ← EReal.coe_sub, Ideal.exp_coe, ← coe_sum]
    · rw [runA, hM]
      simp only [runM, runA, negInf_eq, EReal.bot_sub, Ideal.exp_bot, mul_zero, zero_add, Finset.range_one,
        Finset.sum_singleton, ← EReal.coe_sub, Ideal.exp_coe, ← EReal.coe_mul, ← coe_sum]
  | succ k ih =>
    obtain ⟨m, hm, hub, ⟨i0, hi0, c0, hc0⟩, hL, hA⟩ := ih
    obtain ⟨t, ht, hle, c1, hc1⟩ := tileMax_coe s (k + 1)
    have hM : runM (fun i c => (s i c : EReal)) (k + 1 + 1) = ((max m t : ℝ) : EReal) := by
      rw [runM, hm, ht]
      exact (EReal.coe_strictMono.monotone.map_max).symm
    have hresc : ∀ x : ℝ, Real.exp (x - max m t) = Real.exp (m - max m t) * Real.exp (x - m) := by
      intro x
      rw [← Real.exp_add]
      congr 1
      ring
    refine ⟨max m t, hM, ?_, ?_, ?_, ?_⟩
    · intro i hi c
      rcases Finset.mem_range_succ_iff.mp hi |>.lt_or_eq with h | h
      · exact (hub i (Finset.mem_range.mpr h) c).trans (le_max_left _ _)
      · subst h
        exact (hle c).trans (le_max_right _ _)
    · rcases le_total t m with h | h
      · exact ⟨i0, Finset.mem_range.mpr ((Finset.mem_range.mp hi0).trans (Nat.lt_succ_self _)), c0, by
          rw [hc0, max_eq_left h]⟩
      · exact ⟨k + 1, Finset.self_mem_range_succ _, c1, by rw [hc1, max_eq_right h]⟩
    · rw [runL, hM, hm, hL, Finset.sum_range_succ _ (k + 1)]
      simp only [← EReal.coe_sub, Ideal.exp_coe, ← EReal.coe_mul, ← coe_sum, ← EReal.coe_add]
      congr 2
      rw [Finset.mul_sum]
      refine Finset.sum_congr rfl fun i _ => ?_
      rw [Finset.mul_sum]
      exact Finset.sum_congr rfl fun c _ => (hresc _).symm
    · rw [runA, hM, hm, hA, Finset.sum_range_succ _ (k + 1)]
      simp only [← EReal.coe_sub, Ideal.exp_coe, ← EReal.coe_mul, ← coe_sum, ← EReal.coe_add]
      congr 2
      rw [Finset.mul_sum]
      refine Finset.sum_congr rfl fun i _ => ?_
      rw [Finset.mul_sum]
      refine Finset.sum_congr rfl fun c _ => ?_
      rw [hresc (s i c), mul_assoc]

end Online

/-! ## The scores are finite reals -/

section Scores

variable (x : Arr) (hx : ∀ i, ∃ r : ℝ, x i = (r : EReal))

include hx

/-- A row's sum of squares is a nonnegative real. -/
theorem sumSq_coe (b : Fin 8) (n : Fin 2048) : ∃ r : ℝ, 0 ≤ r ∧ sumSq x b n = (r : EReal) := by
  choose f hf using hx
  refine ⟨∑ d : Fin 768, f (ix3 b n d) * f (ix3 b n d), Finset.sum_nonneg fun d _ => mul_self_nonneg _, ?_⟩
  unfold sumSq
  rw [coe_sum]
  exact Finset.sum_congr rfl fun d _ => by rw [hf, EReal.coe_mul]

/-- A row's floored length is a positive real. -/
theorem len_coe (b : Fin 8) (n : Fin 2048) : ∃ r : ℝ, 0 < r ∧ len x b n = (r : EReal) := by
  obtain ⟨q, hq0, hq⟩ := sumSq_coe x hx b n
  refine ⟨max (Real.sqrt q) epsR, lt_max_of_lt_right epsR_pos, ?_⟩
  unfold len
  rw [hq, Ideal.sqrt_coe, if_neg (not_lt.mpr hq0), eps_eq]
  exact (EReal.coe_strictMono.monotone.map_max).symm

/-- The entries of a normalised row are reals: a real divided by a positive real. -/
theorem unit_coe (b : Fin 8) (n : Fin 2048) (d : Fin 768) : ∃ r : ℝ, unit x b n d = (r : EReal) := by
  obtain ⟨l, hl0, hl⟩ := len_coe x hx b n
  obtain ⟨a, ha⟩ := hx (ix3 b n d)
  refine ⟨a * (1 / l), ?_⟩
  unfold unit
  rw [hl, Ideal.div_coe hl0.ne', ha, EReal.coe_mul]

/-- The inner product of two normalised rows is a real. -/
theorem cosine_coe (b : Fin 8) (n j : Fin 2048) : ∃ r : ℝ, cosine x b n j = (r : EReal) := by
  choose u hu using unit_coe x hx b
  refine ⟨∑ d : Fin 768, u n d * u j d, ?_⟩
  unfold cosine
  rw [coe_sum]
  exact Finset.sum_congr rfl fun d _ => by rw [hu, hu, EReal.coe_mul]

/-- The two ways of removing the diagonal agree, on reals: a real times 1 - 1 is 0 and a real times 1 - 0 is
    itself. -/
theorem score_coe (b : Fin 8) (n : Fin 2048) :
    ∃ σ : Fin 2048 → ℝ, (∀ j, score x b n j = (σ j : EReal)) ∧ ∀ j, maskedScore x b n j = (σ j : EReal) := by
  choose c hc using cosine_coe x hx b n
  refine ⟨fun j => if n = j then 0 else c j, fun j => ?_, fun j => ?_⟩
  · unfold score
    by_cases h : n = j
    · simp only [if_pos h, EReal.coe_zero]
    · simp only [if_neg h, hc]
  · unfold maskedScore
    rw [one_eq, hc]
    by_cases h : n = j
    · simp only [if_pos h]
      rw [show (1 : EReal) - 1 = 0 from by rw [← EReal.coe_one, ← EReal.coe_sub, sub_self, EReal.coe_zero],
        mul_zero, EReal.coe_zero]
    · simp only [if_neg h]
      rw [sub_zero, mul_one]

end Scores

/-- Dividing a real by the unit leaves it. -/
theorem div_one_coe (r : ℝ) : Ideal.div (r : EReal) one = (r : EReal) := by
  rw [one_eq, ← EReal.coe_one, Ideal.div_coe one_ne_zero, ← EReal.coe_mul, one_div_one, mul_one]

/-! ## The eight tiles are the row -/

/-- Every key lies in one of the eight tiles. -/
theorem key_surj (j : Fin 2048) : ∃ i ∈ Finset.range 8, ∃ c : Fin 256, key i c = j := by
  have hj := j.isLt
  refine ⟨j.val / 256, Finset.mem_range.mpr (by omega), ⟨j.val % 256, Nat.mod_lt _ (by norm_num)⟩, ?_⟩
  apply Fin.ext
  simp only [key]
  omega

/-- Summing tile by tile is summing over the row: 8 * 256 = 2048 keys, each reached, hence each reached once. -/
theorem sum_tiles {M : Type*} [AddCommMonoid M] (g : Fin 2048 → M) :
    ∑ i ∈ Finset.range 8, ∑ c : Fin 256, g (key i c) = ∑ j, g j := by
  rw [Finset.sum_range (fun i => ∑ c : Fin 256, g (key i c)),
    ← Fintype.sum_prod_type' (fun (i : Fin 8) (c : Fin 256) => g (key i c))]
  refine Fintype.sum_bijective (fun p : Fin 8 × Fin 256 => key p.1 p.2) ?_ _ _ (fun p => rfl)
  rw [Fintype.bijective_iff_surjective_and_card]
  refine ⟨fun j => ?_, by simp⟩
  obtain ⟨i, hi, c, h⟩ := key_surj j
  exact ⟨(⟨i, Finset.mem_range.mp hi⟩, c), h⟩

/-! ## The claim -/

/-- On finite inputs the tile-by-tile formula and the whole-row formula are the same extended real. -/
theorem kerOut_eq_refOut (fin mid : Arr) (hfin : ∀ i, ∃ r : ℝ, fin i = (r : EReal))
    (hmid : ∀ i, ∃ r : ℝ, mid i = (r : EReal)) (b : Fin 8) (n : Fin 2048) (d : Fin 768) :
    kerOut fin mid b n d = refOut fin mid b n d := by
  obtain ⟨σ, hσ, hσ'⟩ := score_coe mid hmid b n
  choose f hf using hfin
  have hs : (fun (k : ℕ) (c : Fin 256) => score mid b n (key k c))
      = fun k c => ((σ (key k c) : ℝ) : EReal) := by
    funext k c; exact hσ _
  have hv : (fun (k : ℕ) (c : Fin 256) => fin (ix3 b (key k c) d))
      = fun k c => ((f (ix3 b (key k c) d) : ℝ) : EReal) := by
    funext k c; exact hf _
  have hms : maskedScore mid b n = fun j => (σ j : EReal) := funext hσ'
  obtain ⟨m, hm, hub, ⟨i0, hi0, c0, hc0⟩, hL, hA⟩ :=
    run_coe (fun k c => σ (key k c)) (fun k c => f (ix3 b (key k c) d)) 7
  obtain ⟨M, hM, hMub, ⟨j0, hj0⟩⟩ := fold_max_coe σ
  have hmM : m = M := by
    apply le_antisymm
    · rw [← hc0]; exact hMub _
    · obtain ⟨i, hi, c, h⟩ := key_surj j0
      rw [← hj0, ← h]; exact hub i hi c
  subst hmM
  rw [sum_tiles (fun j => Real.exp (σ j - m))] at hL
  rw [sum_tiles (fun j => Real.exp (σ j - m) * f (ix3 b j d))] at hA
  have hLpos : 0 < ∑ j, Real.exp (σ j - m) :=
    Finset.sum_pos (fun j _ => Real.exp_pos _) Finset.univ_nonempty
  have hker : kerOut fin mid b n d = blend (m : EReal)
      (((∑ j, Real.exp (σ j - m) * f (ix3 b j d)) * (1 / ∑ j, Real.exp (σ j - m)) : ℝ) : EReal)
      (fin (ix3 b n d)) := by
    simp only [kerOut]
    rw [hs, hv, hm, hL, hA, Ideal.div_coe hLpos.ne', ← EReal.coe_mul]
  have href : refOut fin mid b n d = blend (m : EReal)
      (((∑ j, Real.exp (σ j - m) * (1 / ∑ j, Real.exp (σ j - m)) * f (ix3 b j d)) : ℝ) : EReal)
      (fin (ix3 b n d)) := by
    simp only [refOut]
    rw [hms]
    simp only [negInf_eq, hM, div_one_coe, max_bot_left, ← EReal.coe_sub, Ideal.exp_coe, zero_add, ← coe_sum,
      Ideal.div_coe hLpos.ne', hf, ← EReal.coe_mul]
  have hdiv : (∑ j, Real.exp (σ j - m) * f (ix3 b j d)) * (1 / ∑ j, Real.exp (σ j - m))
      = ∑ j, Real.exp (σ j - m) * (1 / ∑ j, Real.exp (σ j - m)) * f (ix3 b j d) := by
    rw [Finset.sum_mul]
    exact Finset.sum_congr rfl fun j _ => by ring
  rw [hker, href, hdiv]

end Cert.SimAttn

end
-- ==== Proof.Finite.lean ====
/-
  The precondition read back: every entry of both argument arrays is a real number.

  The precondition says, of each of the two arrays, that the conjunction over all entries of "|x| < +infinity" is
  true, and that the conjunction of the two answers is true. A conjunction of one-bit words that comes out 1 met only
  1s, so each single comparison holds; and an extended real whose absolute value max(x, -x) lies below +infinity is
  neither +infinity nor -infinity, hence a real.
-/
import proofs.«129787_j68813966016741_2_alg».proof.Defs
import proofs.«129787_j68813966016741_2_alg».proof.Proof.Gen.Pre_finite_inputs
import Idealize.ShloMosaic.Lib.ReduceAll
import Idealize.ShloMosaic.Lib.ValueIdx
import Idealize.ShloMosaic.PureOps.Ideal.Laws

noncomputable section

namespace Cert.SimAttn.Pre

open Idealize.ShloMosaic Idealize.ShloMosaic.TcCoe Idealize.SL.Sem Cert.Pre_finite_inputs

/-- The scalar shape has one index. -/
instance : Subsingleton S_.Idx := ⟨fun a b => funext fun d => d.elim0⟩

/-- An extended real whose absolute value is below +infinity is a real. -/
theorem real_of_abs_lt_top (x : EReal) (h : max x (-x) < ⊤) : ∃ r : ℝ, x = (r : EReal) := by
  induction x using EReal.rec with
  | bot => simp at h
  | top => simp at h
  | coe r => exact ⟨r, rfl⟩

/-- One entry's comparison "|x| < +infinity", answered 1, makes the entry a real. -/
theorem elem_finite (x : Ideal .f32)
    (h : FloatOps.cmpf (F := Ideal) .olt (FloatOps.hostAbsf x) (FloatOps.ofBits .f32 0x7F800000#32) = 1#1) :
    ∃ r : ℝ, x = (r : EReal) := by
  have htop : Ideal.ofBits .f32 0x7F800000#32 = ⊤ := by simp [Ideal.ofBits, Ideal.ieee]
  change BitVec.ofBool (decide (max x (-x) < Ideal.ofBits .f32 0x7F800000#32)) = 1#1 at h
  rw [htop] at h
  by_cases hp : max x (-x) < ⊤
  · exact real_of_abs_lt_top x hp
  · simp [hp] at h

/-- The conjunction over a whole array of "|x| < +infinity", answered 1, makes every entry a real. -/
theorem all_finite (x : FVec Ideal S8x2048x768 .f32)
    (h : Host.reduce IntOp.andi
        (cmpf .olt (Host.absf x) (broadcastInDim S8x2048x768 ![] Facts.bcast_S_S8x2048x768 (constant S_ .f32 0x7F800000#32)))
        (constantI S_ 1 1#1) Facts.reducesTo_S8x2048x768_S_d0_1_2 Facts.h_S_ ValueIdx.ix0 = 1#1)
    (i : S8x2048x768.Idx) : ∃ r : ℝ, x i = (r : EReal) :=
  elem_finite (x i) (Host.reduce_andi_all _ _ _ _ _ h i)

/-- The printed predicate, all ones, makes every entry of both arrays a real. -/
theorem fn_all_ones (x y : FVec Ideal S8x2048x768 .f32) (h : fn (F := Ideal) x y = fun _ => 1#1) :
    (∀ i, ∃ r : ℝ, x i = (r : EReal)) ∧ (∀ i, ∃ r : ℝ, y i = (r : EReal)) := by
  have e := congrFun h ValueIdx.ix0
  unfold fn at e
  dsimp only at e
  obtain ⟨hx, hy⟩ := IntOp.andi_eq_one.1 e
  exact ⟨all_finite x hx, all_finite y hy⟩

/-- The certificate's precondition makes every entry of both argument arrays, on every device, a real. -/
theorem finite_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal)) :=
  fn_all_ones _ _ (h c)

end Cert.SimAttn.Pre

end
-- ==== Proof.lean ====
/-
  The claim: a tiled, running-softmax kernel for similarity attention over row-normalised features computes, on the
  extended reals, what the plain whole-row formula computes.

  Both programs normalise each feature row by its length (floored at a small positive number), score a pair of rows
  by the inner product of the normalised rows with the diagonal set to zero, take each row's largest score as its
  confidence, weigh the value rows by the softmax of the scores, and blend the weighted average with the row's own
  value by the confidence. The reference does it a whole row at a time. The kernel walks each row of scores in
  eight tiles of 256 keys, carrying a running maximum, a running sum of exponentials and a running weighted sum,
  each rescaled by the exponential of the change of the maximum, and divides once at the end. With finite inputs
  every score is a real number, the running quantities after the eighth tile are the whole row's maximum, sum and
  weighted sum (exp (a - c) = exp (a - b) · exp (b - c)), and Σ (e / L) · v = (Σ e · v) / L with L ≥ 1: the two
  results are equal index by index.

  The frames: each kernel program is one pipelined region whose windows read each argument array twice, so each
  array's share is split between its two windows; the body is run once per control case (first, middle, last key
  tile) and the carried buffers are followed from point to point. The reference is straight-line host code.
  The idealisation rewrote nothing, so there is nothing to preserve.
-/
import proofs.«129787_j68813966016741_2_alg».proof.Defs
import proofs.«129787_j68813966016741_2_alg».proof.Proof.Gen.Kernel
import proofs.«129787_j68813966016741_2_alg».proof.Proof.Gen.KernelIdeal
import proofs.«129787_j68813966016741_2_alg».proof.Proof.Gen.ReferenceIdeal
import proofs.«129787_j68813966016741_2_alg».proof.Proof.Gen.Pre_finite_inputs
import proofs.«129787_j68813966016741_2_alg».proof.Proof.Gen.ReferenceIdeal.Run
import proofs.«129787_j68813966016741_2_alg».proof.Proof.RunK
import proofs.«129787_j68813966016741_2_alg».proof.Proof.Value
import proofs.«129787_j68813966016741_2_alg».proof.Proof.RefValue
import proofs.«129787_j68813966016741_2_alg».proof.Proof.OnlineSoftmax
import proofs.«129787_j68813966016741_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at one array: the kernel's at the tile-by-tile formula, the reference's at the whole-row formula
    of the same (finite) arguments. -/
theorem algebraic : Cert.algebraic_KernelIdeal_ReferenceIdeal := by
  intro m ρ m' ρ' hpre hagree
  refine ⟨fun c => Cert.KernelIdeal.Hand.result m c, Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  obtain ⟨hfin, hmid⟩ := Cert.SimAttn.Pre.finite_of_pre m hpre c
  rw [Cert.SimAttn.Ref.res_is_refOut, (hagree c).1, (hagree c).2]
  funext i
  exact (Cert.SimAttn.kerOut_eq_refOut _ _ hfin hmid (i 0) (i 1) (i 2)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
